-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S40000 : Shape := ⟨1, ![40000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg9 : FVec F S128 .f32) (main_arg10 : FVec F S128 .f32) (main_arg11 : FVec F S128x10 .f32) (main_arg12 : FVec F S10 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x10 .f32 := Host.absf main_arg11
  let main_cst_16 : FVec F S_ .f32 := constant S_ .f32 0x7F800000#32
  let main_v45 : FVec F S128x10 .f32 := broadcastInDim S128x10 ![] bcast_S_S128x10 main_cst_16
  let main_v46 : IVec S128x10 1 := cmpf .olt main_v44 main_v45
  let main_c_17 : IVec S_ 1 := constantI S_ 1 1#1
  let main_v47 : IVec S_ 1 := (fun x v => Host.reduce IntOp.andi x v reducesTo_S128x10_S_d0_1 h_S_) main_v46 main_c_17
  let main_v48 : IVec S_ 1 := andi main_v43 main_v47
  let main_v49 : FVec F S10 .f32 := Host.absf main_arg12
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg6 : FVec F S128 .f32) (main_arg7 : FVec F S128 .f32) (main_arg8 : FVec F S128 .f32) (main_arg9 : FVec F S128 .f32) (main_arg10 : FVec F S128 .f32) (main_arg11 : FVec F S128x10 .f32) (main_arg12 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S40000x128 .f32) (main_arg1 : IVec S2x640000 32) (main_arg2 : IVec S40000 32) (main_arg3 : FVec F S128x128 .f32) (main_arg4 : FVec F S128 .f32) (main_arg5 : FVec F S128x128 .f32) (main_arg6 : FVec F S128 .f32) (main_arg7 : FVec F S128 .f32) (main_arg8 : FVec F S128 .f32) (main_arg9 : FVec F S128 .f32) (main_arg10 : FVec F S128 .f32) (main_arg11 : FVec F S128x10 .f32) (main_arg12 : FVec F S10 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S40000x128 : Shape := ⟨2, ![40000, 128]⟩
abbrev S2x640000 : Shape := ⟨2, ![2, 640000]⟩
abbrev S40000 : Shape := ⟨1, ![40000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x640000 : Shape := ⟨2, ![1, 640000]⟩
abbrev S640000 : Shape := ⟨1, ![640000]⟩
abbrev S680000 : Shape := ⟨1, ![680000]⟩
abbrev S_ : Shape := ⟨0, ![]⟩
abbrev S680000x1 : Shape := ⟨2, ![680000, 1]⟩
abbrev S40000x1 : Shape := ⟨2, ![40000, 1]⟩
abbrev S4000x128 : Shape := ⟨2, ![4000, 128]⟩
abbrev S4000x1 : Shape := ⟨2, ![4000, 1]⟩
abbrev S680000x128 : Shape := ⟨2, ![680000, 128]⟩
abbrev S1x128 : Shape := ⟨2, ![1, 128]⟩
abbrev S4000 : Shape := ⟨1, ![4000]⟩
abbrev S64x128 : Shape := ⟨2, ![64, 128]⟩
abbrev S64 : Shape := ⟨1, ![64]⟩
abbrev S64x1 : Shape := ⟨2, ![64, 1]⟩
abbrev S1x10 : Shape := ⟨2, ![1, 10]⟩
abbrev S64x10 : Shape := ⟨2, ![64, 10]⟩

abbrev nBuf : Space → Nat
  | .hbm => 87
  | .vmem => 36
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S40000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128x10, .f32⟩
  | .hbm, ⟨12, _⟩ => ⟨S10, .f32⟩
  | .hbm, ⟨13, _⟩ => ⟨S40000, .i32⟩
  | .hbm, ⟨14, _⟩ => ⟨S1x640000, .i32⟩
  | .hbm, ⟨15, _⟩ => ⟨S640000, .i32⟩
  | .hbm, ⟨16, _⟩ => ⟨S680000, .i32⟩
  | .hbm, ⟨17, _⟩ => ⟨S1x640000, .i32⟩
  | .hbm, ⟨18, _⟩ => ⟨S640000, .i32⟩
  | .hbm, ⟨19, _⟩ => ⟨S680000, .i32⟩
  | .hbm, ⟨20, _⟩ => ⟨S_, .f32⟩
  | .hbm, ⟨21, _⟩ => ⟨S680000, .f32⟩
  | .hbm, ⟨22, _⟩ => ⟨S_, .f32⟩
  | .hbm, ⟨23, _⟩ => ⟨S40000, .f32⟩
  | .hbm, ⟨24, _⟩ => ⟨S680000x1, .i32⟩
  | .hbm, ⟨25, _⟩ => ⟨S40000, .f32⟩
  | .hbm, ⟨26, _⟩ => ⟨S_, .f32⟩
  | .hbm, ⟨27, _⟩ => ⟨S40000, .f32⟩
  | .hbm, ⟨28, _⟩ => ⟨S40000, .f32⟩
  | .hbm, ⟨29, _⟩ => ⟨S40000, .f32⟩
  | .hbm, ⟨30, _⟩ => ⟨S40000x1, .f32⟩
  | .hbm, ⟨31, _⟩ => ⟨S40000x128, .bf16⟩
  | .hbm, ⟨32, _⟩ => ⟨S_, .i32⟩
  | .hbm, ⟨33, _⟩ => ⟨S680000, .i32⟩
  | .hbm, ⟨34, _⟩ => ⟨S680000, .i1⟩
  | .hbm, ⟨35, _⟩ => ⟨S_, .i32⟩
  | .hbm, ⟨36, _⟩ => ⟨S680000, .i32⟩
  | .hbm, ⟨37, _⟩ => ⟨S680000, .i32⟩
  | .hbm, ⟨38, _⟩ => ⟨S680000, .i32⟩
  | .hbm, ⟨39, _⟩ => ⟨S680000x1, .i32⟩
  | .hbm, ⟨40, _⟩ => ⟨S680000x128, .bf16⟩
  | .hbm, ⟨41, _⟩ => ⟨S680000x128, .f32⟩
  | .hbm, ⟨42, _⟩ => ⟨S_, .f32⟩
  | .hbm, ⟨43, _⟩ => ⟨S40000x128, .f32⟩
  | .hbm, ⟨44, _⟩ => ⟨S680000x1, .i32⟩
  | .hbm, ⟨45, _⟩ => ⟨S40000x128, .f32⟩
  | .hbm, ⟨46, _⟩ => ⟨S1x128, .f32⟩
  | .hbm, ⟨47, _⟩ => ⟨S1x128, .f32⟩
  | .hbm, ⟨48, _⟩ => ⟨S1x128, .f32⟩
  | .hbm, ⟨49, _⟩ => ⟨S40000x128, .f32⟩
  | .hbm, ⟨50, _⟩ => ⟨S40000x128, .bf16⟩
  | .hbm, ⟨51, _⟩ => ⟨S_, .i32⟩
  | .hbm, ⟨52, _⟩ => ⟨S680000, .i32⟩
  | .hbm, ⟨53, _⟩ => ⟨S680000, .i1⟩
  | .hbm, ⟨54, _⟩ => ⟨S_, .i32⟩
  | .hbm, ⟨55, _⟩ => ⟨S680000, .i32⟩
  | .hbm, ⟨56, _⟩ => ⟨S680000, .i32⟩
  | .hbm, ⟨57, _⟩ => ⟨S680000, .i32⟩
  | .hbm, ⟨58, _⟩ => ⟨S680000x1, .i32⟩
  | .hbm, ⟨59, _⟩ => ⟨S680000x128, .bf16⟩
  | .hbm, ⟨60, _⟩ => ⟨S680000x128, .f32⟩
  | .hbm, ⟨61, _⟩ => ⟨S_, .f32⟩
  | .hbm, ⟨62, _⟩ => ⟨S40000x128, .f32⟩
  | .hbm, ⟨63, _⟩ => ⟨S680000x1, .i32⟩
  | .hbm, ⟨64, _⟩ => ⟨S40000x128, .f32⟩
  | .hbm, ⟨65, _⟩ => ⟨S1x128, .f32⟩
  | .hbm, ⟨66, _⟩ => ⟨S1x128, .f32⟩
  | .hbm, ⟨67, _⟩ => ⟨S1x128, .f32⟩
  | .hbm, ⟨68, _⟩ => ⟨S40000x128, .f32⟩
  | .hbm, ⟨69, _⟩ => ⟨S_, .f32⟩
  | .hbm, ⟨70, _⟩ => ⟨S64x128, .f32⟩
  | .hbm, ⟨71, _⟩ => ⟨S40000x1, .i32⟩
  | .hbm, ⟨72, _⟩ => ⟨S64x128, .f32⟩
  | .hbm, ⟨73, _⟩ => ⟨S_, .f32⟩
  | .hbm, ⟨74, _⟩ => ⟨S40000, .f32⟩
  | .hbm, ⟨75, _⟩ => ⟨S_, .f32⟩
  | .hbm, ⟨76, _⟩ => ⟨S64, .f32⟩
  | .hbm, ⟨77, _⟩ => ⟨S40000x1, .i32⟩
  | .hbm, ⟨78, _⟩ => ⟨S64, .f32⟩
  | .hbm, ⟨79, _⟩ => ⟨S_, .f32⟩
  | .hbm, ⟨80, _⟩ => ⟨S64, .f32⟩
  | .hbm, ⟨81, _⟩ => ⟨S64, .f32⟩
  | .hbm, ⟨82, _⟩ => ⟨S64x1, .f32⟩
  | .hbm, ⟨83, _⟩ => ⟨S64x128, .f32⟩
  | .hbm, ⟨84, _⟩ => ⟨S64x128, .f32⟩
  | .hbm, ⟨85, _⟩ => ⟨S1x10, .f32⟩
  | .hbm, ⟨86, _⟩ => ⟨S64x10, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x1, .f32⟩
  | .local _ .vmem, ⟨4, _⟩ => ⟨S4000x1, .f32⟩
  | .local _ .vmem, ⟨5, _⟩ => ⟨S4000x128, .bf16⟩
  | .local _ .vmem, ⟨6, _⟩ => ⟨S4000x128, .bf16⟩
  | .local _ .vmem, ⟨7, _⟩ => ⟨S4000x128, .f32⟩
  | .local _ .vmem, ⟨8, _⟩ => ⟨S4000x128, .f32⟩
  | .local _ .vmem, ⟨9, _⟩ => ⟨S4000x1, .f32⟩
  | .local _ .vmem, ⟨10, _⟩ => ⟨S4000x1, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S128x128, .f32⟩
  | .local _ .vmem, ⟨19, _⟩ => ⟨S4000x1, .f32⟩
  | .local _ .vmem, ⟨20, _⟩ => ⟨S4000x1, .f32⟩
  | .local _ .vmem, ⟨21, _⟩ => ⟨S4000x128, .bf16⟩
  | .local _ .vmem, ⟨22, _⟩ => ⟨S4000x128, .bf16⟩
  | .local _ .vmem, ⟨23, _⟩ => ⟨S4000x128, .f32⟩
  | .local _ .vmem, ⟨24, _⟩ => ⟨S4000x128, .f32⟩
  | .local _ .vmem, ⟨25, _⟩ => ⟨S4000x1, .f32⟩
  | .local _ .vmem, ⟨26, _⟩ => ⟨S4000x1, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S4000x128, .f32⟩
  | .local _ .vmem, ⟨31, _⟩ => ⟨S4000x128, .f32⟩
  | .local _ .vmem, ⟨32, _⟩ => ⟨S64x128, .f32⟩
  | .local _ .vmem, ⟨33, _⟩ => ⟨S128x10, .f32⟩
  | .local _ .vmem, ⟨34, _⟩ => ⟨S1x10, .f32⟩
  | .local _ .vmem, ⟨35, _⟩ => ⟨S64x10, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_4 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_6 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_7 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_cst_9 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_10 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg1_0 : Ref sig .tc := ⟨.vmem, 33, rfl⟩
abbrev cc4_stg2_0 : Ref sig .tc := ⟨.vmem, 34, rfl⟩
abbrev cc4_stg3_0 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem1_0 : DmaSem sig := 33
abbrev cc4_sem2_0 : DmaSem sig := 34
abbrev cc4_sem3_0 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4000x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S64x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x10 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x10 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x10 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x640000_S1x640000_0_0 : S2x640000.Slices ![0, 0] S1x640000
  shapeCasts_S1x640000_S640000 : S1x640000.ShapeCasts S640000
  concatenates_S640000_S40000_S680000_d0 : Shape.Concatenates [S640000, S40000] S680000 0
  slices_S2x640000_S1x640000_1_0 : S2x640000.Slices ![1, 0] S1x640000
  bcast_S_S680000 : S_.BroadcastsInDim S680000 (![] : Fin 0 → Fin S680000.rank)
  bcast_S_S40000 : S_.BroadcastsInDim S40000 (![] : Fin 0 → Fin S40000.rank)
  bcast_S680000_S680000x1_0 : S680000.BroadcastsInDim S680000x1 (![0] : Fin 1 → Fin S680000x1.rank)
  shapeCasts_S40000_S40000x1 : S40000.ShapeCasts S40000x1
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  packedbf16_S4000x128_S4000x128_0_0 : (Rect.unit (s := S4000x128) ![0, 0] S4000x128.size inb_S4000x128_S4000x128_0_0).PackedRows (EltTy.packing .bf16)
  bcast_S_S40000x128 : S_.BroadcastsInDim S40000x128 (![] : Fin 0 → Fin S40000x128.rank)
  shapeCasts_S128_S1x128 : S128.ShapeCasts S1x128
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  reduces_S4000x128_S4000 : S4000x128.Reduces [1] S4000
  shapeCasts_S4000_S4000x1 : S4000.ShapeCasts S4000x1
  bcast_S_S64x128 : S_.BroadcastsInDim S64x128 (![] : Fin 0 → Fin S64x128.rank)
  bcast_S40000_S40000x1_0 : S40000.BroadcastsInDim S40000x1 (![0] : Fin 1 → Fin S40000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  shapeCasts_S10_S1x10 : S10.ShapeCasts S1x10
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  inb_S64x10_S64x10_0_0 : ∀ a, (![0, 0] : Fin 2 → Nat) a + S64x10.size a ≤ S64x10.size a
  h_S64x10 : 0 < S64x10.numel
  scatter_S40000_S680000x1_S680000_n_0_0_1_wf : ScatterDims.WF S40000 S680000x1 S680000 [] [0] [0] 1
  dot_S4000x128_S128x128_S4000x128_1_0_0_1_n_n_wf : DotDims.WF S4000x128 S128x128 S4000x128 [1] [0] [0] [1] [] []
  gather_S40000x128_S680000x1_S680000x128_1_0_n_n_0_1_1128_wf : GatherDims.WF S40000x128 S680000x1 S680000x128 [1] [0] [] [0] [] 1 ![1, 128]
  scatter_S40000x128_S680000x1_S680000x128_1_0_0_1_wf : ScatterDims.WF S40000x128 S680000x1 S680000x128 [1] [0] [0] 1
  scatter_S64x128_S40000x1_S40000x128_1_0_0_1_wf : ScatterDims.WF S64x128 S40000x1 S40000x128 [1] [0] [0] 1
  scatter_S64_S40000x1_S40000_n_0_0_1_wf : ScatterDims.WF S64 S40000x1 S40000 [] [0] [0] 1
  dot_S64x128_S128x10_S64x10_1_0_0_1_n_n_wf : DotDims.WF S64x128 S128x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S40000x128.size a
  hwx0_0 : ∀ i : grid0.Coords, EltTy.bits .f32 = 32 ∨ (Rect.block (s := S40000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S40000x1.size a
  hwx0_2 : ∀ i : grid0.Coords, EltTy.bits .f32 = 32 ∨ (Rect.block (s := S40000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S40000x128.size a
  hwx0_3 : ∀ i : grid0.Coords, EltTy.bits .bf16 = 32 ∨ (Rect.block (s := S40000x128) S4000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S40000x128.size a
  hwx1_0 : ∀ i : grid1.Coords, EltTy.bits .f32 = 32 ∨ (Rect.block (s := S40000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S40000x1.size a
  hwx1_1 : ∀ i : grid1.Coords, EltTy.bits .f32 = 32 ∨ (Rect.block (s := S40000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S40000x128.size a
  hwx1_5 : ∀ i : grid1.Coords, EltTy.bits .f32 = 32 ∨ (Rect.block (s := S40000x128) S4000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S40000x128.size a
  hwx2_0 : ∀ i : grid2.Coords, EltTy.bits .f32 = 32 ∨ (Rect.block (s := S40000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S40000x1.size a
  hwx2_2 : ∀ i : grid2.Coords, EltTy.bits .f32 = 32 ∨ (Rect.block (s := S40000x1) S4000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x128.size a ≤ S40000x128.size a
  hwx2_3 : ∀ i : grid2.Coords, EltTy.bits .bf16 = 32 ∨ (Rect.block (s := S40000x128) S4000x128.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S40000x128.size a
  hwx3_0 : ∀ i : grid3.Coords, EltTy.bits .f32 = 32 ∨ (Rect.block (s := S40000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x1.size a ≤ S40000x1.size a
  hwx3_1 : ∀ i : grid3.Coords, EltTy.bits .f32 = 32 ∨ (Rect.block (s := S40000x1) S4000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x128.size a ≤ S40000x128.size a
  hwx3_5 : ∀ i : grid3.Coords, EltTy.bits .f32 = 32 ∨ (Rect.block (s := S40000x128) S4000x128.size (cc3_transform_5 i) (hinb3_5 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S64x128.size a ≤ S64x128.size a
  hwx4_0 : ∀ i : grid4.Coords, EltTy.bits .f32 = 32 ∨ (Rect.block (s := S64x128) S64x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x10.size a ≤ S128x10.size a
  hwx4_1 : ∀ i : grid4.Coords, EltTy.bits .f32 = 32 ∨ (Rect.block (s := S128x10) S128x10.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x10.size a ≤ S1x10.size a
  hwx4_2 : ∀ i : grid4.Coords, EltTy.bits .f32 = 32 ∨ (Rect.block (s := S1x10) S1x10.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x10.size a ≤ S64x10.size a
  hwx4_3 : ∀ i : grid4.Coords, EltTy.bits .f32 = 32 ∨ (Rect.block (s := S64x10) S64x10.size (cc4_transform_3 i) (hinb4_3 i)).WholeWords (EltTy.packing .f32)

variable [Facts₀]

def scatter_S40000_S680000x1_S680000_n_0_0_1 : ScatterDims S40000 S680000x1 S680000 where
  updateWindowDims := []
  insertedWindowDims := [0]
  scatterDimsToOperandDims := [0]
  indexVectorDim := 1
  wf := scatter_S40000_S680000x1_S680000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S40000x128_S680000x1_S680000x128_1_0_n_n_0_1_1128 : GatherDims S40000x128 S680000x1 S680000x128 where
  offsetDims := [1]
  collapsedSliceDims := [0]
  operandBatchingDims := []
  startIndicesBatchingDims := []
  startIndexMap := [0]
  indexVectorDim := 1
  sliceSizes := ![1, 128]
  wf := gather_S40000x128_S680000x1_S680000x128_1_0_n_n_0_1_1128_wf
def scatter_S40000x128_S680000x1_S680000x128_1_0_0_1 : ScatterDims S40000x128 S680000x1 S680000x128 where
  updateWindowDims := [1]
  insertedWindowDims := [0]
  scatterDimsToOperandDims := [0]
  indexVectorDim := 1
  wf := scatter_S40000x128_S680000x1_S680000x128_1_0_0_1_wf
def scatter_S64x128_S40000x1_S40000x128_1_0_0_1 : ScatterDims S64x128 S40000x1 S40000x128 where
  updateWindowDims := [1]
  insertedWindowDims := [0]
  scatterDimsToOperandDims := [0]
  indexVectorDim := 1
  wf := scatter_S64x128_S40000x1_S40000x128_1_0_0_1_wf
def scatter_S64_S40000x1_S40000_n_0_0_1 : ScatterDims S64 S40000x1 S40000 where
  updateWindowDims := []
  insertedWindowDims := [0]
  scatterDimsToOperandDims := [0]
  indexVectorDim := 1
  wf := scatter_S64_S40000x1_S40000_n_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v30) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v14) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v31) S4000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v42) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S4000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v43) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v44) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v45) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v46) S4000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v58) S64x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg11) S128x10.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v59) S1x10.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v60) S64x10.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S40000 : Shape := ⟨1, ![40000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x640000 : Shape := ⟨2, ![1, 640000]⟩
abbrev S640000 : Shape := ⟨1, ![640000]⟩
abbrev S680000 : Shape := ⟨1, ![680000]⟩
abbrev S_ : Shape := ⟨0, ![]⟩
abbrev S680000x1 : Shape := ⟨2, ![680000, 1]⟩
abbrev S680000x128 : Shape := ⟨2, ![680000, 128]⟩
abbrev S1x128 : Shape := ⟨2, ![1, 128]⟩
abbrev S40000x1 : Shape := ⟨2, ![40000, 1]⟩
abbrev S64x128 : Shape := ⟨2, ![64, 128]⟩
abbrev S64 : Shape := ⟨1, ![64]⟩
abbrev S64x1 : Shape := ⟨2, ![64, 1]⟩
abbrev S64x10 : Shape := ⟨2, ![64, 10]⟩
abbrev S1x10 : Shape := ⟨2, ![1, 10]⟩

abbrev nBuf : Space → Nat
  | .hbm => 173
  | .vmem => 0
  | .smem => 0
  | _ => 0

abbrev hbmTy0_0 (i : Nat) : BufTy := match i % 128 with
  | 0 => ⟨S40000x128, .f32⟩
  | 1 => ⟨S2x640000, .i32⟩
  | 2 => ⟨S40000, .i32⟩
  | 3 => ⟨S128x128, .f32⟩
  | 4 => ⟨S128, .f32⟩
  | 5 => ⟨S128x128, .f32⟩
  | 6 => ⟨S128, .f32⟩
  | 7 => ⟨S128, .f32⟩
  | 8 => ⟨S128, .f32⟩
  | 9 => ⟨S128, .f32⟩
  | 10 => ⟨S128, .f32⟩
  | 11 => ⟨S128x10, .f32⟩
  | 12 => ⟨S10, .f32⟩
  | 13 => ⟨S40000, .i32⟩
  | 14 => ⟨S1x640000, .i32⟩
  | 15 => ⟨S640000, .i32⟩
  | 16 => ⟨S680000, .i32⟩
  | 17 => ⟨S1x640000, .i32⟩
  | 18 => ⟨S640000, .i32⟩
  | 19 => ⟨S680000, .i32⟩
  | 20 => ⟨S_, .f32⟩
  | 21 => ⟨S680000, .f32⟩
  | 22 => ⟨S_, .f32⟩
  | 23 => ⟨S40000, .f32⟩
  | 24 => ⟨S680000x1, .i32⟩
  | 25 => ⟨S40000, .f32⟩
  | 26 => ⟨S_, .f32⟩
  | 27 => ⟨S40000, .f32⟩
  | 28 => ⟨S40000, .f32⟩
  | 29 => ⟨S40000, .f32⟩
  | 30 => ⟨S_, .i32⟩
  | 31 => ⟨S680000, .i32⟩
  | 32 => ⟨S680000, .i1⟩
  | 33 => ⟨S_, .i32⟩
  | 34 => ⟨S680000, .i32⟩
  | 35 => ⟨S680000, .i32⟩
  | 36 => ⟨S680000, .i32⟩
  | 37 => ⟨S680000x1, .i32⟩
  | 38 => ⟨S680000, .f32⟩
  | 39 => ⟨S_, .i32⟩
  | 40 => ⟨S680000, .i32⟩
  | 41 => ⟨S680000, .i1⟩
  | 42 => ⟨S_, .i32⟩
  | 43 => ⟨S680000, .i32⟩
  | 44 => ⟨S680000, .i32⟩
  | 45 => ⟨S680000, .i32⟩
  | 46 => ⟨S680000x1, .i32⟩
  | 47 => ⟨S680000, .f32⟩
  | 48 => ⟨S680000, .f32⟩
  | 49 => ⟨S40000x128, .f32⟩
  | 50 => ⟨S_, .i32⟩
  | 51 => ⟨S680000, .i32⟩
  | 52 => ⟨S680000, .i1⟩
  | 53 => ⟨S_, .i32⟩
  | 54 => ⟨S680000, .i32⟩
  | 55 => ⟨S680000, .i32⟩
  | 56 => ⟨S680000, .i32⟩
  | 57 => ⟨S680000x1, .i32⟩
  | 58 => ⟨S680000x128, .f32⟩
  | 59 => ⟨S680000x1, .f32⟩
  | 60 => ⟨S680000x128, .f32⟩
  | 61 => ⟨S680000x128, .f32⟩
  | 62 => ⟨S_, .f32⟩
  | 63 => ⟨S40000x128, .f32⟩
  | 64 => ⟨S680000x1, .i32⟩
  | 65 => ⟨S40000x128, .f32⟩
  | 66 => ⟨S1x128, .f32⟩
  | 67 => ⟨S40000x128, .f32⟩
  | 68 => ⟨S40000x128, .f32⟩
  | 69 => ⟨S_, .f32⟩
  | 70 => ⟨S40000, .f32⟩
  | 71 => ⟨S40000x1, .f32⟩
  | 72 => ⟨S_, .f32⟩
  | 73 => ⟨S40000x1, .f32⟩
  | 74 => ⟨S40000x1, .f32⟩
  | 75 => ⟨S40000x128, .f32⟩
  | 76 => ⟨S40000x128, .f32⟩
  | 77 => ⟨S40000x128, .f32⟩
  | 78 => ⟨S_, .f32⟩
  | 79 => ⟨S40000, .f32⟩
  | 80 => ⟨S40000x1, .f32⟩
  | 81 => ⟨S_, .f32⟩
  | 82 => ⟨S40000x1, .f32⟩
  | 83 => ⟨S40000x1, .f32⟩
  | 84 => ⟨S40000x128, .f32⟩
  | 85 => ⟨S40000x128, .f32⟩
  | 86 => ⟨S_, .f32⟩
  | 87 => ⟨S40000x1, .f32⟩
  | 88 => ⟨S40000x1, .f32⟩
  | 89 => ⟨S40000x1, .f32⟩
  | 90 => ⟨S40000x128, .f32⟩
  | 91 => ⟨S40000x128, .f32⟩
  | 92 => ⟨S1x128, .f32⟩
  | 93 => ⟨S40000x128, .f32⟩
  | 94 => ⟨S40000x128, .f32⟩
  | 95 => ⟨S1x128, .f32⟩
  | 96 => ⟨S40000x128, .f32⟩
  | 97 => ⟨S40000x128, .f32⟩
  | 98 => ⟨S_, .f32⟩
  | 99 => ⟨S40000x128, .f32⟩
  | 100 => ⟨S40000x128, .f32⟩
  | 101 => ⟨S40000x128, .f32⟩
  | 102 => ⟨S_, .i32⟩
  | 103 => ⟨S680000, .i32⟩
  | 104 => ⟨S680000, .i1⟩
  | 105 => ⟨S_, .i32⟩
  | 106 => ⟨S680000, .i32⟩
  | 107 => ⟨S680000, .i32⟩
  | 108 => ⟨S680000, .i32⟩
  | 109 => ⟨S680000x1, .i32⟩
  | 110 => ⟨S680000x128, .f32⟩
  | 111 => ⟨S680000x1, .f32⟩
  | 112 => ⟨S680000x128, .f32⟩
  | 113 => ⟨S680000x128, .f32⟩
  | 114 => ⟨S_, .f32⟩
  | 115 => ⟨S40000x128, .f32⟩
  | 116 => ⟨S680000x1, .i32⟩
  | 117 => ⟨S40000x128, .f32⟩
  | 118 => ⟨S1x128, .f32⟩
  | 119 => ⟨S40000x128, .f32⟩
  | 120 => ⟨S40000x128, .f32⟩
  | 121 => ⟨S_, .f32⟩
  | 122 => ⟨S40000, .f32⟩
  | 123 => ⟨S40000x1, .f32⟩
  | 124 => ⟨S_, .f32⟩
  | 125 => ⟨S40000x1, .f32⟩
  | 126 => ⟨S40000x1, .f32⟩
  | 127 => ⟨S40000x128, .f32⟩
  | _ => ⟨S40000x128, .f32⟩

abbrev hbmTy0_1 (i : Nat) : BufTy := match i % 128 with
  | 0 => ⟨S40000x128, .f32⟩
  | 1 => ⟨S40000x128, .f32⟩
  | 2 => ⟨S_, .f32⟩
  | 3 => ⟨S40000, .f32⟩
  | 4 => ⟨S40000x1, .f32⟩
  | 5 => ⟨S_, .f32⟩
  | 6 => ⟨S40000x1, .f32⟩
  | 7 => ⟨S40000x1, .f32⟩
  | 8 => ⟨S40000x128, .f32⟩
  | 9 => ⟨S40000x128, .f32⟩
  | 10 => ⟨S_, .f32⟩
  | 11 => ⟨S40000x1, .f32⟩
  | 12 => ⟨S40000x1, .f32⟩
  | 13 => ⟨S40000x1, .f32⟩
  | 14 => ⟨S40000x128, .f32⟩
  | 15 => ⟨S40000x128, .f32⟩
  | 16 => ⟨S1x128, .f32⟩
  | 17 => ⟨S40000x128, .f32⟩
  | 18 => ⟨S40000x128, .f32⟩
  | 19 => ⟨S1x128, .f32⟩
  | 20 => ⟨S40000x128, .f32⟩
  | 21 => ⟨S40000x128, .f32⟩
  | 22 => ⟨S_, .f32⟩
  | 23 => ⟨S40000x128, .f32⟩
  | 24 => ⟨S40000x128, .f32⟩
  | 25 => ⟨S_, .f32⟩
  | 26 => ⟨S64x128, .f32⟩
  | 27 => ⟨S40000x1, .i32⟩
  | 28 => ⟨S64x128, .f32⟩
  | 29 => ⟨S_, .f32⟩
  | 30 => ⟨S40000, .f32⟩
  | 31 => ⟨S_, .f32⟩
  | 32 => ⟨S64, .f32⟩
  | 33 => ⟨S40000x1, .i32⟩
  | 34 => ⟨S64, .f32⟩
  | 35 => ⟨S_, .f32⟩
  | 36 => ⟨S64, .f32⟩
  | 37 => ⟨S64, .f32⟩
  | 38 => ⟨S64x1, .f32⟩
  | 39 => ⟨S64x128, .f32⟩
  | 40 => ⟨S64x128, .f32⟩
  | 41 => ⟨S64x10, .f32⟩
  | 42 => ⟨S1x10, .f32⟩
  | 43 => ⟨S64x10, .f32⟩
  | 44 => ⟨S64x10, .f32⟩
  | _ => ⟨S40000x128, .f32⟩

abbrev hbmTy (i : Nat) : BufTy := match i / 128 with
  | 0 => hbmTy0_0 i
  | 1 => hbmTy0_1 i
  | _ => ⟨S40000x128, .f32⟩

abbrev bufTy : (tb : Table) → Fin (tcTables nBuf tb) → BufTy
  | .hbm, ⟨i, _⟩ => hbmTy i
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_3 : Ref sig .tc := ⟨.hbm, 39, rfl⟩
abbrev main_v21 : Ref sig .tc := ⟨.hbm, 40, rfl⟩
abbrev main_v22 : Ref sig .tc := ⟨.hbm, 41, rfl⟩
abbrev main_c_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_c_6 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_8 : Ref sig .tc := ⟨.hbm, 69, rfl⟩
abbrev main_v46 : Ref sig .tc := ⟨.hbm, 70, rfl⟩
abbrev main_v47 : Ref sig .tc := ⟨.hbm, 71, rfl⟩
abbrev main_cst_9 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_10 : Ref sig .tc := ⟨.hbm, 78, rfl⟩
abbrev main_v53 : Ref sig .tc := ⟨.hbm, 79, rfl⟩
abbrev main_v54 : Ref sig .tc := ⟨.hbm, 80, rfl⟩
abbrev main_cst_11 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_12 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_call0_cst : Ref sig .tc := ⟨.hbm, 98, rfl⟩
abbrev main_call0_v0 : Ref sig .tc := ⟨.hbm, 99, rfl⟩
abbrev main_v70 : Ref sig .tc := ⟨.hbm, 100, rfl⟩
abbrev main_v71 : Ref sig .tc := ⟨.hbm, 101, rfl⟩
abbrev main_c_13 : Ref sig .tc := ⟨.hbm, 102, rfl⟩
abbrev main_v72 : Ref sig .tc := ⟨.hbm, 103, rfl⟩
abbrev main_v73 : Ref sig .tc := ⟨.hbm, 104, rfl⟩
abbrev main_c_14 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_15 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_16 : Ref sig .tc := ⟨.hbm, 121, rfl⟩
abbrev main_v88 : Ref sig .tc := ⟨.hbm, 122, rfl⟩
abbrev main_v89 : Ref sig .tc := ⟨.hbm, 123, rfl⟩
abbrev main_cst_17 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_cst_18 : Ref sig .tc := ⟨.hbm, 130, rfl⟩
abbrev main_v95 : Ref sig .tc := ⟨.hbm, 131, rfl⟩
abbrev main_v96 : Ref sig .tc := ⟨.hbm, 132, rfl⟩
abbrev main_cst_19 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_cst_20 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_call1_cst : Ref sig .tc := ⟨.hbm, 150, rfl⟩
abbrev main_call1_v0 : Ref sig .tc := ⟨.hbm, 151, rfl⟩
abbrev main_v112 : Ref sig .tc := ⟨.hbm, 152, rfl⟩
abbrev main_cst_21 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_cst_22 : Ref sig .tc := ⟨.hbm, 157, rfl⟩
abbrev main_v116 : Ref sig .tc := ⟨.hbm, 158, rfl⟩
abbrev main_cst_23 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_cst_24 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S40000_S680000_d0 : Shape.Concatenates [S640000, S40000] S680000 0
  slices_S2x640000_S1x640000_1_0 : S2x640000.Slices ![1, 0] S1x640000
  bcast_S_S680000 : S_.BroadcastsInDim S680000 (![] : Fin 0 → Fin S680000.rank)
  bcast_S_S40000 : S_.BroadcastsInDim S40000 (![] : Fin 0 → Fin S40000.rank)
  bcast_S680000_S680000x1_0 : S680000.BroadcastsInDim S680000x1 (![0] : Fin 1 → Fin S680000x1.rank)
  bcast_S680000x1_S680000x128_0_1 : S680000x1.BroadcastsInDim S680000x128 (![0, 1] : Fin 2 → Fin S680000x128.rank)
  bcast_S_S40000x128 : S_.BroadcastsInDim S40000x128 (![] : Fin 0 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  reducesTo_S40000x128_S40000_d1 : S40000x128.ReducesTo [1] S40000
  h_S_ : 0 < S_.numel
  bcast_S40000_S40000x1_0 : S40000.BroadcastsInDim S40000x1 (![0] : Fin 1 → Fin S40000x1.rank)
  bcast_S_S40000x1 : S_.BroadcastsInDim S40000x1 (![] : Fin 0 → Fin S40000x1.rank)
  bcast_S40000x1_S40000x128_0_1 : S40000x1.BroadcastsInDim S40000x128 (![0, 1] : Fin 2 → Fin S40000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  scatter_S40000_S680000x1_S680000_n_0_0_1_wf : ScatterDims.WF S40000 S680000x1 S680000 [] [0] [0] 1
  gather_S40000_S680000x1_S680000_n_0_n_n_0_1_1_wf : GatherDims.WF S40000 S680000x1 S680000 [] [0] [] [0] [] 1 ![1]
  dot_S40000x128_S128x128_S40000x128_1_0_0_1_n_n_wf : DotDims.WF S40000x128 S128x128 S40000x128 [1] [0] [0] [1] [] []
  gather_S40000x128_S680000x1_S680000x128_1_0_n_n_0_1_1128_wf : GatherDims.WF S40000x128 S680000x1 S680000x128 [1] [0] [] [0] [] 1 ![1, 128]
  scatter_S40000x128_S680000x1_S680000x128_1_0_0_1_wf : ScatterDims.WF S40000x128 S680000x1 S680000x128 [1] [0] [0] 1
  scatter_S64x128_S40000x1_S40000x128_1_0_0_1_wf : ScatterDims.WF S64x128 S40000x1 S40000x128 [1] [0] [0] 1
  scatter_S64_S40000x1_S40000_n_0_0_1_wf : ScatterDims.WF S64 S40000x1 S40000 [] [0] [0] 1
  dot_S64x128_S128x10_S64x10_1_0_0_1_n_n_wf : DotDims.WF S64x128 S128x10 S64x10 [1] [0] [0] [1] [] []

variable [Facts₀]

def scatter_S40000_S680000x1_S680000_n_0_0_1 : ScatterDims S40000 S680000x1 S680000 where
  updateWindowDims := []
  insertedWindowDims := [0]
  scatterDimsToOperandDims := [0]
  indexVectorDim := 1
  wf := scatter_S40000_S680000x1_S680000_n_0_0_1_wf
def gather_S40000_S680000x1_S680000_n_0_n_n_0_1_1 : GatherDims S40000 S680000x1 S680000 where
  offsetDims := []
  collapsedSliceDims := [0]
  operandBatchingDims := []
  startIndicesBatchingDims := []
  startIndexMap := [0]
  indexVectorDim := 1
  sliceSizes := ![1]
  wf := gather_S40000_S680000x1_S680000_n_0_n_n_0_1_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def gather_S40000x128_S680000x1_S680000x128_1_0_n_n_0_1_1128 : GatherDims S40000x128 S680000x1 S680000x128 where
  offsetDims := [1]
  collapsedSliceDims := [0]
  operandBatchingDims := []
  startIndicesBatchingDims := []
  startIndexMap := [0]
  indexVectorDim := 1
  sliceSizes := ![1, 128]
  wf := gather_S40000x128_S680000x1_S680000x128_1_0_n_n_0_1_1128_wf
def scatter_S40000x128_S680000x1_S680000x128_1_0_0_1 : ScatterDims S40000x128 S680000x1 S680000x128 where
  updateWindowDims := [1]
  insertedWindowDims := [0]
  scatterDimsToOperandDims := [0]
  indexVectorDim := 1
  wf := scatter_S40000x128_S680000x1_S680000x128_1_0_0_1_wf
def scatter_S64x128_S40000x1_S40000x128_1_0_0_1 : ScatterDims S64x128 S40000x1 S40000x128 where
  updateWindowDims := [1]
  insertedWindowDims := [0]
  scatterDimsToOperandDims := [0]
  indexVectorDim := 1
  wf := scatter_S64x128_S40000x1_S40000x128_1_0_0_1_wf
def scatter_S64_S40000x1_S40000_n_0_0_1 : ScatterDims S64 S40000x1 S40000 where
  updateWindowDims := []
  insertedWindowDims := [0]
  scatterDimsToOperandDims := [0]
  indexVectorDim := 1
  wf := scatter_S64_S40000x1_S40000_n_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

class Facts : Prop extends Facts₀ where

variable [Facts]
-- ==== Proof.KRun.lean ====
/-
  The idealized kernel's run with its result named.

  The program is nine segments: four stretches of host operations and five pallas_call regions. The buffer
  contents at each segment boundary are a fold from the launch memory (a stretch applies its operations; a region
  leaves each of its arrays at what its write-backs fold to and every other buffer alone). Launched over those
  segments, every weakly fair execution ends with every unscoped buffer at the last boundary's contents; read at
  the result buffer this names the result, and read at the arguments it gives them back unchanged.
-/
import proofs.«153731_j5334349382373_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's program terminates, nothing faulting, with the result buffer at the
    last boundary's contents and the argument arrays as launched. -/
theorem run_named : θ_run defs (onTc (τ := τ) (main (F := F))) ⟨m, fun _ => 0, ρ⟩ (fun r => ∀ c : Dev nD,
      r.2.mem ((c.tc : Thread nD τ).loc main_v60) = W9 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v60 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c)⟩)

end Cert.KernelIdeal.Named

end
-- ==== Proof.LibKeepdims.lean ====
import Idealize.ShloMosaic.Lib.Pipeline.Value
import Idealize.ShloMosaic.Lib.ValueIdx
import Idealize.ShloMosaic.Lib.ValueLayout
import Idealize.ShloMosaic.PureOps.Ideal.Laws

/-!
# Keepdims columns, a row sum and a plain matrix product, read at an index

General facts about layout operations on small ranks, in the style of the library's
`shapeCast_a_1a_apply` and `broadcastTo_1b_ab_apply`:

* an `[a]` vector cast to the column `[a, 1]` reads, at `(i, u)`, the vector at `i`;
* a column `[a, 1]` broadcast to `[a, b]` reads, at `(p, c)`, the column at `(p, 0)`;
* over the extended reals, a sum over the last axis of an `[a, b]` array into `[a]`, read at `i`, is the
  sum over `k < b` of the array at `(i, k)`.
-/

noncomputable section

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims

end
-- ==== Proof.LibRowOps.lean ====
import Idealize.ShloMosaic.Lib.Pipeline.Value
import Idealize.ShloMosaic.Lib.ValueIdx
import Idealize.ShloMosaic.Lib.ValueLayout
import Idealize.ShloMosaic.PureOps.Ideal.Laws

/-!
# Matrix products, row sums and keep-dims broadcasts, read at an index

General facts at the ideal float instance, over arrays `[a, b]` of any extents, in the style of the
library's `shapeCast_a_1a_apply` and `broadcastTo_1b_ab_apply`:

* a plain matrix product `[a, k] × [k, b]` — a kernel's `tpu.matmul` into a zero accumulator, the
  host's `dot_general` — read at `(p, q)` is `∑ j, L (p, j) · R (j, q)`;
* a sum over the last axis of an `[a, b]` array into `[a]` — a kernel's `multi_reduction <add>`, the host's
  `reduce add` with its initial value — read at `p` is the sum over `k < b` of the array at `(p, k)`;
* the host's `broadcast_in_dim` in the four keep-dims forms `[b] → [1, b]`, `[1, b] → [a, b]`,
  `[a] → [a, 1]`, `[a, 1] → [a, b]`, and of a scalar to any shape, each read at an index.
-/

noncomputable section

namespace Cert.RowOps

open Idealize.ShloMosaic Idealize.ShloMosaic.ValueIdx

variable {α : Type}

/-! ## The plain matrix product -/

theorem plain_lhs0 (a k b : ℕ) (i : (⟨2, ![a, b]⟩ : Shape).Idx) (q : (DotDims.plain a k b).contr.Idx) :
    ((DotDims.plain a k b).lhsIdx i q 0).val = (i 0).val := by
  unfold DotDims.lhsIdx
  rw [dif_neg (show ¬(0 : Fin 2) ∈ (DotDims.plain a k b).lhsBatch from List.not_mem_nil),
    dif_pos (show (0 : Fin 2) ∈ (DotDims.plain a k b).lhsNonContracting from List.mem_singleton.mpr rfl)]
  rfl
theorem plain_lhs1 (a k b : ℕ) (i : (⟨2, ![a, b]⟩ : Shape).Idx) (q : (DotDims.plain a k b).contr.Idx) :
    ((DotDims.plain a k b).lhsIdx i q 1).val = (q ⟨0, (Nat.one_pos : 0 < 1)⟩).val :=
  (DotDims.plain a k b).lhsIdx_val_of_single rfl i q
theorem plain_rhs0 (a k b : ℕ) (i : (⟨2, ![a, b]⟩ : Shape).Idx) (q : (DotDims.plain a k b).contr.Idx) :
    ((DotDims.plain a k b).rhsIdx i q 0).val = (q ⟨0, (Nat.one_pos : 0 < 1)⟩).val :=
  (DotDims.plain a k b).rhsIdx_val_of_single rfl i q
theorem plain_rhs1 (a k b : ℕ) (i : (⟨2, ![a, b]⟩ : Shape).Idx) (q : (DotDims.plain a k b).contr.Idx) :
    ((DotDims.plain a k b).rhsIdx i q 1).val = (i 1).val := by
  unfold DotDims.rhsIdx
  rw [dif_neg (show ¬(1 : Fin 2) ∈ (DotDims.plain a k b).rhsBatch from List.not_mem_nil),
    dif_pos (show (1 : Fin 2) ∈ (DotDims.plain a k b).rhsNonContracting from List.mem_singleton.mpr rfl)]
  rfl

/-- The sum over a plain product's contraction index, re-indexed by `Fin k`. -/
theorem plain_sum (a k b : ℕ) (L : (⟨2, ![a, k]⟩ : Shape).Idx → EReal) (R : (⟨2, ![k, b]⟩ : Shape).Idx → EReal) (p : Fin a) (q : Fin b) :
    (∑ κ : (DotDims.plain a k b).contr.Idx, L ((DotDims.plain a k b).lhsIdx (ix2 p q) κ) * R ((DotDims.plain a k b).rhsIdx (ix2 p q) κ))
      = ∑ j : Fin k, L (ix2 p j) * R (ix2 j q) := by
  rw [← Equiv.sum_comp (contrEquiv1 (DotDims.plain a k b) k rfl rfl).symm]
  refine Finset.sum_congr rfl fun j _ => ?_
  have hk := contrEquiv1_symm_val (DotDims.plain a k b) k rfl rfl j
  have el : (DotDims.plain a k b).lhsIdx (ix2 p q) ((contrEquiv1 (DotDims.plain a k b) k rfl rfl).symm j) = ix2 p j :=
    funext fun c => Fin.ext (by
      match c with
      | ⟨0, _⟩ => exact plain_lhs0 a k b _ _
      | ⟨1, _⟩ => exact (plain_lhs1 a k b _ _).trans hk)
  have er : (DotDims.plain a k b).rhsIdx (ix2 p q) ((contrEquiv1 (DotDims.plain a k b) k rfl rfl).symm j) = ix2 j q :=
    funext fun c => Fin.ext (by
      match c with
      | ⟨0, _⟩ => exact (plain_rhs0 a k b _ _).trans hk
      | ⟨1, _⟩ => exact plain_rhs1 a k b _ _)
  rw [el, er]

/-- A kernel's matrix product into a zero accumulator, at `(p, q)`. -/
theorem matmul_plain_apply {a k b : ℕ} {φ₁ φ₂ : FTy} (L : FVec Ideal ⟨2, ![a, k]⟩ φ₁) (R : FVec Ideal ⟨2, ![k, b]⟩ φ₂)
    (prec : Option ContractPrecision) (p : Fin a) (q : Fin b) :
    FloatOps.matmul (DotDims.plain a k b) prec L R (constant ⟨2, ![a, b]⟩ .f32 0x00000000#32) (ix2 p q)
      = ∑ j : Fin k, L (ix2 p j) * R (ix2 j q) :=
  (Ideal.matmul_constant_zero_apply _ prec L R (ix2 p q)).trans (plain_sum a k b L R p q)

/-- The host's `dot_general` of the same dimension numbers, at `(p, q)`. -/
theorem dotGeneral_plain_apply {a k b : ℕ} {φ₁ φ₂ : FTy} (L : FVec Ideal ⟨2, ![a, k]⟩ φ₁) (R : FVec Ideal ⟨2, ![k, b]⟩ φ₂)
    (prec : Option ContractPrecision) (sched : HostSchedule) (p : Fin a) (q : Fin b) :
    FloatOps.dotGeneral (DotDims.plain a k b) prec sched L R (ix2 p q) = ∑ j : Fin k, L (ix2 p j) * R (ix2 j q) :=
  (Ideal.dotGeneral_apply _ prec sched L R (ix2 p q)).trans (plain_sum a k b L R p q)

/-! ## Row sums -/

/-- A kernel's sum over the last axis, at row `p`. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun d => Fin.ext (by
      match d with
      | ⟨0, _⟩ => rfl
      | ⟨1, _⟩ => rfl)))

/-- The host's sum over the last axis, at row `p`: the initial value plus the row's sum. -/
theorem hostRowSum_apply {a b : ℕ} {φ : FTy} (x : FVec Ideal ⟨2, ![a, b]⟩ φ) (init : (⟨0, ![]⟩ : Shape).Idx → Ideal φ)
    (h' : (⟨2, ![a, b]⟩ : Shape).ReducesTo [1] ⟨1, ![a]⟩) (hu : 0 < (⟨0, ![]⟩ : Shape).numel)
    (h : (⟨2, ![a, b]⟩ : Shape).Reduces [1] ⟨1, ![a]⟩) (p : Fin a) :
    Host.reduceAdd x init h' hu (ix1 p) = init ix0 + ∑ k : Fin b, x (ix2 p k) := by
  simp only [Host.reduceAdd, Ideal.hostReduceAdd_def]
  rw [Ideal.hostReduceAdd_single h' h, eq_ix0 (Shape.Idx.first hu)]
  refine congrArg (_ + ·) (Finset.sum_congr rfl fun k _ => ?_)
  exact congrArg x (funext fun d => Fin.ext (by
    match d with
    | ⟨0, _⟩ => rfl
    | ⟨1, _⟩ => rfl))

/-! ## The host's keep-dims broadcasts -/

/-- `[b] → [1, b]` (dims = [1]), at `(u, q)`. -/
theorem bcast_b_1b_apply {b : ℕ} (x : (⟨1, ![b]⟩ : Shape).Idx → α) (h : (⟨1, ![b]⟩ : Shape).BroadcastsInDim ⟨2, ![1, b]⟩ ![1])
    (u : Fin 1) (q : Fin b) : broadcastInDim ⟨2, ![1, b]⟩ ![1] h x (ix2 u q) = x (ix1 q) :=
  broadcastInDim_apply _ h x (ix2 u q) (ix1 q) fun c => by
    match c with
    | ⟨0, _⟩ =>
      show q.val = if b = 1 then 0 else q.val
      split
      · have := q.isLt; omega
      · rfl

/-- `[1, b] → [a, b]` (dims = [0, 1]), at `(p, q)`. -/
theorem bcast_1b_ab_apply {a b : ℕ} (x : (⟨2, ![1, b]⟩ : Shape).Idx → α) (h : (⟨2, ![1, b]⟩ : Shape).BroadcastsInDim ⟨2, ![a, b]⟩ ![0, 1])
    (p : Fin a) (q : Fin b) : broadcastInDim ⟨2, ![a, b]⟩ ![0, 1] h x (ix2 p q) = x (ix2 (0 : Fin 1) q) :=
  broadcastInDim_apply _ h x (ix2 p q) (ix2 (0 : Fin 1) q) fun c => by
    match c with
    | ⟨0, _⟩ => show 0 = if (1 : ℕ) = 1 then 0 else p.val; rw [if_pos rfl]
    | ⟨1, _⟩ =>
      show q.val = if b = 1 then 0 else q.val
      split
      · have := q.isLt; omega
      · rfl

/-- `[a] → [a, 1]` (dims = [0]), at `(p, u)`. -/
theorem bcast_a_a1_apply {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) :=
  broadcastInDim_apply _ h x (ix2 p u) (ix1 p) fun c => by
    match c with
    | ⟨0, _⟩ =>
      show p.val = if a = 1 then 0 else p.val
      split
      · have := p.isLt; omega
      · rfl

/-- `[a, 1] → [a, b]` (dims = [0, 1]), at `(p, q)`. -/
theorem bcast_a1_ab_apply {a b : ℕ} (x : (⟨2, ![a, 1]⟩ : Shape).Idx → α) (h : (⟨2, ![a, 1]⟩ : Shape).BroadcastsInDim ⟨2, ![a, b]⟩ ![0, 1])
    (p : Fin a) (q : Fin b) : broadcastInDim ⟨2, ![a, b]⟩ ![0, 1] h x (ix2 p q) = x (ix2 p (0 : Fin 1)) :=
  broadcastInDim_apply _ h x (ix2 p q) (ix2 p (0 : Fin 1)) fun c => by
    match c with
    | ⟨0, _⟩ =>
      show p.val = if a = 1 then 0 else p.val
      split
      · have := p.isLt; omega
      · rfl
    | ⟨1, _⟩ => show 0 = if (1 : ℕ) = 1 then 0 else q.val; rw [if_pos rfl]

/-- A scalar broadcast to any shape, at any index. -/
theorem bcast_scalar_apply {t : Shape} (x : (⟨0, ![]⟩ : Shape).Idx → α) (h : (⟨0, ![]⟩ : Shape).BroadcastsInDim t ![])
    (j : t.Idx) : broadcastInDim t ![] h x j = x ix0 :=
  broadcastInDim_apply _ h x j ix0 fun c => c.elim0

end Cert.RowOps

end
-- ==== Proof.LibNormalize.lean ====
import Idealize.ShloMosaic.PureOps.Ideal
import Idealize.ShloMosaic.PureOps.Ideal.Laws

/-!
# Normalising by a root over the extended reals

General facts about the ideal float operations, for comparing a normalisation written
`x * rsqrt (v + ε)` with one written `x / sqrt (v + ε)`:

* `x / √s = x · (1/√s)` for every extended real `x` as soon as `0 < s` (at `s = +∞` both sides are `x · 0`);
  no finiteness of `x` is needed;
* a square is non-negative, so a mean of squares plus a positive `ε` is positive — again for all
  extended reals, infinite ones included;
* the float constants 128, 100000 and 10⁻⁵ (as rounded to binary32) denote positive reals.
-/

noncomputable section

namespace Cert.Norm

open Idealize.ShloMosaic

/-- Dividing by the root of a positive `s` is multiplying by its reciprocal root. -/
theorem div_sqrt_eq_mul_rsqrt (a s : EReal) (hs : 0 < s) : Ideal.div a (Ideal.sqrt s) = a * Ideal.rsqrt s := by
  induction s using EReal.rec with
  | bot => exact absurd hs (not_lt.mpr bot_le)
  | top => rw [Ideal.sqrt_top, Ideal.rsqrt_top, Ideal.div, if_neg EReal.top_ne_zero, EReal.inv_top]
  | coe r =>
    have hr : 0 < r := by exact_mod_cast hs
    have hsq : 0 < Real.sqrt r := Real.sqrt_pos.mpr hr
    rw [Ideal.sqrt_coe, Ideal.rsqrt_coe, if_neg (not_lt.mpr hr.le), if_neg (not_lt.mpr hr.le), if_neg hr.ne',
      Ideal.div, if_neg (by exact_mod_cast hsq.ne'), EReal.coe_inv]

/-- A square of an extended real is non-negative (`(±∞)² = +∞`). -/
theorem mul_self_nonneg (x : EReal) : 0 ≤ x * x := by
  induction x using EReal.rec with
  | bot => simp
  | top => simp
  | coe r => exact_mod_cast _root_.mul_self_nonneg r

/-- A sum of squares divided by a positive real, plus a positive real, is positive. -/
theorem meanSq_add_pos {n : ℕ} (d : Fin n → EReal) {c e : ℝ} (hc : 0 < c) (he : 0 < e) :
    0 < Ideal.div (∑ k, d k * d k) (c : EReal) + (e : EReal) := by
  rw [Ideal.div_coe hc.ne']
  have h1 : 0 ≤ ∑ k, d k * d k := Finset.sum_nonneg fun k _ => mul_self_nonneg (d k)
  have h2 : 0 ≤ (∑ k, d k * d k) * ((1 / c : ℝ) : EReal) :=
    mul_nonneg h1 (by exact_mod_cast (one_div_pos.mpr hc).le)
  exact lt_of_lt_of_le (by exact_mod_cast he) (le_add_of_nonneg_left h2)

/-- The binary32 pattern of 128.0 denotes the real 128. -/
theorem ofBits_128 : Ideal.ofBits .f32 0x43000000#32 = ((128 : ℝ) : EReal) := by
  simp [Ideal.ofBits, Ideal.ieee, -EReal.coe_mul]; norm_num

/-- The binary32 pattern of 100000.0 denotes the real 100000. -/
theorem ofBits_100000 : Ideal.ofBits .f32 0x47C35000#32 = ((100000 : ℝ) : EReal) := by
  simp [Ideal.ofBits, Ideal.ieee, -EReal.coe_mul]; norm_num

/-- The binary32 pattern nearest 10⁻⁵ denotes the positive real 10995116 / 2⁴⁰. -/
theorem ofBits_eps : Ideal.ofBits .f32 0x3727C5AC#32 = (((10995116 : ℝ) / 1099511627776 : ℝ) : EReal) := by
  simp [Ideal.ofBits, Ideal.ieee, -EReal.coe_mul]; norm_num

/-- So the variance-plus-ε under a row normalisation over 128 lanes is positive, -/
theorem var128_pos {n : ℕ} (d : Fin n → EReal) :
    0 < Ideal.div (∑ k, d k * d k) (Ideal.ofBits .f32 0x43000000#32) + Ideal.ofBits .f32 0x3727C5AC#32 := by
  rw [ofBits_128, ofBits_eps]; exact meanSq_add_pos d (by norm_num) (by norm_num)

/-- and the one under a normalisation over 100000 nodes. -/
theorem var100000_pos {n : ℕ} (d : Fin n → EReal) :
    0 < Ideal.div (∑ k, d k * d k) (Ideal.ofBits .f32 0x47C35000#32) + Ideal.ofBits .f32 0x3727C5AC#32 := by
  rw [ofBits_100000, ofBits_eps]; exact meanSq_add_pos d (by norm_num) (by norm_num)

end Cert.Norm

end
-- ==== Proof.LibRowNorm.lean ====
import proofs.«153731_j5334349382373_2_alg».proof.Proof.LibKeepdims
import proofs.«153731_j5334349382373_2_alg».proof.Proof.LibRowOps
import proofs.«153731_j5334349382373_2_alg».proof.Proof.LibNormalize

/-!
# LayerNorm over rows of 128 lanes, as a kernel writes it and as jnp writes it

For a row `y : Fin 128 → EReal`, with `μ = (∑ y) / 128` and `σ² = (∑ (y - μ)²) / 128`:

* a kernel computes `(y q - μ) · rsqrt (σ² + ε) · γ q + β q` with a lane reduction, keep-dims shape
  casts and broadcasts (`normVecK`, over `[a, 128]` blocks of any row count `a`);
* jnp on the host computes `(y q - μ) / sqrt (σ² + ε) · γ q + β q` with `reduce`, `broadcast_in_dim`,
  `divide` and `sqrt` (`normVecR`).

Each, read at `(p, q)`, is the row function of row `p` (`normK`, `normR`), and the two row functions are
equal for ALL extended reals: `σ² + ε` is positive whatever the row holds.
-/

noncomputable section

namespace Cert.RowNorm

open Idealize.ShloMosaic Idealize.ShloMosaic.ValueIdx Cert.Keepdims Cert.RowOps

/-- The row's mean, -/
def mean (y : Fin 128 → EReal) : EReal := Ideal.div (∑ k, y k) (Ideal.ofBits .f32 0x43000000#32)
/-- its variance, -/
def var (y : Fin 128 → EReal) : EReal :=
  Ideal.div (∑ k, (y k - mean y) * (y k - mean y)) (Ideal.ofBits .f32 0x43000000#32)
/-- the normalised row as a kernel computes it, -/
def normK (y g e : Fin 128 → EReal) (q : Fin 128) : EReal :=
  (y q - mean y) * Ideal.rsqrt (var y + Ideal.ofBits .f32 0x3727C5AC#32) * g q + e q
/-- and as jnp computes it. -/
def normR (y g e : Fin 128 → EReal) (q : Fin 128) : EReal :=
  Ideal.div (y q - mean y) (Ideal.sqrt (var y + Ideal.ofBits .f32 0x3727C5AC#32)) * g q + e q

/-- The two agree: the variance plus ε is positive, so dividing by its root is multiplying by the reciprocal root. -/
theorem normK_eq_normR (y g e : Fin 128 → EReal) (q : Fin 128) : normK y g e q = normR y g e q := by
  unfold normK normR var
  rw [Cert.Norm.div_sqrt_eq_mul_rsqrt _ _ (Cert.Norm.var128_pos (fun k => y k - mean y))]

/-! ## The kernel's form -/

section Kernel

variable {a : ℕ} (hred : (⟨2, ![a, 128]⟩ : Shape).Reduces [1] ⟨1, ![a]⟩) (hsc : (⟨1, ![a]⟩ : Shape).ShapeCasts ⟨2, ![a, 1]⟩)
  (hb : (⟨2, ![a, 1]⟩ : Shape).Broadcasts ⟨2, ![a, 128]⟩) (hs1 : (⟨1, ![128]⟩ : Shape).ShapeCasts ⟨2, ![1, 128]⟩)
  (hb1 : (⟨2, ![1, 128]⟩ : Shape).Broadcasts ⟨2, ![a, 128]⟩)

/-- The column of row means. -/
def meanVecK (y : FVec Ideal ⟨2, ![a, 128]⟩ .f32) : FVec Ideal ⟨2, ![a, 1]⟩ .f32 :=
  divf (shapeCast ⟨2, ![a, 1]⟩ (multiReduction .add [1] ⟨1, ![a]⟩ y 0x00000000#32 hred (.inl rfl) rfl) hsc)
    (broadcast ⟨2, ![a, 1]⟩ (Scalar.ofBits .f32 0x43000000#32))

theorem meanVecK_apply (y : FVec Ideal ⟨2, ![a, 128]⟩ .f32) (p : Fin a) (u : Fin 1) :
    meanVecK hred hsc y (ix2 p u) = mean (fun k => y (ix2 p k)) := by
  show Ideal.div (shapeCast ⟨2, ![a, 1]⟩ _ hsc (ix2 p u)) (Ideal.ofBits .f32 0x43000000#32) = _
  rw [shapeCast_a_a1_apply]
  exact congrArg (Ideal.div · _) (rowSum_apply y _ hred _ _ p)

/-- The block less its row means. -/
def centerVecK (y : FVec Ideal ⟨2, ![a, 128]⟩ .f32) : FVec Ideal ⟨2, ![a, 128]⟩ .f32 :=
  subf y (broadcastTo ⟨2, ![a, 128]⟩ (meanVecK hred hsc y) hb)

theorem centerVecK_apply (y : FVec Ideal ⟨2, ![a, 128]⟩ .f32) (p : Fin a) (q : Fin 128) :
    centerVecK hred hsc hb y (ix2 p q) = y (ix2 p q) - mean (fun k => y (ix2 p k)) := by
  show y (ix2 p q) - broadcastTo ⟨2, ![a, 128]⟩ (meanVecK hred hsc y) hb (ix2 p q) = _
  rw [broadcastTo_a1_ab_apply, meanVecK_apply]

/-- The column of row variances. -/
def varVecK (y : FVec Ideal ⟨2, ![a, 128]⟩ .f32) : FVec Ideal ⟨2, ![a, 1]⟩ .f32 :=
  divf (shapeCast ⟨2, ![a, 1]⟩ (multiReduction .add [1] ⟨1, ![a]⟩ (mulf (centerVecK hred hsc hb y) (centerVecK hred hsc hb y))
      0x00000000#32 hred (.inl rfl) rfl) hsc)
    (broadcast ⟨2, ![a, 1]⟩ (Scalar.ofBits .f32 0x43000000#32))

theorem varVecK_apply (y : FVec Ideal ⟨2, ![a, 128]⟩ .f32) (p : Fin a) (u : Fin 1) :
    varVecK hred hsc hb y (ix2 p u) = var (fun k => y (ix2 p k)) := by
  show Ideal.div (shapeCast ⟨2, ![a, 1]⟩ _ hsc (ix2 p u)) (Ideal.ofBits .f32 0x43000000#32) = _
  rw [shapeCast_a_a1_apply]
  refine (congrArg (Ideal.div · _) (rowSum_apply _ _ hred _ _ p)).trans ?_
  unfold var
  refine congrArg (Ideal.div · _) (Finset.sum_congr rfl fun k _ => ?_)
  show centerVecK hred hsc hb y (ix2 p k) * centerVecK hred hsc hb y (ix2 p k) = _
  rw [centerVecK_apply]

/-- The normalised block. -/
def normVecK (y : FVec Ideal ⟨2, ![a, 128]⟩ .f32) (g e : Vec Ideal ⟨1, ![128]⟩ .f32) : FVec Ideal ⟨2, ![a, 128]⟩ .f32 :=
  addf (mulf (mulf (centerVecK hred hsc hb y)
        (broadcastTo ⟨2, ![a, 128]⟩ (rsqrt (addf (varVecK hred hsc hb y) (broadcast ⟨2, ![a, 1]⟩ (Scalar.ofBits .f32 0x3727C5AC#32)))) hb))
      (broadcastTo ⟨2, ![a, 128]⟩ (shapeCast ⟨2, ![1, 128]⟩ g hs1) hb1))
    (broadcastTo ⟨2, ![a, 128]⟩ (shapeCast ⟨2, ![1, 128]⟩ e hs1) hb1)

theorem normVecK_apply (y : FVec Ideal ⟨2, ![a, 128]⟩ .f32) (g e : Vec Ideal ⟨1, ![128]⟩ .f32) (p : Fin a) (q : Fin 128) :
    normVecK hred hsc hb hs1 hb1 y g e (ix2 p q)
      = normK (fun k => y (ix2 p k)) (fun k => g (ix1 k)) (fun k => e (ix1 k)) q := by
  show centerVecK hred hsc hb y (ix2 p q)
      * broadcastTo ⟨2, ![a, 128]⟩ (rsqrt (addf (varVecK hred hsc hb y) (broadcast ⟨2, ![a, 1]⟩ (Scalar.ofBits .f32 0x3727C5AC#32)))) hb (ix2 p q)
      * broadcastTo ⟨2, ![a, 128]⟩ (shapeCast ⟨2, ![1, 128]⟩ g hs1) hb1 (ix2 p q)
    + broadcastTo ⟨2, ![a, 128]⟩ (shapeCast ⟨2, ![1, 128]⟩ e hs1) hb1 (ix2 p q) = _
  rw [centerVecK_apply, broadcastTo_a1_ab_apply, broadcastTo_1b_ab_apply, broadcastTo_1b_ab_apply,
    shapeCast_a_1a_apply, shapeCast_a_1a_apply]
  show _ * Ideal.rsqrt (varVecK hred hsc hb y (ix2 p (0 : Fin 1)) + Ideal.ofBits .f32 0x3727C5AC#32) * _ + _ = _
  rw [varVecK_apply]; rfl

end Kernel

/-! ## The host's form -/

section Host

variable {a : ℕ} (hrt : (⟨2, ![a, 128]⟩ : Shape).ReducesTo [1] ⟨1, ![a]⟩) (hS : 0 < (⟨0, ![]⟩ : Shape).numel)
  (hb0 : (⟨1, ![a]⟩ : Shape).BroadcastsInDim ⟨2, ![a, 1]⟩ ![0]) (hbs : (⟨0, ![]⟩ : Shape).BroadcastsInDim ⟨2, ![a, 1]⟩ ![])
  (hb01 : (⟨2, ![a, 1]⟩ : Shape).BroadcastsInDim ⟨2, ![a, 128]⟩ ![0, 1])
  (hg1 : (⟨1, ![128]⟩ : Shape).BroadcastsInDim ⟨2, ![1, 128]⟩ ![1]) (hg01 : (⟨2, ![1, 128]⟩ : Shape).BroadcastsInDim ⟨2, ![a, 128]⟩ ![0, 1])

/-- The column of row means. -/
def meanVecR (y : FVec Ideal ⟨2, ![a, 128]⟩ .f32) : FVec Ideal ⟨2, ![a, 1]⟩ .f32 :=
  Host.divf (broadcastInDim ⟨2, ![a, 1]⟩ ![0] hb0 (Host.reduceAdd (axes := [1]) (t := ⟨1, ![a]⟩) y (constant ⟨0, ![]⟩ .f32 0x00000000#32) hrt hS))
    (broadcastInDim ⟨2, ![a, 1]⟩ ![] hbs (constant ⟨0, ![]⟩ .f32 0x43000000#32))

theorem meanVecR_apply (hred : (⟨2, ![a, 128]⟩ : Shape).Reduces [1] ⟨1, ![a]⟩) (y : FVec Ideal ⟨2, ![a, 128]⟩ .f32) (p : Fin a) (u : Fin 1) :
    meanVecR hrt hS hb0 hbs y (ix2 p u) = mean (fun k => y (ix2 p k)) := by
  show Ideal.div (broadcastInDim _ _ hb0 _ (ix2 p u)) (broadcastInDim _ _ hbs _ (ix2 p u)) = _
  rw [bcast_a_a1_apply, bcast_scalar_apply, hostRowSum_apply y _ hrt hS hred]
  show Ideal.div (Ideal.ofBits .f32 0x00000000#32 + _) (Ideal.ofBits .f32 0x43000000#32) = _
  rw [Ideal.ofBits_zero_f32, zero_add]; rfl

/-- The array less its row means. -/
def centerVecR (y : FVec Ideal ⟨2, ![a, 128]⟩ .f32) : FVec Ideal ⟨2, ![a, 128]⟩ .f32 :=
  subf y (broadcastInDim ⟨2, ![a, 128]⟩ ![0, 1] hb01 (meanVecR hrt hS hb0 hbs y))

theorem centerVecR_apply (hred : (⟨2, ![a, 128]⟩ : Shape).Reduces [1] ⟨1, ![a]⟩) (y : FVec Ideal ⟨2, ![a, 128]⟩ .f32) (p : Fin a) (q : Fin 128) :
    centerVecR hrt hS hb0 hbs hb01 y (ix2 p q) = y (ix2 p q) - mean (fun k => y (ix2 p k)) := by
  show y (ix2 p q) - broadcastInDim ⟨2, ![a, 128]⟩ ![0, 1] hb01 (meanVecR hrt hS hb0 hbs y) (ix2 p q) = _
  rw [bcast_a1_ab_apply, meanVecR_apply hrt hS hb0 hbs hred]

/-- The column of row variances. -/
def varVecR (y : FVec Ideal ⟨2, ![a, 128]⟩ .f32) : FVec Ideal ⟨2, ![a, 1]⟩ .f32 :=
  Host.divf (broadcastInDim ⟨2, ![a, 1]⟩ ![0] hb0 (Host.reduceAdd (axes := [1]) (t := ⟨1, ![a]⟩)
      (mulf (centerVecR hrt hS hb0 hbs hb01 y) (centerVecR hrt hS hb0 hbs hb01 y)) (constant ⟨0, ![]⟩ .f32 0x00000000#32) hrt hS))
    (broadcastInDim ⟨2, ![a, 1]⟩ ![] hbs (constant ⟨0, ![]⟩ .f32 0x43000000#32))

theorem varVecR_apply (hred : (⟨2, ![a, 128]⟩ : Shape).Reduces [1] ⟨1, ![a]⟩) (y : FVec Ideal ⟨2, ![a, 128]⟩ .f32) (p : Fin a) (u : Fin 1) :
    varVecR hrt hS hb0 hbs hb01 y (ix2 p u) = var (fun k => y (ix2 p k)) := by
  show Ideal.div (broadcastInDim _ _ hb0 _ (ix2 p u)) (broadcastInDim _ _ hbs _ (ix2 p u)) = _
  rw [bcast_a_a1_apply, bcast_scalar_apply, hostRowSum_apply _ _ hrt hS hred]
  show Ideal.div (Ideal.ofBits .f32 0x00000000#32 + _) (Ideal.ofBits .f32 0x43000000#32) = _
  rw [Ideal.ofBits_zero_f32, zero_add]
  unfold var
  refine congrArg (Ideal.div · _) (Finset.sum_congr rfl fun k _ => ?_)
  show centerVecR hrt hS hb0 hbs hb01 y (ix2 p k) * centerVecR hrt hS hb0 hbs hb01 y (ix2 p k) = _
  rw [centerVecR_apply hrt hS hb0 hbs hb01 hred]

/-- The normalised array. -/
def normVecR (y : FVec Ideal ⟨2, ![a, 128]⟩ .f32) (g e : Vec Ideal ⟨1, ![128]⟩ .f32) : FVec Ideal ⟨2, ![a, 128]⟩ .f32 :=
  addf (mulf (Host.divf (centerVecR hrt hS hb0 hbs hb01 y)
        (broadcastInDim ⟨2, ![a, 128]⟩ ![0, 1] hb01 (Host.sqrt (addf (varVecR hrt hS hb0 hbs hb01 y)
          (broadcastInDim ⟨2, ![a, 1]⟩ ![] hbs (constant ⟨0, ![]⟩ .f32 0x3727C5AC#32))))))
      (broadcastInDim ⟨2, ![a, 128]⟩ ![0, 1] hg01 (broadcastInDim ⟨2, ![1, 128]⟩ ![1] hg1 g)))
    (broadcastInDim ⟨2, ![a, 128]⟩ ![0, 1] hg01 (broadcastInDim ⟨2, ![1, 128]⟩ ![1] hg1 e))

theorem normVecR_apply (hred : (⟨2, ![a, 128]⟩ : Shape).Reduces [1] ⟨1, ![a]⟩) (y : FVec Ideal ⟨2, ![a, 128]⟩ .f32) (g e : Vec Ideal ⟨1, ![128]⟩ .f32) (p : Fin a) (q : Fin 128) :
    normVecR hrt hS hb0 hbs hb01 hg1 hg01 y g e (ix2 p q)
      = normR (fun k => y (ix2 p k)) (fun k => g (ix1 k)) (fun k => e (ix1 k)) q := by
  show Ideal.div (centerVecR hrt hS hb0 hbs hb01 y (ix2 p q))
        (broadcastInDim ⟨2, ![a, 128]⟩ ![0, 1] hb01 (Host.sqrt (addf (varVecR hrt hS hb0 hbs hb01 y)
          (broadcastInDim _ _ hbs (constant ⟨0, ![]⟩ .f32 0x3727C5AC#32)))) (ix2 p q))
      * broadcastInDim ⟨2, ![a, 128]⟩ ![0, 1] hg01 (broadcastInDim ⟨2, ![1, 128]⟩ ![1] hg1 g) (ix2 p q)
    + broadcastInDim ⟨2, ![a, 128]⟩ ![0, 1] hg01 (broadcastInDim ⟨2, ![1, 128]⟩ ![1] hg1 e) (ix2 p q) = _
  rw [centerVecR_apply hrt hS hb0 hbs hb01 hred, bcast_a1_ab_apply, bcast_1b_ab_apply, bcast_1b_ab_apply, bcast_b_1b_apply, bcast_b_1b_apply]
  show Ideal.div _ (Ideal.sqrt (varVecR hrt hS hb0 hbs hb01 y (ix2 p (0 : Fin 1))
      + broadcastInDim _ _ hbs (constant (F := Ideal) ⟨0, ![]⟩ .f32 0x3727C5AC#32) (ix2 p (0 : Fin 1)))) * _ + _ = _
  rw [varVecR_apply hrt hS hb0 hbs hb01 hred, bcast_scalar_apply]; rfl

end Host

end Cert.RowNorm

end
-- ==== Proof.LibLnReluStage.lean ====
/-
  The normalise-and-clip stage of a graph-convolution layer, as a kernel writes it over a block of rows and as
  jnp writes it over the whole array.

  For a row `y : Fin 128 → EReal` with mean `μ` and variance `σ²` (both by a division by the literal 128), the stage
  sends it to  `max ((y q - μ) · rsqrt (σ² + ε) · γ q + β q) 0`.
  * The kernel first forms the row itself,  `y q = A[p, q] · d[p] + b[q]`  (the aggregated block scaled by the
    node's factor, plus the bias), with the factor carried as a one-column block and bias, gain and offset as
    one-row blocks; then a lane reduction, keep-dims casts and broadcasts.
  * The host takes the row as given and uses `reduce`, `broadcast_in_dim`, `divide`, `rsqrt`.
  Read at `(p, q)` each is the row function of row `p`; the operations and their order are the same, so no
  arithmetic law is needed beyond reading the layout operations at an index.
-/
import proofs.«153731_j5334349382373_2_alg».proof.Proof.LibRowNorm

noncomputable section

namespace Cert.LnStage

open Idealize.ShloMosaic Idealize.ShloMosaic.ValueIdx Cert.Keepdims Cert.RowOps Cert.RowNorm

/-- The stage on one row: normalise with gain `g` and offset `e`, then clip below at the zero word's value. -/
def lnRelu (y g e : Fin 128 → EReal) (q : Fin 128) : EReal :=
  max (normK y g e q) (Ideal.ofBits .f32 0x00000000#32)

/-! ## The kernel's form, over a block of `a` rows -/

section Kernel

variable {a : ℕ} (hred : (⟨2, ![a, 128]⟩ : Shape).Reduces [1] ⟨1, ![a]⟩) (hsc : (⟨1, ![a]⟩ : Shape).ShapeCasts ⟨2, ![a, 1]⟩)
  (hb : (⟨2, ![a, 1]⟩ : Shape).Broadcasts ⟨2, ![a, 128]⟩) (hb1 : (⟨2, ![1, 128]⟩ : Shape).Broadcasts ⟨2, ![a, 128]⟩)
  (hAA : (⟨2, ![a, 128]⟩ : Shape).ShapeCasts ⟨2, ![a, 128]⟩) (hdd : (⟨2, ![a, 1]⟩ : Shape).ShapeCasts ⟨2, ![a, 1]⟩)
  (hgg : (⟨2, ![1, 128]⟩ : Shape).ShapeCasts ⟨2, ![1, 128]⟩)

/-- The block the stage normalises: the aggregated block times the nodes' factor column, plus the bias row. -/
def preK (A : FVec Ideal ⟨2, ![a, 128]⟩ .f32) (d : FVec Ideal ⟨2, ![a, 1]⟩ .f32) (b : FVec Ideal ⟨2, ![1, 128]⟩ .f32) :
    FVec Ideal ⟨2, ![a, 128]⟩ .f32 :=
  addf (mulf (shapeCast ⟨2, ![a, 128]⟩ A hAA) (broadcastTo ⟨2, ![a, 128]⟩ (shapeCast ⟨2, ![a, 1]⟩ d hdd) hb))
    (broadcastTo ⟨2, ![a, 128]⟩ (shapeCast ⟨2, ![1, 128]⟩ b hgg) hb1)

theorem preK_apply (A : FVec Ideal ⟨2, ![a, 128]⟩ .f32) (d : FVec Ideal ⟨2, ![a, 1]⟩ .f32) (b : FVec Ideal ⟨2, ![1, 128]⟩ .f32)
    (p : Fin a) (q : Fin 128) :
    preK hb hb1 hAA hdd hgg A d b (ix2 p q) = A (ix2 p q) * d (ix2 p (0 : Fin 1)) + b (ix2 (0 : Fin 1) q) := by
  show shapeCast ⟨2, ![a, 128]⟩ A hAA (ix2 p q) * broadcastTo ⟨2, ![a, 128]⟩ (shapeCast ⟨2, ![a, 1]⟩ d hdd) hb (ix2 p q)
    + broadcastTo ⟨2, ![a, 128]⟩ (shapeCast ⟨2, ![1, 128]⟩ b hgg) hb1 (ix2 p q) = _
  rw [shapeCast_self, shapeCast_self, shapeCast_self, broadcastTo_a1_ab_apply, broadcastTo_1b_ab_apply]

/-- The whole stage on a block. -/
def stageK (A : FVec Ideal ⟨2, ![a, 128]⟩ .f32) (d : FVec Ideal ⟨2, ![a, 1]⟩ .f32) (b g e : FVec Ideal ⟨2, ![1, 128]⟩ .f32) :
    FVec Ideal ⟨2, ![a, 128]⟩ .f32 :=
  maximumf (addf (mulf (mulf (centerVecK hred hsc hb (preK hb hb1 hAA hdd hgg A d b))
        (broadcastTo ⟨2, ![a, 128]⟩ (rsqrt (addf (varVecK hred hsc hb (preK hb hb1 hAA hdd hgg A d b))
          (broadcast ⟨2, ![a, 1]⟩ (Scalar.ofBits .f32 0x3727C5AC#32)))) hb))
      (broadcastTo ⟨2, ![a, 128]⟩ (shapeCast ⟨2, ![1, 128]⟩ g hgg) hb1))
    (broadcastTo ⟨2, ![a, 128]⟩ (shapeCast ⟨2, ![1, 128]⟩ e hgg) hb1))
    (broadcast ⟨2, ![a, 128]⟩ (Scalar.ofBits .f32 0x00000000#32))

/-- Read at `(p, q)` the block form is the row function of row `p`'s data. -/
theorem stageK_apply (A : FVec Ideal ⟨2, ![a, 128]⟩ .f32) (d : FVec Ideal ⟨2, ![a, 1]⟩ .f32) (b g e : FVec Ideal ⟨2, ![1, 128]⟩ .f32)
    (p : Fin a) (q : Fin 128) :
    stageK hred hsc hb hb1 hAA hdd hgg A d b g e (ix2 p q)
      = lnRelu (fun k => A (ix2 p k) * d (ix2 p (0 : Fin 1)) + b (ix2 (0 : Fin 1) k))
          (fun k => g (ix2 (0 : Fin 1) k)) (fun k => e (ix2 (0 : Fin 1) k)) q := by
  show max (centerVecK hred hsc hb (preK hb hb1 hAA hdd hgg A d b) (ix2 p q)
        * broadcastTo ⟨2, ![a, 128]⟩ (rsqrt (addf (varVecK hred hsc hb (preK hb hb1 hAA hdd hgg A d b))
            (broadcast ⟨2, ![a, 1]⟩ (Scalar.ofBits .f32 0x3727C5AC#32)))) hb (ix2 p q)
        * broadcastTo ⟨2, ![a, 128]⟩ (shapeCast ⟨2, ![1, 128]⟩ g hgg) hb1 (ix2 p q)
      + broadcastTo ⟨2, ![a, 128]⟩ (shapeCast ⟨2, ![1, 128]⟩ e hgg) hb1 (ix2 p q)) (Ideal.ofBits .f32 0x00000000#32) = _
  rw [centerVecK_apply, broadcastTo_a1_ab_apply, broadcastTo_1b_ab_apply, broadcastTo_1b_ab_apply, shapeCast_self, shapeCast_self]
  show max (_ * Ideal.rsqrt (varVecK hred hsc hb (preK hb hb1 hAA hdd hgg A d b) (ix2 p (0 : Fin 1)) + Ideal.ofBits .f32 0x3727C5AC#32)
      * _ + _) _ = _
  rw [varVecK_apply]
  have hy : (fun k => preK hb hb1 hAA hdd hgg A d b (ix2 p k))
      = fun k => A (ix2 p k) * d (ix2 p (0 : Fin 1)) + b (ix2 (0 : Fin 1) k) := funext fun k => preK_apply hb hb1 hAA hdd hgg A d b p k
  rw [hy, preK_apply]
  rfl

end Kernel

/-! ## The host's form, over the whole array of `a` rows -/

section Host

variable {a : ℕ} (hrt : (⟨2, ![a, 128]⟩ : Shape).ReducesTo [1] ⟨1, ![a]⟩) (hS : 0 < (⟨0, ![]⟩ : Shape).numel)
  (hb0 : (⟨1, ![a]⟩ : Shape).BroadcastsInDim ⟨2, ![a, 1]⟩ ![0]) (hbs : (⟨0, ![]⟩ : Shape).BroadcastsInDim ⟨2, ![a, 1]⟩ ![])
  (hb01 : (⟨2, ![a, 1]⟩ : Shape).BroadcastsInDim ⟨2, ![a, 128]⟩ ![0, 1])
  (hg1 : (⟨1, ![128]⟩ : Shape).BroadcastsInDim ⟨2, ![1, 128]⟩ ![1]) (hg01 : (⟨2, ![1, 128]⟩ : Shape).BroadcastsInDim ⟨2, ![a, 128]⟩ ![0, 1])
  (hz : (⟨0, ![]⟩ : Shape).BroadcastsInDim ⟨2, ![a, 128]⟩ ![])

/-- The whole stage on the array. -/
def stageR (y : FVec Ideal ⟨2, ![a, 128]⟩ .f32) (g e : Vec Ideal ⟨1, ![128]⟩ .f32) : FVec Ideal ⟨2, ![a, 128]⟩ .f32 :=
  maximumf (addf (mulf (mulf (centerVecR hrt hS hb0 hbs hb01 y)
        (broadcastInDim ⟨2, ![a, 128]⟩ ![0, 1] hb01 (Host.rsqrt (addf (varVecR hrt hS hb0 hbs hb01 y)
          (broadcastInDim ⟨2, ![a, 1]⟩ ![] hbs (constant ⟨0, ![]⟩ .f32 0x3727C5AC#32))))))
      (broadcastInDim ⟨2, ![a, 128]⟩ ![0, 1] hg01 (broadcastInDim ⟨2, ![1, 128]⟩ ![1] hg1 g)))
    (broadcastInDim ⟨2, ![a, 128]⟩ ![0, 1] hg01 (broadcastInDim ⟨2, ![1, 128]⟩ ![1] hg1 e)))
    (broadcastInDim ⟨2, ![a, 128]⟩ ![] hz (constant ⟨0, ![]⟩ .f32 0x00000000#32))

/-- Read at `(p, q)` the host form is the row function of row `p`. -/
theorem stageR_apply (hred : (⟨2, ![a, 128]⟩ : Shape).Reduces [1] ⟨1, ![a]⟩) (y : FVec Ideal ⟨2, ![a, 128]⟩ .f32)
    (g e : Vec Ideal ⟨1, ![128]⟩ .f32) (p : Fin a) (q : Fin 128) :
    stageR hrt hS hb0 hbs hb01 hg1 hg01 hz y g e (ix2 p q)
      = lnRelu (fun k => y (ix2 p k)) (fun k => g (ix1 k)) (fun k => e (ix1 k)) q := by
  show max (centerVecR hrt hS hb0 hbs hb01 y (ix2 p q)
        * broadcastInDim ⟨2, ![a, 128]⟩ ![0, 1] hb01 (Host.rsqrt (addf (varVecR hrt hS hb0 hbs hb01 y)
            (broadcastInDim ⟨2, ![a, 1]⟩ ![] hbs (constant ⟨0, ![]⟩ .f32 0x3727C5AC#32)))) (ix2 p q)
        * broadcastInDim ⟨2, ![a, 128]⟩ ![0, 1] hg01 (broadcastInDim ⟨2, ![1, 128]⟩ ![1] hg1 g) (ix2 p q)
      + broadcastInDim ⟨2, ![a, 128]⟩ ![0, 1] hg01 (broadcastInDim ⟨2, ![1, 128]⟩ ![1] hg1 e) (ix2 p q))
      (broadcastInDim ⟨2, ![a, 128]⟩ ![] hz (constant (F := Ideal) ⟨0, ![]⟩ .f32 0x00000000#32) (ix2 p q)) = _
  rw [centerVecR_apply hrt hS hb0 hbs hb01 hred, bcast_a1_ab_apply, bcast_1b_ab_apply, bcast_1b_ab_apply, bcast_b_1b_apply,
    bcast_b_1b_apply, bcast_scalar_apply (t := ⟨2, ![a, 128]⟩)]
  show max (_ * Ideal.rsqrt (varVecR hrt hS hb0 hbs hb01 y (ix2 p (0 : Fin 1))
      + broadcastInDim ⟨2, ![a, 1]⟩ ![] hbs (constant (F := Ideal) ⟨0, ![]⟩ .f32 0x3727C5AC#32) (ix2 p (0 : Fin 1))) * _ + _) _ = _
  rw [varVecR_apply hrt hS hb0 hbs hb01 hred, bcast_scalar_apply]
  rfl

end Host

end Cert.LnStage

end
-- ==== Proof.LibScatterGather.lean ====
/-
  Row gathers and row scatters of StableHLO, read at an index, and the one law of the extended reals
  that lets a non-negative finite factor cross an accumulating scatter.

  * a gather of whole rows (`x[idx]` on the leading axis of a matrix, or of a vector): result row e is
    operand row `idx e`, read signed and clamped into the operand;
  * an accumulating scatter of whole rows: update row e lands on operand row `idx e` (read signed, not
    clamped) when that is a row of the operand, and nowhere otherwise;
  * on the extended reals multiplication by c distributes over a finite sum when 0 ≤ c < ⊤, so scaling
    every update that lands on an element by that element's factor scales the accumulated sum.
-/
import Idealize.ShloMosaic.PureOps.Ideal
import Idealize.ShloMosaic.PureOps.Ideal.Laws
import Idealize.ShloMosaic.Lib.ValueIdx

noncomputable section

namespace Cert.ScatterGather

open Idealize.ShloMosaic Idealize.ShloMosaic.ValueIdx

/-! ## Sums on the extended reals -/

/-- A factor `0 ≤ c < ⊤` distributes over a finite sum of extended reals. -/
theorem sum_mul_of_nonneg_ne_top {ι : Type} (s : Finset ι) (f : ι → EReal) {c : EReal} (h0 : 0 ≤ c) (ht : c ≠ ⊤) :
    (∑ j ∈ s, f j) * c = ∑ j ∈ s, f j * c := by
  classical
  induction s using Finset.induction_on with
  | empty => simp
  | insert a s ha ih => rw [Finset.sum_insert ha, Finset.sum_insert ha, EReal.right_distrib_of_nonneg_of_ne_top h0 ht, ih]

/-- An accumulating scatter into zeros whose every landing update carries the factor of the element it
    lands on: the factor comes out of the accumulated sum. Only an element some update lands on needs
    its factor non-negative and finite: where nothing lands both sides are zero. -/
theorem hostScatterAdd_zero_mul {s si su : Shape} (d : ScatterDims s si su) {w : Nat} (idx : IVec si w)
    (u u' : su.Idx → EReal) (c : s.Idx → EReal)
    (hc : ∀ j i, d.resultIdx? j idx = some i → 0 ≤ c i ∧ c i ≠ ⊤)
    (h : ∀ j i, d.resultIdx? j idx = some i → u j = u' j * c i) (i : s.Idx) :
    Ideal.hostScatterAdd d (fun _ => 0) idx u i = Ideal.hostScatterAdd d (fun _ => 0) idx u' i * c i := by
  unfold Ideal.hostScatterAdd
  simp only [zero_add]
  by_cases hne : (Finset.univ.filter (fun j => d.resultIdx? j idx = some i)).Nonempty
  · obtain ⟨j0, hj0⟩ := hne
    have hci := hc j0 i (Finset.mem_filter.mp hj0).2
    rw [sum_mul_of_nonneg_ne_top _ _ hci.1 hci.2]
    exact Finset.sum_congr rfl (fun j hj => h j i (Finset.mem_filter.mp hj).2)
  · rw [Finset.not_nonempty_iff_eq_empty.mp hne]; simp

/-- The inverse square root of a positive count is a non-negative real. -/
theorem rsqrt_count {ι : Type} (s : Finset ι) (hs : s.Nonempty) :
    0 ≤ Ideal.rsqrt (0 + ∑ _j ∈ s, (1 : EReal)) ∧ Ideal.rsqrt (0 + ∑ _j ∈ s, (1 : EReal)) ≠ ⊤ := by
  have hcard : 0 < s.card := Finset.card_pos.mpr hs
  have hsum : (0 + ∑ _j ∈ s, (1 : EReal)) = ((s.card : ℝ) : EReal) := by
    rw [zero_add, Finset.sum_const, EReal.nsmul_eq_mul, mul_one]; rfl
  have hpos : (0 : ℝ) < (s.card : ℝ) := by exact_mod_cast hcard
  rw [hsum, Ideal.rsqrt_coe, if_neg (not_lt.mpr hpos.le), if_neg hpos.ne']
  exact ⟨by exact_mod_cast inv_nonneg.mpr (Real.sqrt_nonneg _), EReal.coe_ne_top _⟩

/-! ## A gather of rows -/

section Gather
variable {α : Type} {N M C w : Nat}

/-- `x[idx]` on the leading axis of `x : [N, C]` at `idx : [M]` carried as `[M, 1]`. -/
abbrev rowsDims (N M C : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The row a gather reads for result row `e`: the start index read signed, clamped into `[0, N - 1]`. -/
def clampRow (N : Nat) (hN : 0 < N) {M w : Nat} (idx : IVec ⟨2, ![M, 1]⟩ w) (e : Fin M) : Fin N :=
  ⟨min (idx (ix2 e (0 : Fin 1))).toInt.toNat (N - 1), by omega⟩

/-- THE ROW GATHER READ AT `(e, j)`: the operand at row `clampRow … e`, column `j`. -/
theorem gather_rows_apply (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (y : (⟨2, ![M, C]⟩ : Shape).Idx) :
    Host.gather (rowsDims N M C wf) x idx y = x (ix2 (clampRow N hN idx (y 0)) (y 1)) := by
  unfold Host.gather
  congr 1
  funext a
  refine Fin.ext ?_
  match a with
  | ⟨0, _⟩ =>
    show (rowsDims N M C wf).start y idx 0 + (rowsDims N M C wf).batchCoord y 0 + (rowsDims N M C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N M C wf).startIndexMap from List.mem_singleton.mpr rfl)]
    have hsi : (rowsDims N M C wf).siIdx y ⟨List.idxOf (0 : Fin 2) (rowsDims N M C wf).startIndexMap,
        List.idxOf_lt_length_iff.2 (List.mem_singleton.mpr rfl)⟩ = ix2 (y 0) (0 : Fin 1) := by
      funext b; refine Fin.ext ?_
      match b with
      | ⟨0, _⟩ => rfl
      | ⟨1, _⟩ => rfl
    rw [hsi]
    rfl
  | ⟨1, _⟩ =>
    show (rowsDims N M C wf).start y idx 1 + (rowsDims N M C wf).batchCoord y 1 + (rowsDims N M C wf).offCoord y 1 = (y 1).val
    rw [GatherDims.batchCoord_eq_zero _ _ _ List.not_mem_nil]
    unfold GatherDims.start
    rw [dif_neg (show (1 : Fin 2) ∉ ([0] : List (Fin 2)) by decide)]
    simp only [Nat.zero_add, Nat.add_zero]
    unfold GatherDims.offCoord
    rw [dif_pos ((GatherDims.mem_sKept _ _).mpr ⟨(show (1 : Fin 2) ∉ ([0] : List (Fin 2)) by decide), List.not_mem_nil⟩)]
    rfl

/-- `x[idx]` of a vector `x : [N]` at `idx : [M]` carried as `[M, 1]`. -/
abbrev flatDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at `clampRow … e`. -/
theorem gather_flat_apply (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (y : (⟨1, ![M]⟩ : Shape).Idx) :
    Host.gather (flatDims N M wf) x idx y = x (ix1 (clampRow N hN idx (y 0))) := by
  unfold Host.gather
  congr 1
  funext a
  obtain rfl : a = 0 := Subsingleton.elim _ _
  refine Fin.ext ?_
  show (flatDims N M wf).start y idx 0 + (flatDims N M wf).batchCoord y 0 + (flatDims N M wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N M wf).startIndexMap from List.mem_singleton.mpr rfl)]
  have hsi : (flatDims N M wf).siIdx y ⟨List.idxOf (0 : Fin 1) (flatDims N M wf).startIndexMap,
      List.idxOf_lt_length_iff.2 (List.mem_singleton.mpr rfl)⟩ = ix2 (y 0) (0 : Fin 1) := by
    funext b; refine Fin.ext ?_
    match b with
    | ⟨0, _⟩ => rfl
    | ⟨1, _⟩ => rfl
  rw [hsi]
  rfl

end Gather

/-! ## An accumulating scatter of rows -/

section Scatter
variable {N M C w : Nat}

/-- `x.at[idx].add(u)` on the leading axis of `x : [N, C]`, `idx : [M]` carried as `[M, 1]`, `u : [M, C]`. -/
abbrev rowsScatter (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

theorem rowsScatter_start0 (wf : ScatterDims.WF ⟨2, ![N, C]⟩ ⟨2, ![M, 1]⟩ ⟨2, ![M, C]⟩ [1] [0] [0] 1)
    (j : (⟨2, ![M, C]⟩ : Shape).Idx) (idx : IVec ⟨2, ![M, 1]⟩ w) :
    (rowsScatter N M C wf).start j idx 0 = (idx (ix2 (j 0) (0 : Fin 1))).toInt := by
  unfold ScatterDims.start
  rw [dif_pos (show (0 : Fin 2) ∈ (rowsScatter N M C wf).scatterDimsToOperandDims from List.mem_singleton.mpr rfl)]
  have hsi : (rowsScatter N M C wf).siIdx j ⟨List.idxOf (0 : Fin 2) (rowsScatter N M C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem rowsScatter_start1 (wf : ScatterDims.WF ⟨2, ![N, C]⟩ ⟨2, ![M, 1]⟩ ⟨2, ![M, C]⟩ [1] [0] [0] 1)
    (j : (⟨2, ![M, C]⟩ : Shape).Idx) (idx : IVec ⟨2, ![M, 1]⟩ w) :
    (rowsScatter N M C wf).start j idx 1 = 0 := by
  unfold ScatterDims.start
  rw [dif_neg (show (1 : Fin 2) ∉ ([0] : List (Fin 2)) by decide)]

theorem rowsScatter_window0 (wf : ScatterDims.WF ⟨2, ![N, C]⟩ ⟨2, ![M, 1]⟩ ⟨2, ![M, C]⟩ [1] [0] [0] 1)
    (j : (⟨2, ![M, C]⟩ : Shape).Idx) : (rowsScatter N M C wf).window j 0 = 0 := by
  unfold ScatterDims.window
  have h : (0 : Fin 2) ∉ (rowsScatter N M C wf).sKept := by
    show (0 : Fin 2) ∉ ([1] : List (Fin 2)); decide
  rw [dif_neg h]

theorem rowsScatter_window1 (wf : ScatterDims.WF ⟨2, ![N, C]⟩ ⟨2, ![M, 1]⟩ ⟨2, ![M, C]⟩ [1] [0] [0] 1)
    (j : (⟨2, ![M, C]⟩ : Shape).Idx) : (rowsScatter N M C wf).window j 1 = (j 1).val := by
  unfold ScatterDims.window
  have h : (1 : Fin 2) ∈ (rowsScatter N M C wf).sKept := by
    show (1 : Fin 2) ∈ ([1] : List (Fin 2)); decide
  rw [dif_pos h]
  rfl

/-- WHERE A ROW UPDATE LANDS: element `(e, k)` of the updates lands on `(n, k')` exactly when the index of
    row `e`, read signed, is `n` and `k = k'`. -/
theorem rowsScatter_resultIdx?_eq_some_iff (wf : ScatterDims.WF ⟨2, ![N, C]⟩ ⟨2, ![M, 1]⟩ ⟨2, ![M, C]⟩ [1] [0] [0] 1)
    (j : (⟨2, ![M, C]⟩ : Shape).Idx) (idx : IVec ⟨2, ![M, 1]⟩ w) (i : (⟨2, ![N, C]⟩ : Shape).Idx) :
    (rowsScatter N M C wf).resultIdx? j idx = some i ↔
      (idx (ix2 (j 0) (0 : Fin 1))).toInt = ((i 0).val : Int) ∧ (j 1).val = (i 1).val := by
  have hi0 : (i 0).val < N := (i 0).isLt
  have hj1 : (j 1).val < C := (j 1).isLt
  unfold ScatterDims.resultIdx?
  split
  · rename_i h
    rw [Option.some.injEq]
    constructor
    · intro e
      have e0 := congrArg (fun f => (f 0).val) e
      have e1 := congrArg (fun f => (f 1).val) e
      simp only [rowsScatter_start0, rowsScatter_start1, rowsScatter_window0, rowsScatter_window1] at e0 e1
      have h0 := h 0
      simp only [rowsScatter_start0, rowsScatter_window0] at h0
      constructor
      · omega
      · omega
    · rintro ⟨e0, e1⟩
      funext a
      refine Fin.ext ?_
      match a with
      | ⟨0, _⟩ =>
        show ((rowsScatter N M C wf).start j idx 0 + ((rowsScatter N M C wf).window j 0 : Int)).toNat = (i 0).val
        rw [rowsScatter_start0, rowsScatter_window0, e0]; omega
      | ⟨1, _⟩ =>
        show ((rowsScatter N M C wf).start j idx 1 + ((rowsScatter N M C wf).window j 1 : Int)).toNat = (i 1).val
        rw [rowsScatter_start1, rowsScatter_window1]; omega
  · rename_i h
    constructor
    · intro e; exact absurd e (by simp)
    · rintro ⟨e0, e1⟩
      exfalso; apply h
      intro a
      match a with
      | ⟨0, _⟩ =>
        show 0 ≤ (rowsScatter N M C wf).start j idx 0 + ((rowsScatter N M C wf).window j 0 : Int) ∧
          (rowsScatter N M C wf).start j idx 0 + ((rowsScatter N M C wf).window j 0 : Int) < ((⟨2, ![N, C]⟩ : Shape).size 0 : Int)
        rw [rowsScatter_start0, rowsScatter_window0, e0]
        refine ⟨by omega, ?_⟩
        show ((i 0).val : Int) + ((0 : Nat) : Int) < (N : Int)
        omega
      | ⟨1, _⟩ =>
        show 0 ≤ (rowsScatter N M C wf).start j idx 1 + ((rowsScatter N M C wf).window j 1 : Int) ∧
          (rowsScatter N M C wf).start j idx 1 + ((rowsScatter N M C wf).window j 1 : Int) < ((⟨2, ![N, C]⟩ : Shape).size 1 : Int)
        rw [rowsScatter_start1, rowsScatter_window1]
        refine ⟨by omega, ?_⟩
        show (0 : Int) + ((j 1).val : Int) < (C : Int)
        omega

/-- `x.at[idx].add(u)` of a vector `x : [N]`, `idx : [M]` carried as `[M, 1]`, `u : [M]`. -/
abbrev flatScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

theorem flatScatter_start0 (wf : ScatterDims.WF ⟨1, ![N]⟩ ⟨2, ![M, 1]⟩ ⟨1, ![M]⟩ [] [0] [0] 1)
    (j : (⟨1, ![M]⟩ : Shape).Idx) (idx : IVec ⟨2, ![M, 1]⟩ w) :
    (flatScatter N M wf).start j idx 0 = (idx (ix2 (j 0) (0 : Fin 1))).toInt := by
  unfold ScatterDims.start
  rw [dif_pos (show (0 : Fin 1) ∈ (flatScatter N M wf).scatterDimsToOperandDims from List.mem_singleton.mpr rfl)]
  have hsi : (flatScatter N M wf).siIdx j ⟨List.idxOf (0 : Fin 1) (flatScatter N M wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem flatScatter_window0 (wf : ScatterDims.WF ⟨1, ![N]⟩ ⟨2, ![M, 1]⟩ ⟨1, ![M]⟩ [] [0] [0] 1)
    (j : (⟨1, ![M]⟩ : Shape).Idx) : (flatScatter N M wf).window j 0 = 0 := by
  unfold ScatterDims.window
  have h : (0 : Fin 1) ∉ (flatScatter N M wf).sKept := by
    show (0 : Fin 1) ∉ ([] : List (Fin 1)); exact List.not_mem_nil
  rw [dif_neg h]

/-- WHERE A VECTOR UPDATE LANDS: element `e` lands on `n` exactly when its index, read signed, is `n`. -/
theorem flatScatter_resultIdx?_eq_some_iff (wf : ScatterDims.WF ⟨1, ![N]⟩ ⟨2, ![M, 1]⟩ ⟨1, ![M]⟩ [] [0] [0] 1)
    (j : (⟨1, ![M]⟩ : Shape).Idx) (idx : IVec ⟨2, ![M, 1]⟩ w) (i : (⟨1, ![N]⟩ : Shape).Idx) :
    (flatScatter N M wf).resultIdx? j idx = some i ↔ (idx (ix2 (j 0) (0 : Fin 1))).toInt = ((i 0).val : Int) := by
  have hi0 : (i 0).val < N := (i 0).isLt
  unfold ScatterDims.resultIdx?
  split
  · rename_i h
    rw [Option.some.injEq]
    constructor
    · intro e
      have e0 := congrArg (fun f => (f 0).val) e
      simp only [flatScatter_start0, flatScatter_window0] at e0
      have h0 := h 0
      simp only [flatScatter_start0, flatScatter_window0] at h0
      omega
    · intro e0
      funext a
      obtain rfl : a = 0 := Subsingleton.elim _ _
      refine Fin.ext ?_
      show ((flatScatter N M wf).start j idx 0 + ((flatScatter N M wf).window j 0 : Int)).toNat = (i 0).val
      rw [flatScatter_start0, flatScatter_window0, e0]; omega
  · rename_i h
    constructor
    · intro e; exact absurd e (by simp)
    · intro e0
      exfalso; apply h
      intro a
      obtain rfl : a = 0 := Subsingleton.elim _ _
      show 0 ≤ (flatScatter N M wf).start j idx 0 + ((flatScatter N M wf).window j 0 : Int) ∧
        (flatScatter N M wf).start j idx 0 + ((flatScatter N M wf).window j 0 : Int) < ((⟨1, ![N]⟩ : Shape).size 0 : Int)
      rw [flatScatter_start0, flatScatter_window0, e0]
      refine ⟨by omega, ?_⟩
      show ((i 0).val : Int) + ((0 : Nat) : Int) < (N : Int)
      omega

end Scatter

end Cert.ScatterGather

end
-- ==== Proof.LibGraphMean.lean ====
/-
  The mean of gathered rows commutes with a linear map, on the extended reals.

  A graph layer gathers rows of a node array `X` along the edges' sources, adds the gathered rows into the rows
  their edges point to, and divides each row by a per-row divisor. Row `r` of the result is
  `(Σ_{e lands on r} X[src e, ·]) / d r`. When `X` and a weight matrix `B` hold real numbers and `d r` is a
  non-zero real, projecting afterwards,  `Σ_k ((Σ_e X[src e, k]) / d r) · B[q, k]`,  is the same number as
  projecting first,  `(Σ_e Σ_k X[src e, k] · B[q, k]) / d r`:  both are finite sums of products of reals, and the
  law is the exchange of two finite sums with the factor `1 / d r` and `B[q, k]` moved across them.
  The divisor of the layer is the in-degree clamped below by one, `max (#{e lands on r}) 1`: a real, at least one.
-/
import Idealize.ShloMosaic.PureOps.Ideal
import Idealize.ShloMosaic.PureOps.Ideal.Laws
import Idealize.ShloMosaic.Lib.ValueIdx
import proofs.«153731_j5334349382373_2_alg».proof.Proof.LibScatterGather

noncomputable section

namespace Cert.GraphMean

open Idealize.ShloMosaic Idealize.ShloMosaic.ValueIdx Cert.ScatterGather

/-- The coercion of the reals into the extended reals goes through a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {N M C w : Nat}

/-- The update rows that land on operand row `r`: those whose index, read signed, is `r`. -/
def landing (idx : IVec ⟨2, ![M, 1]⟩ w) (r : Fin N) : Finset (Fin M) :=
  Finset.univ.filter fun e => (idx (ix2 e (0 : Fin 1))).toInt = (r.val : Int)

/-- An accumulating row scatter into zeros, read at `(r, k)`: the sum of column `k` of the update rows that land
    on row `r`. -/
theorem scatter_rows_apply (wf : ScatterDims.WF ⟨2, ![N, C]⟩ ⟨2, ![M, 1]⟩ ⟨2, ![M, C]⟩ [1] [0] [0] 1)
    (idx : IVec ⟨2, ![M, 1]⟩ w) (u : (⟨2, ![M, C]⟩ : Shape).Idx → EReal) (r : Fin N) (k : Fin C) :
    Ideal.hostScatterAdd (rowsScatter N M C wf) (fun _ => 0) idx u (ix2 r k) = ∑ e ∈ landing idx r, u (ix2 e k) := by
  unfold Ideal.hostScatterAdd
  rw [zero_add]
  have key : ∀ j : (⟨2, ![M, C]⟩ : Shape).Idx, (rowsScatter N M C wf).resultIdx? j idx = some (ix2 r k) →
      (idx (ix2 (j 0) (0 : Fin 1))).toInt = (r.val : Int) ∧ ix2 (j 0) k = j := by
    intro j hj
    have h := (rowsScatter_resultIdx?_eq_some_iff wf j idx (ix2 r k)).mp hj
    refine ⟨h.1, ?_⟩
    funext a
    match a with
    | ⟨0, _⟩ => rfl
    | ⟨1, _⟩ => exact (Fin.ext h.2).symm
  refine Finset.sum_nbij' (fun j => j 0) (fun e => ix2 e k) ?_ ?_ ?_ ?_ ?_
  · intro j hj
    exact Finset.mem_filter.mpr ⟨Finset.mem_univ _, (key j (Finset.mem_filter.mp hj).2).1⟩
  · intro e he
    exact Finset.mem_filter.mpr ⟨Finset.mem_univ _,
      (rowsScatter_resultIdx?_eq_some_iff wf (ix2 e k) idx (ix2 r k)).mpr ⟨(Finset.mem_filter.mp he).2, rfl⟩⟩
  · intro j hj
    exact (key j (Finset.mem_filter.mp hj).2).2
  · intro e _
    rfl
  · intro j hj
    exact congrArg u (key j (Finset.mem_filter.mp hj).2).2.symm

/-- An accumulating scatter of ones into a vector of zeros, read at `r`: the number of updates that land on `r`. -/
theorem scatter_count_apply (wf : ScatterDims.WF ⟨1, ![N]⟩ ⟨2, ![M, 1]⟩ ⟨1, ![M]⟩ [] [0] [0] 1)
    (idx : IVec ⟨2, ![M, 1]⟩ w) (r : Fin N) :
    Ideal.hostScatterAdd (flatScatter N M wf) (fun _ => 0) idx (fun _ => 1) (ix1 r)
      = (((landing idx r).card : ℝ) : EReal) := by
  unfold Ideal.hostScatterAdd
  rw [zero_add]
  have e : ∑ j ∈ Finset.univ.filter (fun j : (⟨1, ![M]⟩ : Shape).Idx => (flatScatter N M wf).resultIdx? j idx = some (ix1 r)), (1 : EReal)
      = ∑ _e ∈ landing idx r, (1 : EReal) := by
    refine Finset.sum_nbij' (fun j => j 0) (fun e => ix1 e) ?_ ?_ ?_ ?_ ?_
    · intro j hj
      exact Finset.mem_filter.mpr ⟨Finset.mem_univ _,
        (flatScatter_resultIdx?_eq_some_iff wf j idx (ix1 r)).mp (Finset.mem_filter.mp hj).2⟩
    · intro e he
      exact Finset.mem_filter.mpr ⟨Finset.mem_univ _,
        (flatScatter_resultIdx?_eq_some_iff wf (ix1 e) idx (ix1 r)).mpr (Finset.mem_filter.mp he).2⟩
    · intro j _
      exact (eq_ix1 j).symm
    · intro e _
      rfl
    · intro j _
      rfl
  rw [e, Finset.sum_const, EReal.nsmul_eq_mul, mul_one]
  rfl

/-- The same count, for the host's accumulating scatter of a vector of ones into a vector of zeros, whatever the
    names its record, its operand and its updates go by. -/
theorem host_count_apply (d : ScatterDims ⟨1, ![N]⟩ ⟨2, ![M, 1]⟩ ⟨1, ![M]⟩)
    (wf : ScatterDims.WF ⟨1, ![N]⟩ ⟨2, ![M, 1]⟩ ⟨1, ![M]⟩ [] [0] [0] 1) (hd : d = flatScatter N M wf)
    (Z : FVec Ideal ⟨1, ![N]⟩ .f32) (hZ : Z = fun _ => 0) (idx : IVec ⟨2, ![M, 1]⟩ w)
    (U : FVec Ideal ⟨1, ![M]⟩ .f32) (hU : U = fun _ => 1) (r : Fin N) :
    Host.scatterAdd (F := Ideal) d Z idx U (ix1 r) = (((landing idx r).card : ℝ) : EReal) := by
  subst hd hZ hU
  exact scatter_count_apply wf idx r

/-- The in-degree of row `r` clamped below by one: the layer's divisor. -/
def degree (idx : IVec ⟨2, ![M, 1]⟩ w) (r : Fin N) : ℝ := max ((landing idx r).card : ℝ) 1

theorem degree_ne_zero (idx : IVec ⟨2, ![M, 1]⟩ w) (r : Fin N) : degree idx r ≠ 0 :=
  (lt_of_lt_of_le one_pos (le_max_right _ _)).ne'

/-- The maximum of a count and one, on the extended reals, is that real. -/
theorem max_count_one (idx : IVec ⟨2, ![M, 1]⟩ w) (r : Fin N) :
    max (((landing idx r).card : ℝ) : EReal) 1 = (degree idx r : EReal) := by
  unfold degree
  rw [← EReal.coe_one]
  exact (EReal.coe_strictMono.monotone.map_max).symm

/-- The exchange of sums over the reals: scaling and projecting the sum of rows is summing the projected rows and
    scaling. -/
theorem real_law {E K : Type} [Fintype K] (s : Finset E) (a : E → K → ℝ) (b : K → ℝ) (c : ℝ) :
    ∑ k : K, ((∑ e ∈ s, a e k) * c) * b k = (∑ e ∈ s, ∑ k : K, a e k * b k) * c := by
  simp only [Finset.sum_mul]
  rw [Finset.sum_comm]
  exact Finset.sum_congr rfl fun e _ => Finset.sum_congr rfl fun k _ => by ring

/-- THE LAW. `X = ↑a` and `B = ↑b` real, the divisor of row `r` the non-zero real `d r` in every column, the
    scatter's operand zero: the mean of the gathered rows of `X`, projected by `B`, is the mean of the gathered rows
    of the projected `X`. -/
theorem mean_project (hN : 0 < N)
    (wfg : GatherDims.WF ⟨2, ![N, C]⟩ ⟨2, ![M, 1]⟩ ⟨2, ![M, C]⟩ [1] [0] [] [0] [] 1 ![1, C])
    (wfs : ScatterDims.WF ⟨2, ![N, C]⟩ ⟨2, ![M, 1]⟩ ⟨2, ![M, C]⟩ [1] [0] [0] 1)
    (Z : (⟨2, ![N, C]⟩ : Shape).Idx → EReal) (hZ : Z = fun _ => 0)
    (I1 I2 : IVec ⟨2, ![M, 1]⟩ w)
    (Dn : (⟨2, ![N, C]⟩ : Shape).Idx → EReal) (d : Fin N → ℝ) (hd : ∀ r, d r ≠ 0)
    (hDn : ∀ r k, Dn (ix2 r k) = (d r : EReal))
    (a : (⟨2, ![N, C]⟩ : Shape).Idx → ℝ) (b : (⟨2, ![C, C]⟩ : Shape).Idx → ℝ) (r : Fin N) (q : Fin C) :
    ∑ k : Fin C, Ideal.div (Ideal.hostScatterAdd (rowsScatter N M C wfs) Z I2
        (Host.gather (rowsDims N M C wfg) (fun i => (a i : EReal)) I1) (ix2 r k)) (Dn (ix2 r k)) * (b (ix2 q k) : EReal)
      = Ideal.div (Ideal.hostScatterAdd (rowsScatter N M C wfs) Z I2
        (Host.gather (rowsDims N M C wfg) (fun i => ∑ k : Fin C, (a (ix2 (i 0) k) : EReal) * (b (ix2 (i 1) k) : EReal)) I1)
          (ix2 r q)) (Dn (ix2 r q)) := by
  subst hZ
  simp only [scatter_rows_apply, hDn, Ideal.div_coe (hd r), gather_rows_apply hN wfg]
  simp only [← EReal.coe_mul, ← coe_sum]
  exact congrArg _ (real_law (landing I2 r) (fun e k => a (ix2 (clampRow N hN I1 e) k)) (fun k => b (ix2 q k)) (1 / d r))

end Cert.GraphMean

end
-- ==== Proof.LibGcnLayer.lean ====
/-
  One graph-convolution layer with symmetric normalisation, in the two arrangements the two programs use, and the
  two-layer network they both compute.

  Nodes are r < N, edges e < M (the given edges followed by one self-loop per node). Edge e reads node `s e` (its
  source index, read signed and clamped into the node range) and is added into node `d e` (its target index, read
  signed; an edge whose target is not a node is dropped). With  c r = 1/√(deg r)  (0 where the degree is not positive)
  the layer sends a node array xw to
        out[r, k] = c r · Σ_{e lands on r} xw[s e, k] · c (s e).
  * The kernel's program scales the node array by c BEFORE the gather, adds the gathered rows, and scales the sums
    by c AFTER: literally the formula above.
  * The reference scales every gathered row by the edge weight  c (s e) · c (d' e),  d' e the target index read
    signed with a negative index wrapped, clamped — and adds. For an edge that lands on r the target IS r, so the
    weight is c (s e) · c r, and the factor c r, a non-negative real, comes out of the sum: on the extended reals
    a factor 0 ≤ c < ⊤ distributes over a finite sum whatever the summands are.
  No finiteness of the node array is needed.
  Stated for any numbers of nodes N, edges M and columns C and any index width (the network `gcn` with 64 → 64 → 32
  features, `clampRow_of_wrapped` for 100000 nodes and 32-bit indices); the records of the gathers and scatters enter as
  parameters with an equation to the row forms of the scatter / gather lemma file this module imports.
-/
import Idealize.ShloMosaic.PureOps.Ideal
import Idealize.ShloMosaic.PureOps.Ideal.Laws
import Idealize.ShloMosaic.Lib.ValueIdx
import proofs.«153731_j5334349382373_2_alg».proof.Proof.LibScatterGather
import proofs.«153731_j5334349382373_2_alg».proof.Proof.LibGraphMean

noncomputable section

namespace Cert.Gcn

open Idealize.ShloMosaic Idealize.ShloMosaic.ValueIdx Cert.ScatterGather Cert.GraphMean

/-! ## The normalising factor -/

/-- `1/√d` where `d > 0`, else `0`: the factor of a node of degree `d`, as both programs select it. -/
def invSqrtDeg (d : EReal) : EReal := Scalar.select (Ideal.cmp .ogt d 0) (Ideal.rsqrt d) 0

/-- The factor is a non-negative real whatever the degree is: the inverse root of a positive real is a positive
    real, that of `⊤` is `0`, and where the degree is not positive the factor is `0`. -/
theorem invSqrtDeg_nonneg_ne_top (d : EReal) : 0 ≤ invSqrtDeg d ∧ invSqrtDeg d ≠ ⊤ := by
  unfold invSqrtDeg Ideal.cmp
  by_cases h : (0 : EReal) < d
  · rw [show (BitVec.ofBool (decide ((0 : EReal) < d))) = 1#1 by simp [h], select_one]
    induction d using EReal.rec with
    | bot => exact absurd h (by simp)
    | top => rw [Ideal.rsqrt_top]; exact ⟨le_refl _, EReal.zero_ne_top⟩
    | coe r =>
      have hr : (0 : ℝ) < r := by exact_mod_cast h
      rw [Ideal.rsqrt_coe, if_neg (not_lt.mpr hr.le), if_neg hr.ne']
      exact ⟨by exact_mod_cast inv_nonneg.mpr (Real.sqrt_nonneg _), EReal.coe_ne_top _⟩
  · rw [show (BitVec.ofBool (decide ((0 : EReal) < d))) = 0#1 by simp [h], select_zero]
    exact ⟨le_refl _, EReal.zero_ne_top⟩

variable {N M C w : Nat}

/-! ## The two gathers at explicit coordinates -/

/-- The row gather at edge `e`, column `k`: the operand's row `s e`, column `k`. -/
theorem gather_rows_at {α : Type} (hN : 0 < N)
    (wfg : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (k : Fin C) :
    Host.gather (rowsDims N M C wfg) x idx (ix2 e k) = x (ix2 (clampRow N hN idx e) k) :=
  gather_rows_apply hN wfg x idx (ix2 e k)

/-- The vector gather at edge `e`: the operand at `s e`. -/
theorem gather_flat_at {α : Type} (hN : 0 < N)
    (wfv : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (flatDims N M wfv) x idx (ix1 e) = x (ix1 (clampRow N hN idx e)) :=
  gather_flat_apply hN wfv x idx (ix1 e)

/-! ## The layer -/

/-- One normalised layer at node `r`, column `k`: `c r · Σ_{e lands on r} xw[s e, k] · c (s e)`. -/
def layer (hN : 0 < N) (c : Fin N → EReal) (S D : IVec ⟨2, ![M, 1]⟩ w) (xw : Fin N → Fin C → EReal)
    (r : Fin N) (k : Fin C) : EReal :=
  c r * ∑ e ∈ landing D r, xw (clampRow N hN S e) k * c (clampRow N hN S e)

/-- THE KERNEL'S ARRANGEMENT. The node array scaled by the factor (carried as the array `CB1`, constant along
    rows), rounded to the narrow format (the identity on extended reals), gathered along the sources, widened,
    added into zeros along the targets, scaled again (`CB2`): the layer. -/
theorem layer_of_prescaled (hN : 0 < N)
    (gd : GatherDims ⟨2, ![N, C]⟩ ⟨2, ![M, 1]⟩ ⟨2, ![M, C]⟩)
    (wfg : GatherDims.WF ⟨2, ![N, C]⟩ ⟨2, ![M, 1]⟩ ⟨2, ![M, C]⟩ [1] [0] [] [0] [] 1 ![1, C]) (hgd : gd = rowsDims N M C wfg)
    (sd : ScatterDims ⟨2, ![N, C]⟩ ⟨2, ![M, 1]⟩ ⟨2, ![M, C]⟩)
    (wfs : ScatterDims.WF ⟨2, ![N, C]⟩ ⟨2, ![M, 1]⟩ ⟨2, ![M, C]⟩ [1] [0] [0] 1) (hsd : sd = rowsScatter N M C wfs)
    (Z : FVec Ideal ⟨2, ![N, C]⟩ .f32) (hZ : Z = fun _ => 0)
    (XW CB1 CB2 : FVec Ideal ⟨2, ![N, C]⟩ .f32) (c : Fin N → EReal)
    (hCB1 : ∀ r k, CB1 (ix2 r k) = c r) (hCB2 : ∀ r k, CB2 (ix2 r k) = c r)
    (S D : IVec ⟨2, ![M, 1]⟩ w) (hb : FTy.bits .bf16 < FTy.bits .f32) (r : Fin N) (k : Fin C) :
    mulf CB2 (Host.scatterAdd (F := Ideal) sd Z D
        (extf .f32 (Host.gather gd (truncf .bf16 (mulf XW CB1) hb) S) hb)) (ix2 r k)
      = layer hN c S D (fun r k => XW (ix2 r k)) r k := by
  subst hgd hsd hZ
  rw [mulf_apply, hCB2]
  show c r * Ideal.hostScatterAdd (rowsScatter N M C wfs) (fun _ => 0) D _ (ix2 r k) = _
  rw [scatter_rows_apply]
  unfold layer
  refine congrArg _ (Finset.sum_congr rfl fun e _ => ?_)
  rw [extf_apply, gather_rows_at hN wfg, truncf_apply, mulf_apply, hCB1]

/-- THE REFERENCE'S ARRANGEMENT. The node array gathered along the sources, every gathered row scaled by its
    edge's weight `c (s e) · c (d' e)` (carried as the array `NB`, constant along rows; the two factors gathered
    from the vector `cv`), added into zeros along the targets: the layer, when an edge that lands on node `r` has
    `d' e = r` and the factors are non-negative reals. -/
theorem layer_of_edge_weights (hN : 0 < N)
    (gd : GatherDims ⟨2, ![N, C]⟩ ⟨2, ![M, 1]⟩ ⟨2, ![M, C]⟩)
    (wfg : GatherDims.WF ⟨2, ![N, C]⟩ ⟨2, ![M, 1]⟩ ⟨2, ![M, C]⟩ [1] [0] [] [0] [] 1 ![1, C]) (hgd : gd = rowsDims N M C wfg)
    (sd : ScatterDims ⟨2, ![N, C]⟩ ⟨2, ![M, 1]⟩ ⟨2, ![M, C]⟩)
    (wfs : ScatterDims.WF ⟨2, ![N, C]⟩ ⟨2, ![M, 1]⟩ ⟨2, ![M, C]⟩ [1] [0] [0] 1) (hsd : sd = rowsScatter N M C wfs)
    (gv : GatherDims ⟨1, ![N]⟩ ⟨2, ![M, 1]⟩ ⟨1, ![M]⟩)
    (wfv : GatherDims.WF ⟨1, ![N]⟩ ⟨2, ![M, 1]⟩ ⟨1, ![M]⟩ [] [0] [] [0] [] 1 ![1]) (hgv : gv = flatDims N M wfv)
    (Z : FVec Ideal ⟨2, ![N, C]⟩ .f32) (hZ : Z = fun _ => 0)
    (XW : FVec Ideal ⟨2, ![N, C]⟩ .f32) (cv : FVec Ideal ⟨1, ![N]⟩ .f32) (c : Fin N → EReal)
    (hcv : ∀ r, cv (ix1 r) = c r) (hc : ∀ r, 0 ≤ c r ∧ c r ≠ ⊤)
    (S D D' : IVec ⟨2, ![M, 1]⟩ w)
    (hD' : ∀ (e : Fin M) (r : Fin N), (D (ix2 e (0 : Fin 1))).toInt = (r.val : Int) → clampRow N hN D' e = r)
    (NB : FVec Ideal ⟨2, ![M, C]⟩ .f32)
    (hNB : ∀ e k, NB (ix2 e k) = mulf (Host.gather gv cv S) (Host.gather gv cv D') (ix1 e))
    (r : Fin N) (k : Fin C) :
    Host.scatterAdd (F := Ideal) sd Z D (mulf (Host.gather gd XW S) NB) (ix2 r k)
      = layer hN c S D (fun r k => XW (ix2 r k)) r k := by
  subst hgd hsd hgv hZ
  show Ideal.hostScatterAdd (rowsScatter N M C wfs) (fun _ => 0) D _ (ix2 r k) = _
  rw [scatter_rows_apply]
  unfold layer
  rw [mul_comm, sum_mul_of_nonneg_ne_top _ _ (hc r).1 (hc r).2]
  refine Finset.sum_congr rfl fun e he => ?_
  have hland : (D (ix2 e (0 : Fin 1))).toInt = (r.val : Int) := (Finset.mem_filter.mp he).2
  rw [mulf_apply, gather_rows_at hN wfg, hNB, mulf_apply, gather_flat_at hN wfv, gather_flat_at hN wfv,
    hcv, hcv, hD' e r hland, mul_assoc]

/-! ## The network -/

/-- The two-layer network at node `r`, class `q`: the layer of `x0 · x2`, plus the bias `x3`, clipped below at zero,
    projected by `x4`, the layer again, plus the bias `x5`. -/
def gcn (hN : 0 < N) (c : Fin N → EReal) (S D : IVec ⟨2, ![M, 1]⟩ w)
    (x0 : (⟨2, ![N, 64]⟩ : Shape).Idx → EReal) (x2 : (⟨2, ![64, 64]⟩ : Shape).Idx → EReal)
    (x3 : (⟨1, ![64]⟩ : Shape).Idx → EReal) (x4 : (⟨2, ![64, 32]⟩ : Shape).Idx → EReal)
    (x5 : (⟨1, ![32]⟩ : Shape).Idx → EReal) (r : Fin N) (q : Fin 32) : EReal :=
  layer hN c S D (fun r q => ∑ k : Fin 64,
      max (layer hN c S D (fun r k => ∑ j : Fin 64, x0 (ix2 r j) * x2 (ix2 j k)) r k + x3 (ix1 k)) 0 * x4 (ix2 k q)) r q
    + x5 (ix1 q)

/-! ## Two small facts both programs' readings use -/

/-- The zero word broadcast to any shape is the zero array. -/
theorem bcast_zero_f32 {t : Shape} (h : (⟨0, ![]⟩ : Shape).BroadcastsInDim t (![] : Fin 0 → Fin t.rank)) :
    broadcastInDim t ![] h (constant (F := Ideal) ⟨0, ![]⟩ .f32 0x00000000#32) = fun _ => 0 := by
  funext i
  unfold broadcastInDim
  exact Ideal.ofBits_zero_f32

/-- A target index that names node `r` of 100000 is left alone by the wrap of negative indices
    (`b < 0 ? b + 100000 : b`) and by the clamp into the node range: the reference's second factor of an edge that
    lands on `r` is read at `r`. -/
theorem clampRow_of_wrapped (D D' : IVec ⟨2, ![M, 1]⟩ 32) (e : Fin M) (r : Fin 100000)
    (hw : D' (ix2 e (0 : Fin 1)) = Scalar.select (IntOp.cmpi .slt (D (ix2 e (0 : Fin 1))) 0#32)
      (IntOp.addi (D (ix2 e (0 : Fin 1))) 100000#32) (D (ix2 e (0 : Fin 1))))
    (hr : (D (ix2 e (0 : Fin 1))).toInt = (r.val : Int)) :
    clampRow 100000 (by decide) D' e = r := by
  have hlt : r.val < 100000 := r.isLt
  have hns : (D (ix2 e (0 : Fin 1))).slt 0#32 = false := by
    rw [BitVec.slt, hr]; simp
  have hsel : D' (ix2 e (0 : Fin 1)) = D (ix2 e (0 : Fin 1)) := by
    rw [hw]; unfold IntOp.cmpi; rw [hns]; exact select_zero _ _
  refine Fin.ext ?_
  show min (D' (ix2 e (0 : Fin 1))).toInt.toNat (100000 - 1) = r.val
  rw [hsel, hr]
  omega

end Cert.Gcn

end
-- ==== Proof.LibMatProd.lean ====
/-
  A contraction over ONE axis as the familiar matrix product, over the extended reals. For dimension numbers that
  contract the left operand's axis 1 against the right operand's axis 0 and keep the left's axis 0 and the right's
  axis 1 — a matrix product's, on a kernel's matrix unit or as a host contraction — the sum over the contraction's
  index set is `Σ_{k < K} x (r, k) · w (k, q)`. The four coordinate facts are hypotheses, read off each record where
  the lemma is used (two of them are the library's `lhsIdx_val_of_single` / `rhsIdx_val_of_single`).
-/
import Idealize.ShloMosaic.PureOps.Ideal
import Idealize.ShloMosaic.Lib.ValueIdx

noncomputable section

namespace Cert.Gcn.Dense

open Idealize.ShloMosaic Idealize.ShloMosaic.ValueIdx

/-- The matrix product of an `M × K` array and a `K × N` array of extended reals, index by index:
    entry `(r, q)` is `Σ_{k < K} x (r, k) · w (k, q)`. -/
def prod {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

/-- A contraction over ONE axis of size `K`, the left operand's axis 1 against the right operand's axis 0, the
    left's axis 0 and the right's axis 1 kept: the sum over the contraction's index set is the sum over `k < K`
    that `prod` writes. The four hypotheses say which coordinate each operand index takes from where. -/
theorem sum_contr_eq_prod {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (x : (⟨2, ![M, K]⟩ : Shape).Idx → EReal) (w : (⟨2, ![K, N]⟩ : Shape).Idx → EReal) (i : (⟨2, ![M, N]⟩ : Shape).Idx) :
    ∑ k : D.contr.Idx, x (D.lhsIdx i k) * w (D.rhsIdx i k) = prod x w i := by
  unfold prod
  rw [← Equiv.sum_comp (contrEquiv1 D K hr hs).symm]
  refine Finset.sum_congr rfl fun k _ => ?_
  have hk := contrEquiv1_symm_val D K hr hs k
  have el : D.lhsIdx i ((contrEquiv1 D K hr hs).symm k) = ix2 (i 0) k := funext fun a => Fin.ext (by
    match a with
    | ⟨0, _⟩ => exact hl0 _ _
    | ⟨1, _⟩ => exact (hl1 _ _).trans hk)
  have er : D.rhsIdx i ((contrEquiv1 D K hr hs).symm k) = ix2 k (i 1) := funext fun a => Fin.ext (by
    match a with
    | ⟨0, _⟩ => exact (hr0 _ _).trans hk
    | ⟨1, _⟩ => exact hr1 _ _)
  rw [el, er]
  rfl

end Cert.Gcn.Dense

end
-- ==== Proof.GcnForms.lean ====
/-
  The aggregation stage of a graph-convolution layer in the two programs' arrangements, at 40000 nodes, 680000
  edges (the given edges followed by one self-loop per node) and 128 columns.

  With  c r = rsqrt (max (deg r) 1)  the factor of node r — a non-negative real whatever the degree is, since the
  maximum is at least one —, S the source indices (a negative index wrapped), D the target indices as given, and
  D' the target indices with a negative index wrapped, both programs send a node array X and a weight matrix W to
        out[r, k] = c r · Σ_{e lands on r} (X·W)[s e, k] · c (s e).
  * The kernel's program scales X·W by the factor column before the gather, adds the gathered rows into zeros,
    and multiplies the sums by the factor column afterwards.
  * The reference gathers X·W, scales every gathered row by the edge weight c (s e) · c (d' e) and adds. For an
    edge that lands on r the given target index names r, so the wrap leaves it alone, d' e = r, and the factor
    c r comes out of the finite sum because it is a non-negative real.
-/
import proofs.«153731_j5334349382373_2_alg».proof.Proof.LibGcnLayer
import proofs.«153731_j5334349382373_2_alg».proof.Proof.LibMatProd
import proofs.«153731_j5334349382373_2_alg».proof.Proof.LibRowOps
import proofs.«153731_j5334349382373_2_alg».proof.Proof.LibKeepdims
import Idealize.ShloMosaic.PureOps.IdealRules

noncomputable section

namespace Cert.GcnStage

open Idealize.ShloMosaic Idealize.ShloMosaic.ValueIdx Cert.ScatterGather Cert.GraphMean Cert.Gcn Cert.RowOps Cert.Keepdims

theorem nodes_pos : 0 < 40000 := by decide

/-! ## The node factor -/

/-- The inverse root of a positive extended real is a non-negative real. -/
theorem rsqrt_nonneg_ne_top (y : EReal) (h : 0 < y) : 0 ≤ Ideal.rsqrt y ∧ Ideal.rsqrt y ≠ ⊤ := by
  induction y using EReal.rec with
  | bot => exact absurd h (by simp)
  | top => rw [Ideal.rsqrt_top]; exact ⟨le_refl _, EReal.zero_ne_top⟩
  | coe r =>
    have hr : (0 : ℝ) < r := by exact_mod_cast h
    rw [Ideal.rsqrt_coe, if_neg (not_lt.mpr hr.le), if_neg hr.ne']
    exact ⟨by exact_mod_cast inv_nonneg.mpr (Real.sqrt_nonneg _), EReal.coe_ne_top _⟩

/-- The factor vector both programs compute from the degree vector: `rsqrt (max deg 1)`. -/
def factor (hb : (⟨0, ![]⟩ : Shape).BroadcastsInDim ⟨1, ![40000]⟩ ![]) (one : FVec Ideal ⟨0, ![]⟩ .f32)
    (deg : FVec Ideal ⟨1, ![40000]⟩ .f32) : FVec Ideal ⟨1, ![40000]⟩ .f32 :=
  Host.rsqrt (maximumf deg (broadcastInDim ⟨1, ![40000]⟩ ![] hb one))

/-- Every entry of the factor vector is a non-negative real when the clamp is the constant one. -/
theorem factor_nonneg_ne_top (hb : (⟨0, ![]⟩ : Shape).BroadcastsInDim ⟨1, ![40000]⟩ ![])
    (deg : FVec Ideal ⟨1, ![40000]⟩ .f32) (r : Fin 40000) :
    0 ≤ factor hb (constant ⟨0, ![]⟩ .f32 0x3F800000#32) deg (ix1 r)
      ∧ factor hb (constant ⟨0, ![]⟩ .f32 0x3F800000#32) deg (ix1 r) ≠ ⊤ := by
  show 0 ≤ Ideal.rsqrt (max (deg (ix1 r)) (broadcastInDim ⟨1, ![40000]⟩ ![] hb (constant (F := Ideal) ⟨0, ![]⟩ .f32 0x3F800000#32) (ix1 r)))
    ∧ Ideal.rsqrt (max (deg (ix1 r)) (broadcastInDim ⟨1, ![40000]⟩ ![] hb (constant (F := Ideal) ⟨0, ![]⟩ .f32 0x3F800000#32) (ix1 r))) ≠ ⊤
  rw [bcast_scalar_apply]
  refine rsqrt_nonneg_ne_top _ (lt_of_lt_of_le ?_ (le_max_right _ _))
  show (0 : EReal) < Ideal.ofBits .f32 0x3F800000#32
  have h1 : Ideal.ofBits .f32 0x3F800000#32 = 1 := IdealRules.sign_bit.ideal_onePat .f32
  rw [h1]
  exact zero_lt_one

/-! ## A wrapped target index that names a node -/

/-- A target index that names node `r` of 40000 is left alone by the wrap of negative indices
    (`b < 0 ? b + 40000 : b`) and by the clamp into the node range. -/
theorem clampRow_of_wrapped {M : Nat} (D D' : IVec ⟨2, ![M, 1]⟩ 32) (e : Fin M) (r : Fin 40000)
    (hw : D' (ix2 e (0 : Fin 1)) = Scalar.select (IntOp.cmpi .slt (D (ix2 e (0 : Fin 1))) 0#32)
      (IntOp.addi (D (ix2 e (0 : Fin 1))) 40000#32) (D (ix2 e (0 : Fin 1))))
    (hr : (D (ix2 e (0 : Fin 1))).toInt = (r.val : Int)) :
    clampRow 40000 nodes_pos D' e = r := by
  have hlt : r.val < 40000 := r.isLt
  have hns : (D (ix2 e (0 : Fin 1))).slt 0#32 = false := by
    rw [BitVec.slt, hr]; simp
  have hsel : D' (ix2 e (0 : Fin 1)) = D (ix2 e (0 : Fin 1)) := by
    rw [hw]; unfold IntOp.cmpi; rw [hns]; exact select_zero _ _
  refine Fin.ext ?_
  show min (D' (ix2 e (0 : Fin 1))).toInt.toNat (40000 - 1) = r.val
  rw [hsel, hr]
  omega

/-! ## The two arrangements of the aggregation -/

section Stage

/-- The node array the gather reads in the kernel's program: the product scaled by the factor column, narrowed. -/
def scaledProd (X : FVec Ideal ⟨2, ![40000, 128]⟩ .f32) (W : FVec Ideal ⟨2, ![128, 128]⟩ .f32)
    (d2 : FVec Ideal ⟨2, ![40000, 1]⟩ .f32) (hb : FTy.bits .bf16 < FTy.bits .f32) : FVec Ideal ⟨2, ![40000, 128]⟩ .bf16 :=
  truncf .bf16 (mulf (Cert.Gcn.Dense.prod X W : FVec Ideal ⟨2, ![40000, 128]⟩ .f32) (fun i => d2 (ix2 (i 0) (0 : Fin 1)))) hb

/-- THE KERNEL'S ARRANGEMENT at node `r`, column `k`: the sum of the gathered pre-scaled rows, times the node's
    factor, is the layer. -/
theorem aggregate_prescaled
    (gd : GatherDims ⟨2, ![40000, 128]⟩ ⟨2, ![680000, 1]⟩ ⟨2, ![680000, 128]⟩)
  (wfg : GatherDims.WF ⟨2, ![40000, 128]⟩ ⟨2, ![680000, 1]⟩ ⟨2, ![680000, 128]⟩ [1] [0] [] [0] [] 1 ![1, 128])
  (hgd : gd = rowsDims 40000 680000 128 wfg)
  (sd : ScatterDims ⟨2, ![40000, 128]⟩ ⟨2, ![680000, 1]⟩ ⟨2, ![680000, 128]⟩)
  (wfs : ScatterDims.WF ⟨2, ![40000, 128]⟩ ⟨2, ![680000, 1]⟩ ⟨2, ![680000, 128]⟩ [1] [0] [0] 1)
  (hsd : sd = rowsScatter 40000 680000 128 wfs)
    (Z : FVec Ideal ⟨2, ![40000, 128]⟩ .f32) (hZ : Z = fun _ => 0)
    (X : FVec Ideal ⟨2, ![40000, 128]⟩ .f32) (W : FVec Ideal ⟨2, ![128, 128]⟩ .f32)
    (dv : FVec Ideal ⟨1, ![40000]⟩ .f32) (hsc : (⟨1, ![40000]⟩ : Shape).ShapeCasts ⟨2, ![40000, 1]⟩)
    (S D : IVec ⟨2, ![680000, 1]⟩ 32) (hb : FTy.bits .bf16 < FTy.bits .f32) (r : Fin 40000) (k : Fin 128) :
    Host.scatterAdd (F := Ideal) sd Z D
        (extf .f32 (Host.gather gd (scaledProd X W (shapeCast ⟨2, ![40000, 1]⟩ dv hsc) hb) S) hb) (ix2 r k)
        * shapeCast ⟨2, ![40000, 1]⟩ dv hsc (ix2 r (0 : Fin 1))
      = layer nodes_pos (fun r => dv (ix1 r)) S D (fun r k => Cert.Gcn.Dense.prod X W (ix2 r k)) r k := by
  have hcol : ∀ (r : Fin 40000) (k : Fin 128),
      (fun i : (⟨2, ![40000, 128]⟩ : Shape).Idx => shapeCast ⟨2, ![40000, 1]⟩ dv hsc (ix2 (i 0) (0 : Fin 1))) (ix2 r k) = dv (ix1 r) :=
    fun r k => shapeCast_a_a1_apply dv hsc r 0
  have h := layer_of_prescaled nodes_pos gd wfg hgd sd wfs hsd Z hZ
    (Cert.Gcn.Dense.prod X W : FVec Ideal ⟨2, ![40000, 128]⟩ .f32)
    (fun i => shapeCast ⟨2, ![40000, 1]⟩ dv hsc (ix2 (i 0) (0 : Fin 1)))
    (fun i => shapeCast ⟨2, ![40000, 1]⟩ dv hsc (ix2 (i 0) (0 : Fin 1)))
    (fun r => dv (ix1 r)) hcol hcol S D hb r k
  exact (mul_comm _ _).trans h

set_option maxHeartbeats 400000 in
/-- THE REFERENCE'S ARRANGEMENT at node `r`, column `k`: the gathered rows of the product, each scaled by its edge's
    weight, added into zeros along the targets: the layer. -/
theorem aggregate_edge_weights
    (gd : GatherDims ⟨2, ![40000, 128]⟩ ⟨2, ![680000, 1]⟩ ⟨2, ![680000, 128]⟩)
  (wfg : GatherDims.WF ⟨2, ![40000, 128]⟩ ⟨2, ![680000, 1]⟩ ⟨2, ![680000, 128]⟩ [1] [0] [] [0] [] 1 ![1, 128])
  (hgd : gd = rowsDims 40000 680000 128 wfg)
  (sd : ScatterDims ⟨2, ![40000, 128]⟩ ⟨2, ![680000, 1]⟩ ⟨2, ![680000, 128]⟩)
  (wfs : ScatterDims.WF ⟨2, ![40000, 128]⟩ ⟨2, ![680000, 1]⟩ ⟨2, ![680000, 128]⟩ [1] [0] [0] 1)
  (hsd : sd = rowsScatter 40000 680000 128 wfs)
    (gv : GatherDims ⟨1, ![40000]⟩ ⟨2, ![680000, 1]⟩ ⟨1, ![680000]⟩)
    (wfv : GatherDims.WF ⟨1, ![40000]⟩ ⟨2, ![680000, 1]⟩ ⟨1, ![680000]⟩ [] [0] [] [0] [] 1 ![1]) (hgv : gv = flatDims 40000 680000 wfv)
    (Z : FVec Ideal ⟨2, ![40000, 128]⟩ .f32) (hZ : Z = fun _ => 0)
    (XW : FVec Ideal ⟨2, ![40000, 128]⟩ .f32) (dv : FVec Ideal ⟨1, ![40000]⟩ .f32)
    (hc : ∀ r : Fin 40000, 0 ≤ dv (ix1 r) ∧ dv (ix1 r) ≠ ⊤)
    (col : IVec ⟨1, ![680000]⟩ 32) (zero big : IVec ⟨1, ![680000]⟩ 32) (hzero : ∀ i, zero i = 0#32) (hbig : ∀ i, big i = 40000#32)
    (S : IVec ⟨2, ![680000, 1]⟩ 32)
    (h0 : (⟨1, ![680000]⟩ : Shape).BroadcastsInDim ⟨2, ![680000, 1]⟩ ![0])
    (h01 : (⟨2, ![680000, 1]⟩ : Shape).BroadcastsInDim ⟨2, ![680000, 128]⟩ ![0, 1])
    (r : Fin 40000) (k : Fin 128) :
    Host.scatterAdd (F := Ideal) sd Z (broadcastInDim ⟨2, ![680000, 1]⟩ ![0] h0 col)
        (mulf (Host.gather gd XW S)
          (broadcastInDim ⟨2, ![680000, 128]⟩ ![0, 1] h01 (broadcastInDim ⟨2, ![680000, 1]⟩ ![0] h0
            (mulf (Host.gather gv dv S)
              (Host.gather gv dv (broadcastInDim ⟨2, ![680000, 1]⟩ ![0] h0 (select (cmpi .slt col zero) (addi col big) col))))))) (ix2 r k)
      = layer nodes_pos (fun r => dv (ix1 r)) S (broadcastInDim ⟨2, ![680000, 1]⟩ ![0] h0 col) (fun r k => XW (ix2 r k)) r k := by
  have hD' : ∀ (e : Fin 680000) (r' : Fin 40000),
      (broadcastInDim ⟨2, ![680000, 1]⟩ ![0] h0 col (ix2 e (0 : Fin 1))).toInt = (r'.val : Int) →
      clampRow 40000 nodes_pos (broadcastInDim ⟨2, ![680000, 1]⟩ ![0] h0 (select (cmpi .slt col zero) (addi col big) col)) e = r' := by
    intro e r' hr'
    refine clampRow_of_wrapped _ _ e r' ?_ hr'
    rw [bcast_a_a1_apply, bcast_a_a1_apply]
    show Scalar.select (IntOp.cmpi .slt (col (ix1 e)) (zero (ix1 e))) (IntOp.addi (col (ix1 e)) (big (ix1 e))) (col (ix1 e)) = _
    rw [hzero, hbig]
  have h := layer_of_edge_weights (N := 40000) (M := 680000) (C := 128) (w := 32) nodes_pos gd wfg hgd sd wfs hsd gv wfv hgv Z hZ XW dv
    (fun r => dv (ix1 r)) (fun _ => rfl) hc S (broadcastInDim ⟨2, ![680000, 1]⟩ ![0] h0 col)
    (broadcastInDim ⟨2, ![680000, 1]⟩ ![0] h0 (select (cmpi .slt col zero) (addi col big) col)) hD'
  refine h _ (fun e k' => ?_) r k
  rw [bcast_a1_ab_apply, bcast_a_a1_apply]

end Stage

end Cert.GcnStage

end
-- ==== Proof.KForms.lean ====
/-
  What each of the kernel's normalise-and-clip regions and its final linear region leaves in its output array, as
  ONE function of the arrays the region reads, index by index.

  * A normalise-and-clip region over 40000 rows in blocks of 4000: row r of the output is the row function of
    row r of the aggregated array times node r's factor plus the bias; the block a row falls in does not matter.
  * The final region is one block: the pooled array times the weight matrix, plus the bias row.
-/
import proofs.«153731_j5334349382373_2_alg».proof.Proof.LibLnReluStage
import proofs.«153731_j5334349382373_2_alg».proof.Proof.GcnForms

noncomputable section

namespace Cert.KStage

open Idealize.ShloMosaic Idealize.ShloMosaic.ValueIdx

/-- The normalise-and-clip region's output array. -/
def lnArray (A : FVec Ideal ⟨2, ![40000, 128]⟩ .f32) (d2 : FVec Ideal ⟨2, ![40000, 1]⟩ .f32)
    (b g e : FVec Ideal ⟨2, ![1, 128]⟩ .f32) : FVec Ideal ⟨2, ![40000, 128]⟩ .f32 :=
  fun i => LnStage.lnRelu (fun k => A (ix2 (i 0) k) * d2 (ix2 (i 0) (0 : Fin 1)) + b (ix2 (0 : Fin 1) k))
    (fun k => g (ix2 (0 : Fin 1) k)) (fun k => e (ix2 (0 : Fin 1) k)) (i 1)

/-- The final region's output array. -/
def linear (Pl : FVec Ideal ⟨2, ![64, 128]⟩ .f32) (Wl : FVec Ideal ⟨2, ![128, 10]⟩ .f32)
    (bl2 : FVec Ideal ⟨2, ![1, 10]⟩ .f32) : FVec Ideal ⟨2, ![64, 10]⟩ .f32 :=
  fun i => (∑ k : Fin 128, Pl (ix2 (i 0) k) * Wl (ix2 k (i 1))) + bl2 (ix2 (0 : Fin 1) (i 1))

end Cert.KStage

end
-- ==== Proof.KNet.lean ====
/-
  The kernel program's result as a composition of named whole-array stages.

  From the edge list: the source and target index vectors, the degree vector, the factor vector
  rsqrt (max deg 1) and the same as a column. A layer sends a node array X with weights W, bias b, gain g, offset e
  to: (X·W scaled by the factor column, narrowed) gathered along the wrapped sources, widened, added into zeros
  along the targets; then the normalise-and-clip array of that aggregate, the factor column and the three rows.
  The tail pools the node array by graph (sum along the graph index divided by max (count, 1)) and applies the
  final linear map.
-/
import proofs.«153731_j5334349382373_2_alg».proof.Proof.Gen.KernelIdeal
import proofs.«153731_j5334349382373_2_alg».proof.Proof.KForms

noncomputable section

namespace Cert.KernelIdeal.KNet

open Cert.KernelIdeal Cert.KernelIdeal.Gen
open Idealize.ShloMosaic Idealize.ShloMosaic.TcCoe Idealize.ShloMosaic.ValueIdx

/-- Sources: row 0 of the edge list, then the nodes themselves. -/
def rowIdx (x1 : IVec S2x640000 32) : IVec S680000 32 :=
  concatenate S680000 0 [⟨S640000, shapeCast _ (extractStridedSlice S1x640000 ![0, 0] x1 slices_S2x640000_S1x640000_0_0) shapeCasts_S1x640000_S640000⟩,
    ⟨S40000, iotaInDim S40000 32 0⟩] concatenates_S640000_S40000_S680000_d0

/-- Targets: row 1 of the edge list, then the nodes themselves. -/
def colIdx (x1 : IVec S2x640000 32) : IVec S680000 32 :=
  concatenate S680000 0 [⟨S640000, shapeCast _ (extractStridedSlice S1x640000 ![1, 0] x1 slices_S2x640000_S1x640000_1_0) shapeCasts_S1x640000_S640000⟩,
    ⟨S40000, iotaInDim S40000 32 0⟩] concatenates_S640000_S40000_S680000_d0

/-- The degree vector: ones added along the targets. -/
def degv (x1 : IVec S2x640000 32) : FVec Ideal S40000 .f32 :=
  Host.scatterAdd scatter_S40000_S680000x1_S680000_n_0_0_1 (broadcastInDim S40000 ![] bcast_S_S40000 (constant S_ .f32 0x00000000#32))
    (broadcastInDim S680000x1 ![0] bcast_S680000_S680000x1_0 (colIdx x1))
    (broadcastInDim S680000 ![] bcast_S_S680000 (constant S_ .f32 0x3F800000#32))

/-- The factor vector. -/
def dinv (x1 : IVec S2x640000 32) : FVec Ideal S40000 .f32 :=
  Host.rsqrt (maximumf (degv x1) (broadcastInDim S40000 ![] bcast_S_S40000 (constant S_ .f32 0x3F800000#32)))

/-- The factor as a column. -/
def dinv2 (x1 : IVec S2x640000 32) : FVec Ideal S40000x1 .f32 :=
  shapeCast S40000x1 (dinv x1) shapeCasts_S40000_S40000x1

/-- An index vector with its negative entries wrapped by the node count, as a column. -/
def wrapped (v : IVec S680000 32) : IVec S680000x1 32 :=
  broadcastInDim S680000x1 ![0] bcast_S680000_S680000x1_0
    (select (cmpi .slt v (broadcastInDim S680000 ![] bcast_S_S680000 (constantI S_ 32 0#32)))
      (addi v (broadcastInDim S680000 ![] bcast_S_S680000 (constantI S_ 32 40000#32))) v)

/-- The aggregate of a narrowed node array: its rows gathered along the wrapped sources, widened, added into zeros
    along the targets. -/
def aggOf (row col : IVec S680000 32) (H : FVec Ideal S40000x128 .bf16) : FVec Ideal S40000x128 .f32 :=
  Host.scatterAdd scatter_S40000x128_S680000x1_S680000x128_1_0_0_1
    (broadcastInDim S40000x128 ![] bcast_S_S40000x128 (constant S_ .f32 0x00000000#32))
    (broadcastInDim S680000x1 ![0] bcast_S680000_S680000x1_0 col)
    (extf .f32 (Host.gather gather_S40000x128_S680000x1_S680000x128_1_0_n_n_0_1_1128 H (wrapped row)) bitsLt_bf16_f32)

/-- One layer. -/
def layer (x1 : IVec S2x640000 32) (X : FVec Ideal S40000x128 .f32) (W : FVec Ideal S128x128 .f32) (b g e : FVec Ideal S128 .f32) :
    FVec Ideal S40000x128 .f32 :=
  KStage.lnArray (aggOf (rowIdx x1) (colIdx x1) (GcnStage.scaledProd X W (dinv2 x1) bitsLt_bf16_f32)) (dinv2 x1)
    (shapeCast S1x128 b shapeCasts_S128_S1x128) (shapeCast S1x128 g shapeCasts_S128_S1x128) (shapeCast S1x128 e shapeCasts_S128_S1x128)

/-- The pooled node array: sums along the graph index over max (count, 1). -/
def pooled (x2 : IVec S40000 32) (H : FVec Ideal S40000x128 .f32) : FVec Ideal S64x128 .f32 :=
  Host.divf (Host.scatterAdd scatter_S64x128_S40000x1_S40000x128_1_0_0_1
      (broadcastInDim S64x128 ![] bcast_S_S64x128 (constant S_ .f32 0x00000000#32))
      (broadcastInDim S40000x1 ![0] bcast_S40000_S40000x1_0 x2) H)
    (broadcastInDim S64x128 ![0, 1] bcast_S64x1_S64x128_0_1 (broadcastInDim S64x1 ![0] bcast_S64_S64x1_0
      (maximumf (Host.scatterAdd scatter_S64_S40000x1_S40000_n_0_0_1
          (broadcastInDim S64 ![] bcast_S_S64 (constant S_ .f32 0x00000000#32))
          (broadcastInDim S40000x1 ![0] bcast_S40000_S40000x1_0 x2)
          (broadcastInDim S40000 ![] bcast_S_S40000 (constant S_ .f32 0x3F800000#32)))
        (broadcastInDim S64 ![] bcast_S_S64 (constant S_ .f32 0x3F800000#32)))))

/-- The whole network. -/
def net (x0 : FVec Ideal S40000x128 .f32) (x1 : IVec S2x640000 32) (x2 : IVec S40000 32)
    (x3 : FVec Ideal S128x128 .f32) (x4 : FVec Ideal S128 .f32) (x5 : FVec Ideal S128x128 .f32)
    (x6 x7 x8 x9 x10 : FVec Ideal S128 .f32) (x11 : FVec Ideal S128x10 .f32) (x12 : FVec Ideal S10 .f32) : FVec Ideal S64x10 .f32 :=
  KStage.linear (pooled x2 (layer x1 (layer x1 x0 x3 x4 x7 x8) x5 x6 x9 x10)) x11 (shapeCast S1x10 x12 shapeCasts_S10_S1x10)

end Cert.KernelIdeal.KNet

end
-- ==== Proof.Reg0.lean ====
/-
  Region 0 of the kernel's program (a matmul fused with the per-row pre-scale), read as a value: after the region
  its output array is the product of the node array and the weight matrix, every row scaled by the node's factor,
  narrowed — one function of the three arrays the region reads.

  The grid has ten points; point t reads rows 4000·t … 4000·t + 3999 of the node array and of the factor column and
  the whole weight matrix, and writes the same rows of the output. A row of the product depends only on the same
  row of the node array, so what point t writes back is rows 4000·t … of the whole-array function, and the ten
  blocks cover the output.
-/
import proofs.«153731_j5334349382373_2_alg».proof.Proof.Gen.KernelIdeal.Frame
import proofs.«153731_j5334349382373_2_alg».proof.Proof.KForms

set_option maxRecDepth 16384

noncomputable section

namespace Cert.KernelIdeal.Reg0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Keepdims Cert.RowOps

variable (V : (c : Dev nD) → (b : Ref sig .tc) → Buf (Elt Ideal) ((c : Thread nD τ).loc b))

/-- The zero offset of every rectangle the body loads and stores through. -/
theorem hz : (![0, 0] : Fin 2 → Nat) = fun _ => 0 := funext fun a => by fin_cases a <;> rfl

/-- The body's stored value at row `p`, column `q` of a block: the row of the first operand against the column of
    the second, times the row's entry of the factor column. -/
theorem pay_apply (x0 : Vec Ideal S4000x128 .f32) (x1 : Vec Ideal S128x128 .f32) (x2 : Vec Ideal S4000x1 .f32)
    (p : Fin 4000) (q : Fin 128) :
    k0_pay1 x0 x1 x2 (ix2 p q) = (∑ j : Fin 128, x0 (ix2 p j) * x1 (ix2 j q)) * x2 (ix2 p (0 : Fin 1)) := by
  unfold k0_pay1
  show FloatOps.matmul (F := Ideal) (DotDims.plain 4000 128 128) none (truncf .bf16 x0 bitsLt_bf16_f32) (truncf .bf16 x1 bitsLt_bf16_f32)
        (constant (F := Ideal) ⟨2, ![4000, 128]⟩ .f32 0x00000000#32) (ix2 p q)
      * broadcastTo ⟨2, ![4000, 128]⟩ (shapeCast ⟨2, ![4000, 1]⟩ x2 shapeCasts_S4000x1_S4000x1) broadcasts_S4000x1_S4000x128 (ix2 p q) = _
  rw [matmul_plain_apply, broadcastTo_a1_ab_apply, shapeCast_self]
  rfl

/-- The same at a block index `j` whose data are the whole arrays' at the array index `i`. -/
theorem point (X : FVec Ideal ⟨2, ![40000, 128]⟩ .f32) (W : FVec Ideal ⟨2, ![128, 128]⟩ .f32) (d2 : FVec Ideal ⟨2, ![40000, 1]⟩ .f32)
    (x0 : Vec Ideal S4000x128 .f32) (x1 : Vec Ideal S128x128 .f32) (x2 : Vec Ideal S4000x1 .f32)
    (p : Fin 4000) (q : Fin 128) (r : Fin 40000)
    (h0 : ∀ k : Fin 128, x0 (ix2 p k) = X (ix2 r k)) (h1 : ∀ (a : Fin 128) (b : Fin 128), x1 (ix2 a b) = W (ix2 a b))
    (h2 : x2 (ix2 p (0 : Fin 1)) = d2 (ix2 r (0 : Fin 1))) :
    k0_pay1 x0 x1 x2 (ix2 p q) = GcnStage.scaledProd X W d2 bitsLt_bf16_f32 (ix2 r q) := by
  rw [pay_apply, h2]
  show _ = (∑ j : Fin 128, X (ix2 r j) * W (ix2 j q)) * d2 (ix2 r (0 : Fin 1))
  exact congrArg (· * _) (Finset.sum_congr rfl fun j _ => by rw [h0, h1])

/-- The printed index maps, decided over the grid: the node array's and the factor column's blocks move with the
    output's along the rows, the weight matrix's block stays, and nothing moves along the columns. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (0 : Fin 2) ≤ 9 ∧ win0_3.index t (1 : Fin 2) = 0 :=
  (by decide +kernel : ∀ t : Fin grid0.N, _)

/-- Every block of rows is some point's. -/
theorem idx_onto : ∀ q0 : Fin 10, ∃ t : Fin cfg0.N, win0_3.index t = ![q0.val, 0] :=
  (by decide +kernel : ∀ q0 : Fin 10, ∃ t : Fin grid0.N, win0_3.index t = ![q0.val, 0])

/-- What point `t` writes back is block `t` of the whole-array function of the arrays as the region finds them. -/
theorem flushed_eq (c : Dev nD) (t : Fin cfg0.N) :
    (dat0 V c).flushed 3 t = ((cfg0.win 3).blk t).view.read (Elt Ideal)
      (GcnStage.scaledProd (V c main_arg0) (V c main_arg3) (V c main_v14) bitsLt_bf16_f32) := by
  show (cfg0.win 3).cut (grid0.coords t) ((dat0 V c).after 3 t) = _
  rw [after0_3]
  unfold out0_3
  rw [View.canon_unit_zero hz]
  simp only [View.ld_unit_zero (S := S4000x128) hz, View.ld_unit_zero (S := S128x128) hz, View.ld_unit_zero (S := S4000x1) hz]
  obtain ⟨e0, e1, e2, e3, e4, e5, e6, e7⟩ := idx_facts t
  funext j
  obtain ⟨p, q, rfl⟩ : ∃ (p : Fin 4000) (q : Fin 128), j = ix2 p q := ⟨j 0, j 1, eq_ix2 j⟩
  have hp : p.val < 4000 := p.isLt
  have hr : win0_3.index t (0 : Fin 2) * 4000 + 1 * p.val < 40000 := by omega
  have hout : ((cfg0.win 3).blk t).view.emb (ix2 p q) = ix2 (⟨win0_3.index t (0 : Fin 2) * 4000 + 1 * p.val, hr⟩ : Fin 40000) q := by
    funext a; apply Fin.ext
    match a with
    | ⟨0, _⟩ => rfl
    | ⟨1, _⟩ => show win0_3.index t (1 : Fin 2) * 128 + 1 * q.val = q.val; omega
  show k0_pay1 (iblk0 V c 0 t) (iblk0 V c 1 t) (iblk0 V c 2 t) (ix2 p q)
    = GcnStage.scaledProd (V c main_arg0) (V c main_arg3) (V c main_v14) bitsLt_bf16_f32 (((cfg0.win 3).blk t).view.emb (ix2 p q))
  rw [hout]
  refine point (V c main_arg0) (V c main_arg3) (V c main_v14) _ _ _ p q _ (fun k => ?_) (fun a b => ?_) ?_
  · show V c main_arg0 (((cfg0.win 0).blk t).view.emb (ix2 p k)) = _
    refine congrArg _ (funext fun ax => Fin.ext ?_)
    match ax with
    | ⟨0, _⟩ => show win0_0.index t (0 : Fin 2) * 4000 + 1 * p.val = win0_3.index t (0 : Fin 2) * 4000 + 1 * p.val; omega
    | ⟨1, _⟩ => show win0_0.index t (1 : Fin 2) * 128 + 1 * k.val = k.val; omega
  · show V c main_arg3 (((cfg0.win 1).blk t).view.emb (ix2 a b)) = _
    refine congrArg _ (funext fun ax => Fin.ext ?_)
    match ax with
    | ⟨0, _⟩ => show win0_1.index t (0 : Fin 2) * 128 + 1 * a.val = a.val; omega
    | ⟨1, _⟩ => show win0_1.index t (1 : Fin 2) * 128 + 1 * b.val = b.val; omega
  · show V c main_v14 (((cfg0.win 2).blk t).view.emb (ix2 p (0 : Fin 1))) = _
    refine congrArg _ (funext fun ax => Fin.ext ?_)
    match ax with
    | ⟨0, _⟩ => show win0_2.index t (0 : Fin 2) * 4000 + 1 * p.val = win0_3.index t (0 : Fin 2) * 4000 + 1 * p.val; omega
    | ⟨1, _⟩ => show win0_2.index t (1 : Fin 2) * 1 + 1 * 0 = 0; omega

/-- An index of the output array is in point `t`'s block iff each coordinate is in the block's range on its axis. -/
theorem mem_blk (t : Fin cfg0.N) (i : S40000x128.Idx) :
    i ∈ ((cfg0.win 3).blk t).view.set ↔ ∀ a : Fin 2, win0_3.index t a * S4000x128.size a ≤ (i a).val
      ∧ (i a).val < win0_3.index t a * S4000x128.size a + S4000x128.size a := by
  show i ∈ ((View.whole main_v15).slice (win0_3.rect t)).set ↔ _
  rw [View.set_slice_whole, Rect.mem_set_unit]
  exact Iff.rfl

/-- Every index of the output array is in the block of the point that owns its row. -/
theorem cover (i : S40000x128.Idx) : ∃ t : Fin cfg0.N, (cfg0.win 3).flush t = true ∧ i ∈ ((cfg0.win 3).blk t).view.set := by
  have hi0 : (i 0).val < 40000 := (i 0).isLt
  have hi1 : (i 1).val < 128 := (i 1).isLt
  obtain ⟨t, ht⟩ := idx_onto ⟨(i 0).val / 4000, by omega⟩
  have q0 : win0_3.index t (0 : Fin 2) = (i 0).val / 4000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 4000 ≤ (i 0).val ∧ (i 0).val < win0_3.index t (0 : Fin 2) * 4000 + 4000; omega
  | ⟨1, _⟩ => show win0_3.index t (1 : Fin 2) * 128 ≤ (i 1).val ∧ (i 1).val < win0_3.index t (1 : Fin 2) * 128 + 128; omega

/-- THE OUTPUT ARRAY after the region. -/
theorem final (c : Dev nD) :
    (dat0 V c).arrAt 3 cfg0.N = GcnStage.scaledProd (V c main_arg0) (V c main_arg3) (V c main_v14) bitsLt_bf16_f32 :=
  (dat0 V c).arrAt_eq_of_cover 3 _ (fun t _ => flushed_eq V c t) cover

end Cert.KernelIdeal.Reg0

end
-- ==== Proof.Reg1.lean ====
/-
  Region 1 of the kernel's program (post-scale, bias, LayerNorm, ReLU), read as a value: after the region row r of
  its output array is the normalise-and-clip row function of  agg[r, ·] · d[r] + b  with gain and offset rows —
  one function of the five arrays the region reads.

  The grid has ten points; point t reads rows 4000·t … 4000·t + 3999 of the aggregated array and of the factor
  column and the three one-row arrays whole, and writes the same rows of the output. The body works row by row
  (a lane reduction per row), so what point t writes back is rows 4000·t … of the whole-array function, and the
  ten blocks cover the output.
-/
import proofs.«153731_j5334349382373_2_alg».proof.Proof.Gen.KernelIdeal.Frame
import proofs.«153731_j5334349382373_2_alg».proof.Proof.KForms

set_option maxRecDepth 16384

noncomputable section

namespace Cert.KernelIdeal.Reg1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Keepdims Cert.RowOps

variable (V : (c : Dev nD) → (b : Ref sig .tc) → Buf (Elt Ideal) ((c : Thread nD τ).loc b))

/-- The zero offset of every rectangle the body loads and stores through. -/
theorem hz : (![0, 0] : Fin 2 → Nat) = fun _ => 0 := funext fun a => by fin_cases a <;> rfl

/-- The body's stored value is the block form of the stage. -/
theorem pay_eq (x0 : Vec Ideal S4000x128 .f32) (x1 : Vec Ideal S4000x1 .f32) (x2 x3 x4 : Vec Ideal S1x128 .f32) :
    k1_pay1 x0 x1 x2 x3 x4 = LnStage.stageK reduces_S4000x128_S4000 shapeCasts_S4000_S4000x1 broadcasts_S4000x1_S4000x128
      broadcasts_S1x128_S4000x128 shapeCasts_S4000x128_S4000x128 shapeCasts_S4000x1_S4000x1 shapeCasts_S1x128_S1x128 x0 x1 x2 x3 x4 := rfl

/-- The stored value at a block index `(p, q)` whose data are the whole arrays' at row `r`. -/
theorem point (A : FVec Ideal ⟨2, ![40000, 128]⟩ .f32) (d2 : FVec Ideal ⟨2, ![40000, 1]⟩ .f32) (b g e : FVec Ideal ⟨2, ![1, 128]⟩ .f32)
    (x0 : Vec Ideal S4000x128 .f32) (x1 : Vec Ideal S4000x1 .f32) (x2 x3 x4 : Vec Ideal S1x128 .f32)
    (p : Fin 4000) (q : Fin 128) (r : Fin 40000)
    (h0 : ∀ k : Fin 128, x0 (ix2 p k) = A (ix2 r k)) (h1 : x1 (ix2 p (0 : Fin 1)) = d2 (ix2 r (0 : Fin 1)))
    (h2 : ∀ k : Fin 128, x2 (ix2 (0 : Fin 1) k) = b (ix2 (0 : Fin 1) k))
    (h3 : ∀ k : Fin 128, x3 (ix2 (0 : Fin 1) k) = g (ix2 (0 : Fin 1) k))
    (h4 : ∀ k : Fin 128, x4 (ix2 (0 : Fin 1) k) = e (ix2 (0 : Fin 1) k)) :
    k1_pay1 x0 x1 x2 x3 x4 (ix2 p q) = KStage.lnArray A d2 b g e (ix2 r q) := by
  rw [pay_eq, LnStage.stageK_apply]
  show _ = LnStage.lnRelu (fun k => A (ix2 r k) * d2 (ix2 r (0 : Fin 1)) + b (ix2 (0 : Fin 1) k))
    (fun k => g (ix2 (0 : Fin 1) k)) (fun k => e (ix2 (0 : Fin 1) k)) q
  simp only [h0, h1, h2, h3, h4]

/-- The printed index maps, decided over the grid: the aggregated array's and the factor column's blocks move with
    the output's along the rows, the one-row arrays' blocks stay, and nothing moves along the columns. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 9 ∧ win1_5.index t (1 : Fin 2) = 0 :=
  (by decide +kernel : ∀ t : Fin grid1.N, _)

/-- Every block of rows is some point's. -/
theorem idx_onto : ∀ q0 : Fin 10, ∃ t : Fin cfg1.N, win1_5.index t = ![q0.val, 0] :=
  (by decide +kernel : ∀ q0 : Fin 10, ∃ t : Fin grid1.N, win1_5.index t = ![q0.val, 0])

/-- What point `t` writes back is block `t` of the whole-array function of the arrays as the region finds them. -/
theorem flushed_eq (c : Dev nD) (t : Fin cfg1.N) :
    (dat1 V c).flushed 5 t = ((cfg1.win 5).blk t).view.read (Elt Ideal)
      (KStage.lnArray (V c main_v26) (V c main_v14) (V c main_v27) (V c main_v28) (V c main_v29)) := by
  show (cfg1.win 5).cut (grid1.coords t) ((dat1 V c).after 5 t) = _
  rw [after1_5]
  unfold out1_5
  rw [View.canon_unit_zero hz]
  simp only [View.ld_unit_zero (S := S4000x128) hz, View.ld_unit_zero (S := S4000x1) hz, View.ld_unit_zero (S := S1x128) hz]
  obtain ⟨e0, e1, e2, e3, e4, e5, e6, e7, e8, e9, e10, e11⟩ := idx_facts t
  funext j
  obtain ⟨p, q, rfl⟩ : ∃ (p : Fin 4000) (q : Fin 128), j = ix2 p q := ⟨j 0, j 1, eq_ix2 j⟩
  have hp : p.val < 4000 := p.isLt
  have hr : win1_5.index t (0 : Fin 2) * 4000 + 1 * p.val < 40000 := by omega
  have hout : ((cfg1.win 5).blk t).view.emb (ix2 p q) = ix2 (⟨win1_5.index t (0 : Fin 2) * 4000 + 1 * p.val, hr⟩ : Fin 40000) q := by
    funext a; apply Fin.ext
    match a with
    | ⟨0, _⟩ => rfl
    | ⟨1, _⟩ => show win1_5.index t (1 : Fin 2) * 128 + 1 * q.val = q.val; omega
  show k1_pay1 (iblk1 V c 0 t) (iblk1 V c 1 t) (iblk1 V c 2 t) (iblk1 V c 3 t) (iblk1 V c 4 t) (ix2 p q)
    = KStage.lnArray (V c main_v26) (V c main_v14) (V c main_v27) (V c main_v28) (V c main_v29) (((cfg1.win 5).blk t).view.emb (ix2 p q))
  rw [hout]
  refine point (V c main_v26) (V c main_v14) (V c main_v27) (V c main_v28) (V c main_v29) _ _ _ _ _ p q _ (fun k => ?_) ?_ (fun k => ?_) (fun k => ?_) (fun k => ?_)
  · show V c main_v26 (((cfg1.win 0).blk t).view.emb (ix2 p k)) = _
    refine congrArg _ (funext fun ax => Fin.ext ?_)
    match ax with
    | ⟨0, _⟩ => show win1_0.index t (0 : Fin 2) * 4000 + 1 * p.val = win1_5.index t (0 : Fin 2) * 4000 + 1 * p.val; omega
    | ⟨1, _⟩ => show win1_0.index t (1 : Fin 2) * 128 + 1 * k.val = k.val; omega
  · show V c main_v14 (((cfg1.win 1).blk t).view.emb (ix2 p (0 : Fin 1))) = _
    refine congrArg _ (funext fun ax => Fin.ext ?_)
    match ax with
    | ⟨0, _⟩ => show win1_1.index t (0 : Fin 2) * 4000 + 1 * p.val = win1_5.index t (0 : Fin 2) * 4000 + 1 * p.val; omega
    | ⟨1, _⟩ => show win1_1.index t (1 : Fin 2) * 1 + 1 * 0 = 0; omega
  · show V c main_v27 (((cfg1.win 2).blk t).view.emb (ix2 (0 : Fin 1) k)) = _
    refine congrArg _ (funext fun ax => Fin.ext ?_)
    match ax with
    | ⟨0, _⟩ => show win1_2.index t (0 : Fin 2) * 1 + 1 * 0 = 0; omega
    | ⟨1, _⟩ => show win1_2.index t (1 : Fin 2) * 128 + 1 * k.val = k.val; omega
  · show V c main_v28 (((cfg1.win 3).blk t).view.emb (ix2 (0 : Fin 1) k)) = _
    refine congrArg _ (funext fun ax => Fin.ext ?_)
    match ax with
    | ⟨0, _⟩ => show win1_3.index t (0 : Fin 2) * 1 + 1 * 0 = 0; omega
    | ⟨1, _⟩ => show win1_3.index t (1 : Fin 2) * 128 + 1 * k.val = k.val; omega
  · show V c main_v29 (((cfg1.win 4).blk t).view.emb (ix2 (0 : Fin 1) k)) = _
    refine congrArg _ (funext fun ax => Fin.ext ?_)
    match ax with
    | ⟨0, _⟩ => show win1_4.index t (0 : Fin 2) * 1 + 1 * 0 = 0; omega
    | ⟨1, _⟩ => show win1_4.index t (1 : Fin 2) * 128 + 1 * k.val = k.val; omega

/-- An index of the output array is in point `t`'s block iff each coordinate is in the block's range on its axis. -/
theorem mem_blk (t : Fin cfg1.N) (i : S40000x128.Idx) :
    i ∈ ((cfg1.win 5).blk t).view.set ↔ ∀ a : Fin 2, win1_5.index t a * S4000x128.size a ≤ (i a).val
      ∧ (i a).val < win1_5.index t a * S4000x128.size a + S4000x128.size a := by
  show i ∈ ((View.whole main_v30).slice (win1_5.rect t)).set ↔ _
  rw [View.set_slice_whole, Rect.mem_set_unit]
  exact Iff.rfl

/-- Every index of the output array is in the block of the point that owns its row. -/
theorem cover (i : S40000x128.Idx) : ∃ t : Fin cfg1.N, (cfg1.win 5).flush t = true ∧ i ∈ ((cfg1.win 5).blk t).view.set := by
  have hi0 : (i 0).val < 40000 := (i 0).isLt
  have hi1 : (i 1).val < 128 := (i 1).isLt
  obtain ⟨t, ht⟩ := idx_onto ⟨(i 0).val / 4000, by omega⟩
  have q0 : win1_5.index t (0 : Fin 2) = (i 0).val / 4000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 4000 ≤ (i 0).val ∧ (i 0).val < win1_5.index t (0 : Fin 2) * 4000 + 4000; omega
  | ⟨1, _⟩ => show win1_5.index t (1 : Fin 2) * 128 ≤ (i 1).val ∧ (i 1).val < win1_5.index t (1 : Fin 2) * 128 + 128; omega

/-- THE OUTPUT ARRAY after the region. -/
theorem final (c : Dev nD) :
    (dat1 V c).arrAt 5 cfg1.N = KStage.lnArray (V c main_v26) (V c main_v14) (V c main_v27) (V c main_v28) (V c main_v29) :=
  (dat1 V c).arrAt_eq_of_cover 5 _ (fun t _ => flushed_eq V c t) cover

end Cert.KernelIdeal.Reg1

end
-- ==== Proof.Reg2.lean ====
/-
  Region 2 of the kernel's program (a matmul fused with the per-row pre-scale), read as a value: after the region
  its output array is the product of the node array and the weight matrix, every row scaled by the node's factor,
  narrowed — one function of the three arrays the region reads.

  The grid has ten points; point t reads rows 4000·t … 4000·t + 3999 of the node array and of the factor column and
  the whole weight matrix, and writes the same rows of the output. A row of the product depends only on the same
  row of the node array, so what point t writes back is rows 4000·t … of the whole-array function, and the ten
  blocks cover the output.
-/
import proofs.«153731_j5334349382373_2_alg».proof.Proof.Gen.KernelIdeal.Frame
import proofs.«153731_j5334349382373_2_alg».proof.Proof.KForms

set_option maxRecDepth 16384

noncomputable section

namespace Cert.KernelIdeal.Reg2

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Keepdims Cert.RowOps

variable (V : (c : Dev nD) → (b : Ref sig .tc) → Buf (Elt Ideal) ((c : Thread nD τ).loc b))

/-- The zero offset of every rectangle the body loads and stores through. -/
theorem hz : (![0, 0] : Fin 2 → Nat) = fun _ => 0 := funext fun a => by fin_cases a <;> rfl

/-- The body's stored value at row `p`, column `q` of a block: the row of the first operand against the column of
    the second, times the row's entry of the factor column. -/
theorem pay_apply (x0 : Vec Ideal S4000x128 .f32) (x1 : Vec Ideal S128x128 .f32) (x2 : Vec Ideal S4000x1 .f32)
    (p : Fin 4000) (q : Fin 128) :
    k2_pay1 x0 x1 x2 (ix2 p q) = (∑ j : Fin 128, x0 (ix2 p j) * x1 (ix2 j q)) * x2 (ix2 p (0 : Fin 1)) := by
  unfold k2_pay1
  rw [shapeCast_self x0]
  show FloatOps.matmul (F := Ideal) (DotDims.plain 4000 128 128) none (truncf .bf16 x0 bitsLt_bf16_f32) (truncf .bf16 x1 bitsLt_bf16_f32)
        (constant (F := Ideal) ⟨2, ![4000, 128]⟩ .f32 0x00000000#32) (ix2 p q)
      * broadcastTo ⟨2, ![4000, 128]⟩ (shapeCast ⟨2, ![4000, 1]⟩ x2 shapeCasts_S4000x1_S4000x1) broadcasts_S4000x1_S4000x128 (ix2 p q) = _
  rw [matmul_plain_apply, broadcastTo_a1_ab_apply, shapeCast_self]
  rfl

/-- The same at a block index `j` whose data are the whole arrays' at the array index `i`. -/
theorem point (X : FVec Ideal ⟨2, ![40000, 128]⟩ .f32) (W : FVec Ideal ⟨2, ![128, 128]⟩ .f32) (d2 : FVec Ideal ⟨2, ![40000, 1]⟩ .f32)
    (x0 : Vec Ideal S4000x128 .f32) (x1 : Vec Ideal S128x128 .f32) (x2 : Vec Ideal S4000x1 .f32)
    (p : Fin 4000) (q : Fin 128) (r : Fin 40000)
    (h0 : ∀ k : Fin 128, x0 (ix2 p k) = X (ix2 r k)) (h1 : ∀ (a : Fin 128) (b : Fin 128), x1 (ix2 a b) = W (ix2 a b))
    (h2 : x2 (ix2 p (0 : Fin 1)) = d2 (ix2 r (0 : Fin 1))) :
    k2_pay1 x0 x1 x2 (ix2 p q) = GcnStage.scaledProd X W d2 bitsLt_bf16_f32 (ix2 r q) := by
  rw [pay_apply, h2]
  show _ = (∑ j : Fin 128, X (ix2 r j) * W (ix2 j q)) * d2 (ix2 r (0 : Fin 1))
  exact congrArg (· * _) (Finset.sum_congr rfl fun j _ => by rw [h0, h1])

/-- The printed index maps, decided over the grid: the node array's and the factor column's blocks move with the
    output's along the rows, the weight matrix's block stays, and nothing moves along the columns. -/
theorem idx_facts : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 2) = win2_3.index t (0 : Fin 2) ∧ win2_2.index t (1 : Fin 2) = 0
    ∧ win2_3.index t (0 : Fin 2) ≤ 9 ∧ win2_3.index t (1 : Fin 2) = 0 :=
  (by decide +kernel : ∀ t : Fin grid2.N, _)

/-- Every block of rows is some point's. -/
theorem idx_onto : ∀ q0 : Fin 10, ∃ t : Fin cfg2.N, win2_3.index t = ![q0.val, 0] :=
  (by decide +kernel : ∀ q0 : Fin 10, ∃ t : Fin grid2.N, win2_3.index t = ![q0.val, 0])

/-- What point `t` writes back is block `t` of the whole-array function of the arrays as the region finds them. -/
theorem flushed_eq (c : Dev nD) (t : Fin cfg2.N) :
    (dat2 V c).flushed 3 t = ((cfg2.win 3).blk t).view.read (Elt Ideal)
      (GcnStage.scaledProd (V c main_v30) (V c main_arg5) (V c main_v14) bitsLt_bf16_f32) := by
  show (cfg2.win 3).cut (grid2.coords t) ((dat2 V c).after 3 t) = _
  rw [after2_3]
  unfold out2_3
  rw [View.canon_unit_zero hz]
  simp only [View.ld_unit_zero (S := S4000x128) hz, View.ld_unit_zero (S := S128x128) hz, View.ld_unit_zero (S := S4000x1) hz]
  obtain ⟨e0, e1, e2, e3, e4, e5, e6, e7⟩ := idx_facts t
  funext j
  obtain ⟨p, q, rfl⟩ : ∃ (p : Fin 4000) (q : Fin 128), j = ix2 p q := ⟨j 0, j 1, eq_ix2 j⟩
  have hp : p.val < 4000 := p.isLt
  have hr : win2_3.index t (0 : Fin 2) * 4000 + 1 * p.val < 40000 := by omega
  have hout : ((cfg2.win 3).blk t).view.emb (ix2 p q) = ix2 (⟨win2_3.index t (0 : Fin 2) * 4000 + 1 * p.val, hr⟩ : Fin 40000) q := by
    funext a; apply Fin.ext
    match a with
    | ⟨0, _⟩ => rfl
    | ⟨1, _⟩ => show win2_3.index t (1 : Fin 2) * 128 + 1 * q.val = q.val; omega
  show k2_pay1 (iblk2 V c 0 t) (iblk2 V c 1 t) (iblk2 V c 2 t) (ix2 p q)
    = GcnStage.scaledProd (V c main_v30) (V c main_arg5) (V c main_v14) bitsLt_bf16_f32 (((cfg2.win 3).blk t).view.emb (ix2 p q))
  rw [hout]
  refine point (V c main_v30) (V c main_arg5) (V c main_v14) _ _ _ p q _ (fun k => ?_) (fun a b => ?_) ?_
  · show V c main_v30 (((cfg2.win 0).blk t).view.emb (ix2 p k)) = _
    refine congrArg _ (funext fun ax => Fin.ext ?_)
    match ax with
    | ⟨0, _⟩ => show win2_0.index t (0 : Fin 2) * 4000 + 1 * p.val = win2_3.index t (0 : Fin 2) * 4000 + 1 * p.val; omega
    | ⟨1, _⟩ => show win2_0.index t (1 : Fin 2) * 128 + 1 * k.val = k.val; omega
  · show V c main_arg5 (((cfg2.win 1).blk t).view.emb (ix2 a b)) = _
    refine congrArg _ (funext fun ax => Fin.ext ?_)
    match ax with
    | ⟨0, _⟩ => show win2_1.index t (0 : Fin 2) * 128 + 1 * a.val = a.val; omega
    | ⟨1, _⟩ => show win2_1.index t (1 : Fin 2) * 128 + 1 * b.val = b.val; omega
  · show V c main_v14 (((cfg2.win 2).blk t).view.emb (ix2 p (0 : Fin 1))) = _
    refine congrArg _ (funext fun ax => Fin.ext ?_)
    match ax with
    | ⟨0, _⟩ => show win2_2.index t (0 : Fin 2) * 4000 + 1 * p.val = win2_3.index t (0 : Fin 2) * 4000 + 1 * p.val; omega
    | ⟨1, _⟩ => show win2_2.index t (1 : Fin 2) * 1 + 1 * 0 = 0; omega

/-- An index of the output array is in point `t`'s block iff each coordinate is in the block's range on its axis. -/
theorem mem_blk (t : Fin cfg2.N) (i : S40000x128.Idx) :
    i ∈ ((cfg2.win 3).blk t).view.set ↔ ∀ a : Fin 2, win2_3.index t a * S4000x128.size a ≤ (i a).val
      ∧ (i a).val < win2_3.index t a * S4000x128.size a + S4000x128.size a := by
  show i ∈ ((View.whole main_v31).slice (win2_3.rect t)).set ↔ _
  rw [View.set_slice_whole, Rect.mem_set_unit]
  exact Iff.rfl

/-- Every index of the output array is in the block of the point that owns its row. -/
theorem cover (i : S40000x128.Idx) : ∃ t : Fin cfg2.N, (cfg2.win 3).flush t = true ∧ i ∈ ((cfg2.win 3).blk t).view.set := by
  have hi0 : (i 0).val < 40000 := (i 0).isLt
  have hi1 : (i 1).val < 128 := (i 1).isLt
  obtain ⟨t, ht⟩ := idx_onto ⟨(i 0).val / 4000, by omega⟩
  have q0 : win2_3.index t (0 : Fin 2) = (i 0).val / 4000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 4000 ≤ (i 0).val ∧ (i 0).val < win2_3.index t (0 : Fin 2) * 4000 + 4000; omega
  | ⟨1, _⟩ => show win2_3.index t (1 : Fin 2) * 128 ≤ (i 1).val ∧ (i 1).val < win2_3.index t (1 : Fin 2) * 128 + 128; omega

/-- THE OUTPUT ARRAY after the region. -/
theorem final (c : Dev nD) :
    (dat2 V c).arrAt 3 cfg2.N = GcnStage.scaledProd (V c main_v30) (V c main_arg5) (V c main_v14) bitsLt_bf16_f32 :=
  (dat2 V c).arrAt_eq_of_cover 3 _ (fun t _ => flushed_eq V c t) cover

end Cert.KernelIdeal.Reg2

end
-- ==== Proof.Reg3.lean ====
/-
  Region 3 of the kernel's program (post-scale, bias, LayerNorm, ReLU), read as a value: after the region row r of
  its output array is the normalise-and-clip row function of  agg[r, ·] · d[r] + b  with gain and offset rows —
  one function of the five arrays the region reads.

  The grid has ten points; point t reads rows 4000·t … 4000·t + 3999 of the aggregated array and of the factor
  column and the three one-row arrays whole, and writes the same rows of the output. The body works row by row
  (a lane reduction per row), so what point t writes back is rows 4000·t … of the whole-array function, and the
  ten blocks cover the output.
-/
import proofs.«153731_j5334349382373_2_alg».proof.Proof.Gen.KernelIdeal.Frame
import proofs.«153731_j5334349382373_2_alg».proof.Proof.KForms

set_option maxRecDepth 16384

noncomputable section

namespace Cert.KernelIdeal.Reg3

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Keepdims Cert.RowOps

variable (V : (c : Dev nD) → (b : Ref sig .tc) → Buf (Elt Ideal) ((c : Thread nD τ).loc b))

/-- The zero offset of every rectangle the body loads and stores through. -/
theorem hz : (![0, 0] : Fin 2 → Nat) = fun _ => 0 := funext fun a => by fin_cases a <;> rfl

/-- The body's stored value is the block form of the stage. -/
theorem pay_eq (x0 : Vec Ideal S4000x128 .f32) (x1 : Vec Ideal S4000x1 .f32) (x2 x3 x4 : Vec Ideal S1x128 .f32) :
    k3_pay1 x0 x1 x2 x3 x4 = LnStage.stageK reduces_S4000x128_S4000 shapeCasts_S4000_S4000x1 broadcasts_S4000x1_S4000x128
      broadcasts_S1x128_S4000x128 shapeCasts_S4000x128_S4000x128 shapeCasts_S4000x1_S4000x1 shapeCasts_S1x128_S1x128 x0 x1 x2 x3 x4 := rfl

/-- The stored value at a block index `(p, q)` whose data are the whole arrays' at row `r`. -/
theorem point (A : FVec Ideal ⟨2, ![40000, 128]⟩ .f32) (d2 : FVec Ideal ⟨2, ![40000, 1]⟩ .f32) (b g e : FVec Ideal ⟨2, ![1, 128]⟩ .f32)
    (x0 : Vec Ideal S4000x128 .f32) (x1 : Vec Ideal S4000x1 .f32) (x2 x3 x4 : Vec Ideal S1x128 .f32)
    (p : Fin 4000) (q : Fin 128) (r : Fin 40000)
    (h0 : ∀ k : Fin 128, x0 (ix2 p k) = A (ix2 r k)) (h1 : x1 (ix2 p (0 : Fin 1)) = d2 (ix2 r (0 : Fin 1)))
    (h2 : ∀ k : Fin 128, x2 (ix2 (0 : Fin 1) k) = b (ix2 (0 : Fin 1) k))
    (h3 : ∀ k : Fin 128, x3 (ix2 (0 : Fin 1) k) = g (ix2 (0 : Fin 1) k))
    (h4 : ∀ k : Fin 128, x4 (ix2 (0 : Fin 1) k) = e (ix2 (0 : Fin 1) k)) :
    k3_pay1 x0 x1 x2 x3 x4 (ix2 p q) = KStage.lnArray A d2 b g e (ix2 r q) := by
  rw [pay_eq, LnStage.stageK_apply]
  show _ = LnStage.lnRelu (fun k => A (ix2 r k) * d2 (ix2 r (0 : Fin 1)) + b (ix2 (0 : Fin 1) k))
    (fun k => g (ix2 (0 : Fin 1) k)) (fun k => e (ix2 (0 : Fin 1) k)) q
  simp only [h0, h1, h2, h3, h4]

/-- The printed index maps, decided over the grid: the aggregated array's and the factor column's blocks move with
    the output's along the rows, the one-row arrays' blocks stay, and nothing moves along the columns. -/
theorem idx_facts : ∀ t : Fin cfg3.N,
    win3_0.index t (0 : Fin 2) = win3_5.index t (0 : Fin 2) ∧ win3_0.index t (1 : Fin 2) = 0
    ∧ win3_1.index t (0 : Fin 2) = win3_5.index t (0 : Fin 2) ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) ≤ 9 ∧ win3_5.index t (1 : Fin 2) = 0 :=
  (by decide +kernel : ∀ t : Fin grid3.N, _)

/-- Every block of rows is some point's. -/
theorem idx_onto : ∀ q0 : Fin 10, ∃ t : Fin cfg3.N, win3_5.index t = ![q0.val, 0] :=
  (by decide +kernel : ∀ q0 : Fin 10, ∃ t : Fin grid3.N, win3_5.index t = ![q0.val, 0])

/-- What point `t` writes back is block `t` of the whole-array function of the arrays as the region finds them. -/
theorem flushed_eq (c : Dev nD) (t : Fin cfg3.N) :
    (dat3 V c).flushed 5 t = ((cfg3.win 5).blk t).view.read (Elt Ideal)
      (KStage.lnArray (V c main_v42) (V c main_v14) (V c main_v43) (V c main_v44) (V c main_v45)) := by
  show (cfg3.win 5).cut (grid3.coords t) ((dat3 V c).after 5 t) = _
  rw [after3_5]
  unfold out3_5
  rw [View.canon_unit_zero hz]
  simp only [View.ld_unit_zero (S := S4000x128) hz, View.ld_unit_zero (S := S4000x1) hz, View.ld_unit_zero (S := S1x128) hz]
  obtain ⟨e0, e1, e2, e3, e4, e5, e6, e7, e8, e9, e10, e11⟩ := idx_facts t
  funext j
  obtain ⟨p, q, rfl⟩ : ∃ (p : Fin 4000) (q : Fin 128), j = ix2 p q := ⟨j 0, j 1, eq_ix2 j⟩
  have hp : p.val < 4000 := p.isLt
  have hr : win3_5.index t (0 : Fin 2) * 4000 + 1 * p.val < 40000 := by omega
  have hout : ((cfg3.win 5).blk t).view.emb (ix2 p q) = ix2 (⟨win3_5.index t (0 : Fin 2) * 4000 + 1 * p.val, hr⟩ : Fin 40000) q := by
    funext a; apply Fin.ext
    match a with
    | ⟨0, _⟩ => rfl
    | ⟨1, _⟩ => show win3_5.index t (1 : Fin 2) * 128 + 1 * q.val = q.val; omega
  show k3_pay1 (iblk3 V c 0 t) (iblk3 V c 1 t) (iblk3 V c 2 t) (iblk3 V c 3 t) (iblk3 V c 4 t) (ix2 p q)
    = KStage.lnArray (V c main_v42) (V c main_v14) (V c main_v43) (V c main_v44) (V c main_v45) (((cfg3.win 5).blk t).view.emb (ix2 p q))
  rw [hout]
  refine point (V c main_v42) (V c main_v14) (V c main_v43) (V c main_v44) (V c main_v45) _ _ _ _ _ p q _ (fun k => ?_) ?_ (fun k => ?_) (fun k => ?_) (fun k => ?_)
  · show V c main_v42 (((cfg3.win 0).blk t).view.emb (ix2 p k)) = _
    refine congrArg _ (funext fun ax => Fin.ext ?_)
    match ax with
    | ⟨0, _⟩ => show win3_0.index t (0 : Fin 2) * 4000 + 1 * p.val = win3_5.index t (0 : Fin 2) * 4000 + 1 * p.val; omega
    | ⟨1, _⟩ => show win3_0.index t (1 : Fin 2) * 128 + 1 * k.val = k.val; omega
  · show V c main_v14 (((cfg3.win 1).blk t).view.emb (ix2 p (0 : Fin 1))) = _
    refine congrArg _ (funext fun ax => Fin.ext ?_)
    match ax with
    | ⟨0, _⟩ => show win3_1.index t (0 : Fin 2) * 4000 + 1 * p.val = win3_5.index t (0 : Fin 2) * 4000 + 1 * p.val; omega
    | ⟨1, _⟩ => show win3_1.index t (1 : Fin 2) * 1 + 1 * 0 = 0; omega
  · show V c main_v43 (((cfg3.win 2).blk t).view.emb (ix2 (0 : Fin 1) k)) = _
    refine congrArg _ (funext fun ax => Fin.ext ?_)
    match ax with
    | ⟨0, _⟩ => show win3_2.index t (0 : Fin 2) * 1 + 1 * 0 = 0; omega
    | ⟨1, _⟩ => show win3_2.index t (1 : Fin 2) * 128 + 1 * k.val = k.val; omega
  · show V c main_v44 (((cfg3.win 3).blk t).view.emb (ix2 (0 : Fin 1) k)) = _
    refine congrArg _ (funext fun ax => Fin.ext ?_)
    match ax with
    | ⟨0, _⟩ => show win3_3.index t (0 : Fin 2) * 1 + 1 * 0 = 0; omega
    | ⟨1, _⟩ => show win3_3.index t (1 : Fin 2) * 128 + 1 * k.val = k.val; omega
  · show V c main_v45 (((cfg3.win 4).blk t).view.emb (ix2 (0 : Fin 1) k)) = _
    refine congrArg _ (funext fun ax => Fin.ext ?_)
    match ax with
    | ⟨0, _⟩ => show win3_4.index t (0 : Fin 2) * 1 + 1 * 0 = 0; omega
    | ⟨1, _⟩ => show win3_4.index t (1 : Fin 2) * 128 + 1 * k.val = k.val; omega

/-- An index of the output array is in point `t`'s block iff each coordinate is in the block's range on its axis. -/
theorem mem_blk (t : Fin cfg3.N) (i : S40000x128.Idx) :
    i ∈ ((cfg3.win 5).blk t).view.set ↔ ∀ a : Fin 2, win3_5.index t a * S4000x128.size a ≤ (i a).val
      ∧ (i a).val < win3_5.index t a * S4000x128.size a + S4000x128.size a := by
  show i ∈ ((View.whole main_v46).slice (win3_5.rect t)).set ↔ _
  rw [View.set_slice_whole, Rect.mem_set_unit]
  exact Iff.rfl

/-- Every index of the output array is in the block of the point that owns its row. -/
theorem cover (i : S40000x128.Idx) : ∃ t : Fin cfg3.N, (cfg3.win 5).flush t = true ∧ i ∈ ((cfg3.win 5).blk t).view.set := by
  have hi0 : (i 0).val < 40000 := (i 0).isLt
  have hi1 : (i 1).val < 128 := (i 1).isLt
  obtain ⟨t, ht⟩ := idx_onto ⟨(i 0).val / 4000, by omega⟩
  have q0 : win3_5.index t (0 : Fin 2) = (i 0).val / 4000 := congrFun ht 0
  have q1 : win3_5.index t (1 : Fin 2) = 0 := congrFun ht 1
  refine ⟨t, flush3_5 t, ?_⟩
  rw [mem_blk]
  intro a
  match a with
  | ⟨0, _⟩ => show win3_5.index t (0 : Fin 2) * 4000 ≤ (i 0).val ∧ (i 0).val < win3_5.index t (0 : Fin 2) * 4000 + 4000; omega
  | ⟨1, _⟩ => show win3_5.index t (1 : Fin 2) * 128 ≤ (i 1).val ∧ (i 1).val < win3_5.index t (1 : Fin 2) * 128 + 128; omega

/-- THE OUTPUT ARRAY after the region. -/
theorem final (c : Dev nD) :
    (dat3 V c).arrAt 5 cfg3.N = KStage.lnArray (V c main_v42) (V c main_v14) (V c main_v43) (V c main_v44) (V c main_v45) :=
  (dat3 V c).arrAt_eq_of_cover 5 _ (fun t _ => flushed_eq V c t) cover

end Cert.KernelIdeal.Reg3

end
-- ==== Proof.Reg4.lean ====
/-
  Region 4 of the kernel's program (the final linear map), read as a value: after the region its output array is
  the pooled array times the weight matrix plus the bias row — one function of the three arrays the region reads.
  The grid is one point whose blocks are the whole arrays.
-/
import proofs.«153731_j5334349382373_2_alg».proof.Proof.Gen.KernelIdeal.Frame
import proofs.«153731_j5334349382373_2_alg».proof.Proof.KForms

set_option maxRecDepth 16384

noncomputable section

namespace Cert.KernelIdeal.Reg4

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Keepdims Cert.RowOps

variable (V : (c : Dev nD) → (b : Ref sig .tc) → Buf (Elt Ideal) ((c : Thread nD τ).loc b))

/-- The zero offset of every rectangle the body loads and stores through. -/
theorem hz : (![0, 0] : Fin 2 → Nat) = fun _ => 0 := funext fun a => by fin_cases a <;> rfl

/-- The body's stored value at `(g, q)`: row `g` of the first operand against column `q` of the second, plus the
    bias row's entry `q`. -/
theorem pay_apply (x0 : Vec Ideal S64x128 .f32) (x1 : Vec Ideal S128x10 .f32) (x2 : Vec Ideal S1x10 .f32)
    (g : Fin 64) (q : Fin 10) :
    k4_pay1 x0 x1 x2 (ix2 g q) = (∑ k : Fin 128, x0 (ix2 g k) * x1 (ix2 k q)) + x2 (ix2 (0 : Fin 1) q) := by
  unfold k4_pay1
  rw [shapeCast_self x0]
  show FloatOps.matmul (F := Ideal) (DotDims.plain 64 128 10) none (truncf .bf16 x0 bitsLt_bf16_f32) (truncf .bf16 x1 bitsLt_bf16_f32)
        (constant (F := Ideal) ⟨2, ![64, 10]⟩ .f32 0x00000000#32) (ix2 g q)
      + broadcastTo ⟨2, ![64, 10]⟩ (shapeCast ⟨2, ![1, 10]⟩ x2 shapeCasts_S1x10_S1x10) broadcasts_S1x10_S64x10 (ix2 g q) = _
  rw [matmul_plain_apply, broadcastTo_1b_ab_apply, shapeCast_self]
  rfl

/-- The stored value at `(g, q)` when the blocks' data are the whole arrays' at the same indices. -/
theorem point (Pl : FVec Ideal ⟨2, ![64, 128]⟩ .f32) (Wl : FVec Ideal ⟨2, ![128, 10]⟩ .f32) (bl2 : FVec Ideal ⟨2, ![1, 10]⟩ .f32)
    (x0 : Vec Ideal S64x128 .f32) (x1 : Vec Ideal S128x10 .f32) (x2 : Vec Ideal S1x10 .f32) (g : Fin 64) (q : Fin 10)
    (h0 : ∀ k : Fin 128, x0 (ix2 g k) = Pl (ix2 g k)) (h1 : ∀ k : Fin 128, x1 (ix2 k q) = Wl (ix2 k q))
    (h2 : x2 (ix2 (0 : Fin 1) q) = bl2 (ix2 (0 : Fin 1) q)) :
    k4_pay1 x0 x1 x2 (ix2 g q) = KStage.linear Pl Wl bl2 (ix2 g q) := by
  rw [pay_apply, h2]
  show _ = (∑ k : Fin 128, Pl (ix2 g k) * Wl (ix2 k q)) + bl2 (ix2 (0 : Fin 1) q)
  exact congrArg (· + _) (Finset.sum_congr rfl fun k _ => by rw [h0, h1])

/-- The printed index maps at the grid's one point: every block sits at the origin. -/
theorem idx_facts : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

theorem idx_onto : ∃ t : Fin cfg4.N, win4_3.index t = ![0, 0] :=
  (by decide +kernel : ∃ t : Fin grid4.N, win4_3.index t = ![0, 0])

/-- What the point writes back is the whole-array function of the arrays as the region finds them. -/
theorem flushed_eq (c : Dev nD) (t : Fin cfg4.N) :
    (dat4 V c).flushed 3 t = ((cfg4.win 3).blk t).view.read (Elt Ideal)
      (KStage.linear (V c main_v58) (V c main_arg11) (V c main_v59)) := by
  show (cfg4.win 3).cut (grid4.coords t) ((dat4 V c).after 3 t) = _
  rw [after4_3]
  unfold out4_3
  rw [View.canon_unit_zero hz]
  simp only [View.ld_unit_zero (S := S64x128) hz, View.ld_unit_zero (S := S128x10) hz, View.ld_unit_zero (S := S1x10) hz]
  obtain ⟨e0, e1, e2, e3, e4, e5, e6, e7⟩ := idx_facts t
  funext j
  obtain ⟨g, q, rfl⟩ : ∃ (g : Fin 64) (q : Fin 10), j = ix2 g q := ⟨j 0, j 1, eq_ix2 j⟩
  have hout : ((cfg4.win 3).blk t).view.emb (ix2 g q) = ix2 g q := by
    funext a; apply Fin.ext
    match a with
    | ⟨0, _⟩ => show win4_3.index t (0 : Fin 2) * 64 + 1 * g.val = g.val; omega
    | ⟨1, _⟩ => show win4_3.index t (1 : Fin 2) * 10 + 1 * q.val = q.val; omega
  show k4_pay1 (iblk4 V c 0 t) (iblk4 V c 1 t) (iblk4 V c 2 t) (ix2 g q)
    = KStage.linear (V c main_v58) (V c main_arg11) (V c main_v59) (((cfg4.win 3).blk t).view.emb (ix2 g q))
  rw [hout]
  refine point (V c main_v58) (V c main_arg11) (V c main_v59) _ _ _ g q (fun k => ?_) (fun k => ?_) ?_
  · show V c main_v58 (((cfg4.win 0).blk t).view.emb (ix2 g k)) = _
    refine congrArg _ (funext fun ax => Fin.ext ?_)
    match ax with
    | ⟨0, _⟩ => show win4_0.index t (0 : Fin 2) * 64 + 1 * g.val = g.val; omega
    | ⟨1, _⟩ => show win4_0.index t (1 : Fin 2) * 128 + 1 * k.val = k.val; omega
  · show V c main_arg11 (((cfg4.win 1).blk t).view.emb (ix2 k q)) = _
    refine congrArg _ (funext fun ax => Fin.ext ?_)
    match ax with
    | ⟨0, _⟩ => show win4_1.index t (0 : Fin 2) * 128 + 1 * k.val = k.val; omega
    | ⟨1, _⟩ => show win4_1.index t (1 : Fin 2) * 10 + 1 * q.val = q.val; omega
  · show V c main_v59 (((cfg4.win 2).blk t).view.emb (ix2 (0 : Fin 1) q)) = _
    refine congrArg _ (funext fun ax => Fin.ext ?_)
    match ax with
    | ⟨0, _⟩ => show win4_2.index t (0 : Fin 2) * 1 + 1 * 0 = 0; omega
    | ⟨1, _⟩ => show win4_2.index t (1 : Fin 2) * 10 + 1 * q.val = q.val; omega

/-- An index of the output array is in the point's block iff each coordinate is in the block's range on its axis. -/
theorem mem_blk (t : Fin cfg4.N) (i : S64x10.Idx) :
    i ∈ ((cfg4.win 3).blk t).view.set ↔ ∀ a : Fin 2, win4_3.index t a * S64x10.size a ≤ (i a).val
      ∧ (i a).val < win4_3.index t a * S64x10.size a + S64x10.size a := by
  show i ∈ ((View.whole main_v60).slice (win4_3.rect t)).set ↔ _
  rw [View.set_slice_whole, Rect.mem_set_unit]
  exact Iff.rfl

/-- The one block covers the output array. -/
theorem cover (i : S64x10.Idx) : ∃ t : Fin cfg4.N, (cfg4.win 3).flush t = true ∧ i ∈ ((cfg4.win 3).blk t).view.set := by
  have hi0 : (i 0).val < 64 := (i 0).isLt
  have hi1 : (i 1).val < 10 := (i 1).isLt
  obtain ⟨t, ht⟩ := idx_onto
  have q0 : win4_3.index t (0 : Fin 2) = 0 := congrFun ht 0
  have q1 : win4_3.index t (1 : Fin 2) = 0 := congrFun ht 1
  refine ⟨t, flush4_3 t, ?_⟩
  rw [mem_blk]
  intro a
  match a with
  | ⟨0, _⟩ => show win4_3.index t (0 : Fin 2) * 64 ≤ (i 0).val ∧ (i 0).val < win4_3.index t (0 : Fin 2) * 64 + 64; omega
  | ⟨1, _⟩ => show win4_3.index t (1 : Fin 2) * 10 ≤ (i 1).val ∧ (i 1).val < win4_3.index t (1 : Fin 2) * 10 + 10; omega

/-- THE OUTPUT ARRAY after the region. -/
theorem final (c : Dev nD) :
    (dat4 V c).arrAt 3 cfg4.N = KStage.linear (V c main_v58) (V c main_arg11) (V c main_v59) :=
  (dat4 V c).arrAt_eq_of_cover 3 _ (fun t _ => flushed_eq V c t) cover

end Cert.KernelIdeal.Reg4

end
-- ==== Proof.Chain.lean ====
/-
  The contents of the kernel program's buffers at its nine segment boundaries, followed from the launch memory to
  the result.

  A stretch of host operations gives each buffer it writes its operation's value of the buffers it reads, and leaves
  every other buffer alone; a pallas_call region leaves its output array at the region's whole-array function of its
  input arrays as it found them, its input arrays as it found them, and every other buffer alone. Read in order:
  the index vectors and the factor column after the first stretch; the scaled product after region 0; its
  aggregate and the bias, gain and offset rows after the second stretch; the normalise-and-clip array after
  region 1; the second scaled product after region 2; its aggregate and rows after the third stretch; the second
  normalise-and-clip array after region 3; the pooled array and the bias row after the last stretch; the linear
  map after region 4. Substituting each into the next names the result buffer as the network of the arguments.
-/
import proofs.«153731_j5334349382373_2_alg».proof.Proof.KNet
import proofs.«153731_j5334349382373_2_alg».proof.Proof.Reg0
import proofs.«153731_j5334349382373_2_alg».proof.Proof.Reg1
import proofs.«153731_j5334349382373_2_alg».proof.Proof.Reg2
import proofs.«153731_j5334349382373_2_alg».proof.Proof.Reg3
import proofs.«153731_j5334349382373_2_alg».proof.Proof.Reg4
import Idealize.ShloMosaic.Lib.StableHlo.Run

set_option maxRecDepth 16384
set_option maxHeartbeats 4000000

noncomputable section

namespace Cert.KernelIdeal.Chain

open Cert.KernelIdeal Cert.KernelIdeal.Gen
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg) (c : Dev nD)

/-- After the first stretch the source index vector is the edge list's row 0 followed by the nodes. -/
theorem rows_at1 : W1 m ρ c (Proc.devRef .tc main_v3) = KNet.rowIdx (W0 m ρ c (Proc.devRef .tc main_arg1)) := by
  show StableHlo.after hostOps0 (W0 m ρ c) (Proc.devRef .tc main_v3) = _
  dsimp only [hostOps0]
  after_results <;> rfl

/-- After the first stretch the target index vector is the edge list's row 1 followed by the nodes. -/
theorem cols_at1 : W1 m ρ c (Proc.devRef .tc main_v6) = KNet.colIdx (W0 m ρ c (Proc.devRef .tc main_arg1)) := by
  show StableHlo.after hostOps0 (W0 m ρ c) (Proc.devRef .tc main_v6) = _
  dsimp only [hostOps0]
  after_results <;> rfl

/-- After the first stretch the factor column is rsqrt (max deg 1) of the degrees counted along the targets. -/
theorem fac_at1 : W1 m ρ c (Proc.devRef .tc main_v14) = KNet.dinv2 (W0 m ρ c (Proc.devRef .tc main_arg1)) := by
  show StableHlo.after hostOps0 (W0 m ρ c) (Proc.devRef .tc main_v14) = _
  dsimp only [hostOps0]
  after_results <;> rfl

/-- The node array is as launched when region 0 reads it. -/
theorem x_at1 : W1 m ρ c (Proc.devRef .tc main_arg0) = W0 m ρ c (Proc.devRef .tc main_arg0) :=
  calc W1 m ρ c (Proc.devRef .tc main_arg0)
    _ = W0 m ρ c (Proc.devRef .tc main_arg0) := (by show StableHlo.after hostOps0 (W0 m ρ c) (Proc.devRef .tc main_arg0) = _; dsimp only [hostOps0]; after_results <;> rfl)

/-- The first weight matrix is as launched when region 0 reads it. -/
theorem w1_at1 : W1 m ρ c (Proc.devRef .tc main_arg3) = W0 m ρ c (Proc.devRef .tc main_arg3) :=
  calc W1 m ρ c (Proc.devRef .tc main_arg3)
    _ = W0 m ρ c (Proc.devRef .tc main_arg3) := (by show StableHlo.after hostOps0 (W0 m ρ c) (Proc.devRef .tc main_arg3) = _; dsimp only [hostOps0]; after_results <;> rfl)

/-- Region 0 leaves the source index vector alone. -/
theorem rows_keep2 : W2 m ρ c (Proc.devRef .tc main_v3) = W1 m ρ c (Proc.devRef .tc main_v3) :=
  calc W2 m ρ c (Proc.devRef .tc main_v3)
    _ = W1 m ρ c (Proc.devRef .tc main_v3) := (W2_of_ne m ρ c main_v3 (by decide))

/-- Region 0 leaves the target index vector alone. -/
theorem cols_keep2 : W2 m ρ c (Proc.devRef .tc main_v6) = W1 m ρ c (Proc.devRef .tc main_v6) :=
  calc W2 m ρ c (Proc.devRef .tc main_v6)
    _ = W1 m ρ c (Proc.devRef .tc main_v6) := (W2_of_ne m ρ c main_v6 (by decide))

/-- The first bias is as launched when the second stretch reads it. -/
theorem b1_at2 : W2 m ρ c (Proc.devRef .tc main_arg4) = W0 m ρ c (Proc.devRef .tc main_arg4) :=
  calc W2 m ρ c (Proc.devRef .tc main_arg4)
    _ = W1 m ρ c (Proc.devRef .tc main_arg4) := (W2_of_ne m ρ c main_arg4 (by decide))
    _ = W0 m ρ c (Proc.devRef .tc main_arg4) := (by show StableHlo.after hostOps0 (W0 m ρ c) (Proc.devRef .tc main_arg4) = _; dsimp only [hostOps0]; after_results <;> rfl)

/-- The first gain is as launched when the second stretch reads it. -/
theorem g1_at2 : W2 m ρ c (Proc.devRef .tc main_arg7) = W0 m ρ c (Proc.devRef .tc main_arg7) :=
  calc W2 m ρ c (Proc.devRef .tc main_arg7)
    _ = W1 m ρ c (Proc.devRef .tc main_arg7) := (W2_of_ne m ρ c main_arg7 (by decide))
    _ = W0 m ρ c (Proc.devRef .tc main_arg7) := (by show StableHlo.after hostOps0 (W0 m ρ c) (Proc.devRef .tc main_arg7) = _; dsimp only [hostOps0]; after_results <;> rfl)

/-- The first offset is as launched when the second stretch reads it. -/
theorem e1_at2 : W2 m ρ c (Proc.devRef .tc main_arg8) = W0 m ρ c (Proc.devRef .tc main_arg8) :=
  calc W2 m ρ c (Proc.devRef .tc main_arg8)
    _ = W1 m ρ c (Proc.devRef .tc main_arg8) := (W2_of_ne m ρ c main_arg8 (by decide))
    _ = W0 m ρ c (Proc.devRef .tc main_arg8) := (by show StableHlo.after hostOps0 (W0 m ρ c) (Proc.devRef .tc main_arg8) = _; dsimp only [hostOps0]; after_results <;> rfl)

/-- The factor column is unchanged up to region 1's entry. -/
theorem fac_keep3 : W3 m ρ c (Proc.devRef .tc main_v14) = W1 m ρ c (Proc.devRef .tc main_v14) :=
  calc W3 m ρ c (Proc.devRef .tc main_v14)
    _ = W2 m ρ c (Proc.devRef .tc main_v14) := (by show StableHlo.after hostOps1 (W2 m ρ c) (Proc.devRef .tc main_v14) = _; dsimp only [hostOps1]; after_results <;> rfl)
    _ = W1 m ρ c (Proc.devRef .tc main_v14) := ((W2_arr m ρ c 2).trans (((dat0 (V1 m ρ) c).arrAt_in 2 rfl _).trans (A_eq0 (V1 m ρ) c 2)))

/-- The second weight matrix is as launched when region 2 reads it. -/
theorem w2_at4 : W4 m ρ c (Proc.devRef .tc main_arg5) = W0 m ρ c (Proc.devRef .tc main_arg5) :=
  calc W4 m ρ c (Proc.devRef .tc main_arg5)
    _ = W3 m ρ c (Proc.devRef .tc main_arg5) := (W4_of_ne m ρ c main_arg5 (by decide))
    _ = W2 m ρ c (Proc.devRef .tc main_arg5) := (by show StableHlo.after hostOps1 (W2 m ρ c) (Proc.devRef .tc main_arg5) = _; dsimp only [hostOps1]; after_results <;> rfl)
    _ = W1 m ρ c (Proc.devRef .tc main_arg5) := (W2_of_ne m ρ c main_arg5 (by decide))
    _ = W0 m ρ c (Proc.devRef .tc main_arg5) := (by show StableHlo.after hostOps0 (W0 m ρ c) (Proc.devRef .tc main_arg5) = _; dsimp only [hostOps0]; after_results <;> rfl)

/-- The factor column is unchanged up to region 2's entry. -/
theorem fac_keep4 : W4 m ρ c (Proc.devRef .tc main_v14) = W1 m ρ c (Proc.devRef .tc main_v14) :=
  calc W4 m ρ c (Proc.devRef .tc main_v14)
    _ = W3 m ρ c (Proc.devRef .tc main_v14) := ((W4_arr m ρ c 1).trans (((dat1 (V3 m ρ) c).arrAt_in 1 rfl _).trans (A_eq1 (V3 m ρ) c 1)))
    _ = W2 m ρ c (Proc.devRef .tc main_v14) := (by show StableHlo.after hostOps1 (W2 m ρ c) (Proc.devRef .tc main_v14) = _; dsimp only [hostOps1]; after_results <;> rfl)
    _ = W1 m ρ c (Proc.devRef .tc main_v14) := ((W2_arr m ρ c 2).trans (((dat0 (V1 m ρ) c).arrAt_in 2 rfl _).trans (A_eq0 (V1 m ρ) c 2)))

/-- The source index vector is unchanged up to the third stretch. -/
theorem rows_keep5 : W5 m ρ c (Proc.devRef .tc main_v3) = W1 m ρ c (Proc.devRef .tc main_v3) :=
  calc W5 m ρ c (Proc.devRef .tc main_v3)
    _ = W4 m ρ c (Proc.devRef .tc main_v3) := (W5_of_ne m ρ c main_v3 (by decide))
    _ = W3 m ρ c (Proc.devRef .tc main_v3) := (W4_of_ne m ρ c main_v3 (by decide))
    _ = W2 m ρ c (Proc.devRef .tc main_v3) := (by show StableHlo.after hostOps1 (W2 m ρ c) (Proc.devRef .tc main_v3) = _; dsimp only [hostOps1]; after_results <;> rfl)
    _ = W1 m ρ c (Proc.devRef .tc main_v3) := (W2_of_ne m ρ c main_v3 (by decide))

/-- The target index vector is unchanged up to the third stretch. -/
theorem cols_keep5 : W5 m ρ c (Proc.devRef .tc main_v6) = W1 m ρ c (Proc.devRef .tc main_v6) :=
  calc W5 m ρ c (Proc.devRef .tc main_v6)
    _ = W4 m ρ c (Proc.devRef .tc main_v6) := (W5_of_ne m ρ c main_v6 (by decide))
    _ = W3 m ρ c (Proc.devRef .tc main_v6) := (W4_of_ne m ρ c main_v6 (by decide))
    _ = W2 m ρ c (Proc.devRef .tc main_v6) := (by show StableHlo.after hostOps1 (W2 m ρ c) (Proc.devRef .tc main_v6) = _; dsimp only [hostOps1]; after_results <;> rfl)
    _ = W1 m ρ c (Proc.devRef .tc main_v6) := (W2_of_ne m ρ c main_v6 (by decide))

/-- The second bias is as launched when the third stretch reads it. -/
theorem b2_at5 : W5 m ρ c (Proc.devRef .tc main_arg6) = W0 m ρ c (Proc.devRef .tc main_arg6) :=
  calc W5 m ρ c (Proc.devRef .tc main_arg6)
    _ = W4 m ρ c (Proc.devRef .tc main_arg6) := (W5_of_ne m ρ c main_arg6 (by decide))
    _ = W3 m ρ c (Proc.devRef .tc main_arg6) := (W4_of_ne m ρ c main_arg6 (by decide))
    _ = W2 m ρ c (Proc.devRef .tc main_arg6) := (by show StableHlo.after hostOps1 (W2 m ρ c) (Proc.devRef .tc main_arg6) = _; dsimp only [hostOps1]; after_results <;> rfl)
    _ = W1 m ρ c (Proc.devRef .tc main_arg6) := (W2_of_ne m ρ c main_arg6 (by decide))
    _ = W0 m ρ c (Proc.devRef .tc main_arg6) := (by show StableHlo.after hostOps0 (W0 m ρ c) (Proc.devRef .tc main_arg6) = _; dsimp only [hostOps0]; after_results <;> rfl)

/-- The second gain is as launched when the third stretch reads it. -/
theorem g2_at5 : W5 m ρ c (Proc.devRef .tc main_arg9) = W0 m ρ c (Proc.devRef .tc main_arg9) :=
  calc W5 m ρ c (Proc.devRef .tc main_arg9)
    _ = W4 m ρ c (Proc.devRef .tc main_arg9) := (W5_of_ne m ρ c main_arg9 (by decide))
    _ = W3 m ρ c (Proc.devRef .tc main_arg9) := (W4_of_ne m ρ c main_arg9 (by decide))
    _ = W2 m ρ c (Proc.devRef .tc main_arg9) := (by show StableHlo.after hostOps1 (W2 m ρ c) (Proc.devRef .tc main_arg9) = _; dsimp only [hostOps1]; after_results <;> rfl)
    _ = W1 m ρ c (Proc.devRef .tc main_arg9) := (W2_of_ne m ρ c main_arg9 (by decide))
    _ = W0 m ρ c (Proc.devRef .tc main_arg9) := (by show StableHlo.after hostOps0 (W0 m ρ c) (Proc.devRef .tc main_arg9) = _; dsimp only [hostOps0]; after_results <;> rfl)

/-- The second offset is as launched when the third stretch reads it. -/
theorem e2_at5 : W5 m ρ c (Proc.devRef .tc main_arg10) = W0 m ρ c (Proc.devRef .tc main_arg10) :=
  calc W5 m ρ c (Proc.devRef .tc main_arg10)
    _ = W4 m ρ c (Proc.devRef .tc main_arg10) := (W5_of_ne m ρ c main_arg10 (by decide))
    _ = W3 m ρ c (Proc.devRef .tc main_arg10) := (W4_of_ne m ρ c main_arg10 (by decide))
    _ = W2 m ρ c (Proc.devRef .tc main_arg10) := (by show StableHlo.after hostOps1 (W2 m ρ c) (Proc.devRef .tc main_arg10) = _; dsimp only [hostOps1]; after_results <;> rfl)
    _ = W1 m ρ c (Proc.devRef .tc main_arg10) := (W2_of_ne m ρ c main_arg10 (by decide))
    _ = W0 m ρ c (Proc.devRef .tc main_arg10) := (by show StableHlo.after hostOps0 (W0 m ρ c) (Proc.devRef .tc main_arg10) = _; dsimp only [hostOps0]; after_results <;> rfl)

/-- The factor column is unchanged up to region 3's entry. -/
theorem fac_keep6 : W6 m ρ c (Proc.devRef .tc main_v14) = W1 m ρ c (Proc.devRef .tc main_v14) :=
  calc W6 m ρ c (Proc.devRef .tc main_v14)
    _ = W5 m ρ c (Proc.devRef .tc main_v14) := (by show StableHlo.after hostOps3 (W5 m ρ c) (Proc.devRef .tc main_v14) = _; dsimp only [hostOps3]; after_results <;> rfl)
    _ = W4 m ρ c (Proc.devRef .tc main_v14) := ((W5_arr m ρ c 2).trans (((dat2 (V4 m ρ) c).arrAt_in 2 rfl _).trans (A_eq2 (V4 m ρ) c 2)))
    _ = W3 m ρ c (Proc.devRef .tc main_v14) := ((W4_arr m ρ c 1).trans (((dat1 (V3 m ρ) c).arrAt_in 1 rfl _).trans (A_eq1 (V3 m ρ) c 1)))
    _ = W2 m ρ c (Proc.devRef .tc main_v14) := (by show StableHlo.after hostOps1 (W2 m ρ c) (Proc.devRef .tc main_v14) = _; dsimp only [hostOps1]; after_results <;> rfl)
    _ = W1 m ρ c (Proc.devRef .tc main_v14) := ((W2_arr m ρ c 2).trans (((dat0 (V1 m ρ) c).arrAt_in 2 rfl _).trans (A_eq0 (V1 m ρ) c 2)))

/-- The graph index vector is as launched when the last stretch reads it. -/
theorem batch_at7 : W7 m ρ c (Proc.devRef .tc main_arg2) = W0 m ρ c (Proc.devRef .tc main_arg2) :=
  calc W7 m ρ c (Proc.devRef .tc main_arg2)
    _ = W6 m ρ c (Proc.devRef .tc main_arg2) := (W7_of_ne m ρ c main_arg2 (by decide))
    _ = W5 m ρ c (Proc.devRef .tc main_arg2) := (by show StableHlo.after hostOps3 (W5 m ρ c) (Proc.devRef .tc main_arg2) = _; dsimp only [hostOps3]; after_results <;> rfl)
    _ = W4 m ρ c (Proc.devRef .tc main_arg2) := (W5_of_ne m ρ c main_arg2 (by decide))
    _ = W3 m ρ c (Proc.devRef .tc main_arg2) := (W4_of_ne m ρ c main_arg2 (by decide))
    _ = W2 m ρ c (Proc.devRef .tc main_arg2) := (by show StableHlo.after hostOps1 (W2 m ρ c) (Proc.devRef .tc main_arg2) = _; dsimp only [hostOps1]; after_results <;> rfl)
    _ = W1 m ρ c (Proc.devRef .tc main_arg2) := (W2_of_ne m ρ c main_arg2 (by decide))
    _ = W0 m ρ c (Proc.devRef .tc main_arg2) := (by show StableHlo.after hostOps0 (W0 m ρ c) (Proc.devRef .tc main_arg2) = _; dsimp only [hostOps0]; after_results <;> rfl)

/-- The final bias is as launched when the last stretch reads it. -/
theorem bl_at7 : W7 m ρ c (Proc.devRef .tc main_arg12) = W0 m ρ c (Proc.devRef .tc main_arg12) :=
  calc W7 m ρ c (Proc.devRef .tc main_arg12)
    _ = W6 m ρ c (Proc.devRef .tc main_arg12) := (W7_of_ne m ρ c main_arg12 (by decide))
    _ = W5 m ρ c (Proc.devRef .tc main_arg12) := (by show StableHlo.after hostOps3 (W5 m ρ c) (Proc.devRef .tc main_arg12) = _; dsimp only [hostOps3]; after_results <;> rfl)
    _ = W4 m ρ c (Proc.devRef .tc main_arg12) := (W5_of_ne m ρ c main_arg12 (by decide))
    _ = W3 m ρ c (Proc.devRef .tc main_arg12) := (W4_of_ne m ρ c main_arg12 (by decide))
    _ = W2 m ρ c (Proc.devRef .tc main_arg12) := (by show StableHlo.after hostOps1 (W2 m ρ c) (Proc.devRef .tc main_arg12) = _; dsimp only [hostOps1]; after_results <;> rfl)
    _ = W1 m ρ c (Proc.devRef .tc main_arg12) := (W2_of_ne m ρ c main_arg12 (by decide))
    _ = W0 m ρ c (Proc.devRef .tc main_arg12) := (by show StableHlo.after hostOps0 (W0 m ρ c) (Proc.devRef .tc main_arg12) = _; dsimp only [hostOps0]; after_results <;> rfl)

/-- The final weight matrix is as launched when region 4 reads it. -/
theorem wl_at8 : W8 m ρ c (Proc.devRef .tc main_arg11) = W0 m ρ c (Proc.devRef .tc main_arg11) :=
  calc W8 m ρ c (Proc.devRef .tc main_arg11)
    _ = W7 m ρ c (Proc.devRef .tc main_arg11) := (by show StableHlo.after hostOps4 (W7 m ρ c) (Proc.devRef .tc main_arg11) = _; dsimp only [hostOps4]; after_results <;> rfl)
    _ = W6 m ρ c (Proc.devRef .tc main_arg11) := (W7_of_ne m ρ c main_arg11 (by decide))
    _ = W5 m ρ c (Proc.devRef .tc main_arg11) := (by show StableHlo.after hostOps3 (W5 m ρ c) (Proc.devRef .tc main_arg11) = _; dsimp only [hostOps3]; after_results <;> rfl)
    _ = W4 m ρ c (Proc.devRef .tc main_arg11) := (W5_of_ne m ρ c main_arg11 (by decide))
    _ = W3 m ρ c (Proc.devRef .tc main_arg11) := (W4_of_ne m ρ c main_arg11 (by decide))
    _ = W2 m ρ c (Proc.devRef .tc main_arg11) := (by show StableHlo.after hostOps1 (W2 m ρ c) (Proc.devRef .tc main_arg11) = _; dsimp only [hostOps1]; after_results <;> rfl)
    _ = W1 m ρ c (Proc.devRef .tc main_arg11) := (W2_of_ne m ρ c main_arg11 (by decide))
    _ = W0 m ρ c (Proc.devRef .tc main_arg11) := (by show StableHlo.after hostOps0 (W0 m ρ c) (Proc.devRef .tc main_arg11) = _; dsimp only [hostOps0]; after_results <;> rfl)

/-- Region 0 leaves the scaled, narrowed product of what it read. -/
theorem prod1_at2 : W2 m ρ c (Proc.devRef .tc main_v15) = GcnStage.scaledProd (W1 m ρ c (Proc.devRef .tc main_arg0)) (W1 m ρ c (Proc.devRef .tc main_arg3)) (W1 m ρ c (Proc.devRef .tc main_v14)) bitsLt_bf16_f32 :=
  (W2_arr m ρ c 3).trans (Reg0.final (V1 m ρ) c)

/-- The second stretch aggregates region 0's output along the edges. -/
theorem agg1_at3 : W3 m ρ c (Proc.devRef .tc main_v26) = KNet.aggOf (W2 m ρ c (Proc.devRef .tc main_v3)) (W2 m ρ c (Proc.devRef .tc main_v6)) (W2 m ρ c (Proc.devRef .tc main_v15)) := by
  show StableHlo.after hostOps1 (W2 m ρ c) (Proc.devRef .tc main_v26) = _
  dsimp only [hostOps1]
  after_results <;> rfl

/-- The second stretch recasts the first bias as a row. -/
theorem b1row_at3 : W3 m ρ c (Proc.devRef .tc main_v27) = shapeCast S1x128 (W2 m ρ c (Proc.devRef .tc main_arg4)) shapeCasts_S128_S1x128 := by
  show StableHlo.after hostOps1 (W2 m ρ c) (Proc.devRef .tc main_v27) = _
  dsimp only [hostOps1]
  after_results <;> rfl

/-- The second stretch recasts the first gain as a row. -/
theorem g1row_at3 : W3 m ρ c (Proc.devRef .tc main_v28) = shapeCast S1x128 (W2 m ρ c (Proc.devRef .tc main_arg7)) shapeCasts_S128_S1x128 := by
  show StableHlo.after hostOps1 (W2 m ρ c) (Proc.devRef .tc main_v28) = _
  dsimp only [hostOps1]
  after_results <;> rfl

/-- The second stretch recasts the first offset as a row. -/
theorem e1row_at3 : W3 m ρ c (Proc.devRef .tc main_v29) = shapeCast S1x128 (W2 m ρ c (Proc.devRef .tc main_arg8)) shapeCasts_S128_S1x128 := by
  show StableHlo.after hostOps1 (W2 m ρ c) (Proc.devRef .tc main_v29) = _
  dsimp only [hostOps1]
  after_results <;> rfl

/-- Region 1 leaves the normalise-and-clip array of what it read. -/
theorem out1_at4 : W4 m ρ c (Proc.devRef .tc main_v30) = KStage.lnArray (W3 m ρ c (Proc.devRef .tc main_v26)) (W3 m ρ c (Proc.devRef .tc main_v14)) (W3 m ρ c (Proc.devRef .tc main_v27)) (W3 m ρ c (Proc.devRef .tc main_v28)) (W3 m ρ c (Proc.devRef .tc main_v29)) :=
  (W4_arr m ρ c 5).trans (Reg1.final (V3 m ρ) c)

/-- Region 2 leaves the scaled, narrowed product of what it read. -/
theorem prod2_at5 : W5 m ρ c (Proc.devRef .tc main_v31) = GcnStage.scaledProd (W4 m ρ c (Proc.devRef .tc main_v30)) (W4 m ρ c (Proc.devRef .tc main_arg5)) (W4 m ρ c (Proc.devRef .tc main_v14)) bitsLt_bf16_f32 :=
  (W5_arr m ρ c 3).trans (Reg2.final (V4 m ρ) c)

/-- The third stretch aggregates region 2's output along the edges. -/
theorem agg2_at6 : W6 m ρ c (Proc.devRef .tc main_v42) = KNet.aggOf (W5 m ρ c (Proc.devRef .tc main_v3)) (W5 m ρ c (Proc.devRef .tc main_v6)) (W5 m ρ c (Proc.devRef .tc main_v31)) := by
  show StableHlo.after hostOps3 (W5 m ρ c) (Proc.devRef .tc main_v42) = _
  dsimp only [hostOps3]
  after_results <;> rfl

/-- The third stretch recasts the second bias as a row. -/
theorem b2row_at6 : W6 m ρ c (Proc.devRef .tc main_v43) = shapeCast S1x128 (W5 m ρ c (Proc.devRef .tc main_arg6)) shapeCasts_S128_S1x128 := by
  show StableHlo.after hostOps3 (W5 m ρ c) (Proc.devRef .tc main_v43) = _
  dsimp only [hostOps3]
  after_results <;> rfl

/-- The third stretch recasts the second gain as a row. -/
theorem g2row_at6 : W6 m ρ c (Proc.devRef .tc main_v44) = shapeCast S1x128 (W5 m ρ c (Proc.devRef .tc main_arg9)) shapeCasts_S128_S1x128 := by
  show StableHlo.after hostOps3 (W5 m ρ c) (Proc.devRef .tc main_v44) = _
  dsimp only [hostOps3]
  after_results <;> rfl

/-- The third stretch recasts the second offset as a row. -/
theorem e2row_at6 : W6 m ρ c (Proc.devRef .tc main_v45) = shapeCast S1x128 (W5 m ρ c (Proc.devRef .tc main_arg10)) shapeCasts_S128_S1x128 := by
  show StableHlo.after hostOps3 (W5 m ρ c) (Proc.devRef .tc main_v45) = _
  dsimp only [hostOps3]
  after_results <;> rfl

/-- Region 3 leaves the normalise-and-clip array of what it read. -/
theorem out2_at7 : W7 m ρ c (Proc.devRef .tc main_v46) = KStage.lnArray (W6 m ρ c (Proc.devRef .tc main_v42)) (W6 m ρ c (Proc.devRef .tc main_v14)) (W6 m ρ c (Proc.devRef .tc main_v43)) (W6 m ρ c (Proc.devRef .tc main_v44)) (W6 m ρ c (Proc.devRef .tc main_v45)) :=
  (W7_arr m ρ c 5).trans (Reg3.final (V6 m ρ) c)

/-- The last stretch pools region 3's output by graph. -/
theorem pool_at8 : W8 m ρ c (Proc.devRef .tc main_v58) = KNet.pooled (W7 m ρ c (Proc.devRef .tc main_arg2)) (W7 m ρ c (Proc.devRef .tc main_v46)) := by
  show StableHlo.after hostOps4 (W7 m ρ c) (Proc.devRef .tc main_v58) = _
  dsimp only [hostOps4]
  after_results <;> rfl

/-- The last stretch recasts the final bias as a row. -/
theorem blrow_at8 : W8 m ρ c (Proc.devRef .tc main_v59) = shapeCast S1x10 (W7 m ρ c (Proc.devRef .tc main_arg12)) shapeCasts_S10_S1x10 := by
  show StableHlo.after hostOps4 (W7 m ρ c) (Proc.devRef .tc main_v59) = _
  dsimp only [hostOps4]
  after_results <;> rfl

/-- Region 4 leaves the linear map of what it read. -/
theorem out_at9 : W9 m ρ c (Proc.devRef .tc main_v60) = KStage.linear (W8 m ρ c (Proc.devRef .tc main_v58)) (W8 m ρ c (Proc.devRef .tc main_arg11)) (W8 m ρ c (Proc.devRef .tc main_v59)) :=
  (W9_arr m ρ c 3).trans (Reg4.final (V8 m ρ) c)

/-- THE RESULT BUFFER at the last boundary is the network of the argument arrays as launched. -/
theorem result_eq : W9 m ρ c (Proc.devRef .tc main_v60)
    = KNet.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  rw [out_at9, pool_at8, blrow_at8, wl_at8, batch_at7, bl_at7, out2_at7, agg2_at6, b2row_at6, g2row_at6, e2row_at6, fac_keep6,
    rows_keep5, cols_keep5, b2_at5, g2_at5, e2_at5, prod2_at5, out1_at4, w2_at4, fac_keep4, agg1_at3, b1row_at3, g1row_at3, e1row_at3,
    fac_keep3, rows_keep2, cols_keep2, b1_at2, g1_at2, e1_at2, prod1_at2, x_at1, w1_at1, rows_at1, cols_at1, fac_at1]
  rfl

end Cert.KernelIdeal.Chain

end
-- ==== Proof.RNet.lean ====
/-
  The reference program's result as a composition of named whole-array stages.

  From the edge list: the source and target index vectors (the given edges followed by one self-loop per node),
  the degree vector (ones added along the targets), the factor vector  rsqrt (max deg 1), and the edge weights
  (the factor gathered along the wrapped sources times the factor gathered along the wrapped targets). A layer
  sends a node array X with weights W, bias b, gain g, offset e to: X·W gathered along the sources, each row scaled
  by its edge's weight, added into zeros along the targets, plus the bias; then normalise-and-clip. The tail pools
  the node array by graph (sum along the graph index divided by max (count, 1)) and applies the final linear map.
  The generated reading of the program is these stages composed, by unfolding.
-/
import proofs.«153731_j5334349382373_2_alg».proof.Proof.Gen.ReferenceIdeal.Read
import proofs.«153731_j5334349382373_2_alg».proof.Proof.LibLnReluStage

set_option maxRecDepth 16384

noncomputable section

namespace Cert.ReferenceIdeal.RNet

open Cert.ReferenceIdeal Cert.ReferenceIdeal.Gen Cert.ReferenceIdeal.Read
open Idealize.ShloMosaic Idealize.ShloMosaic.TcCoe Idealize.ShloMosaic.ValueIdx

/-- Sources: row 0 of the edge list, then the nodes themselves. -/
def rowIdx (x1 : IVec S2x640000 32) : IVec S680000 32 :=
  concatenate S680000 0 [⟨S640000, shapeCast _ (extractStridedSlice S1x640000 ![0, 0] x1 slices_S2x640000_S1x640000_0_0) shapeCasts_S1x640000_S640000⟩,
    ⟨S40000, iotaInDim S40000 32 0⟩] concatenates_S640000_S40000_S680000_d0

/-- Targets: row 1 of the edge list, then the nodes themselves. -/
def colIdx (x1 : IVec S2x640000 32) : IVec S680000 32 :=
  concatenate S680000 0 [⟨S640000, shapeCast _ (extractStridedSlice S1x640000 ![1, 0] x1 slices_S2x640000_S1x640000_1_0) shapeCasts_S1x640000_S640000⟩,
    ⟨S40000, iotaInDim S40000 32 0⟩] concatenates_S640000_S40000_S680000_d0

/-- The degree vector: ones added along the targets. -/
def degv (x1 : IVec S2x640000 32) : FVec Ideal S40000 .f32 :=
  Host.scatterAdd scatter_S40000_S680000x1_S680000_n_0_0_1 (broadcastInDim S40000 ![] bcast_S_S40000 (constant S_ .f32 0x00000000#32))
    (broadcastInDim S680000x1 ![0] bcast_S680000_S680000x1_0 (colIdx x1))
    (broadcastInDim S680000 ![] bcast_S_S680000 (constant S_ .f32 0x3F800000#32))

/-- The factor vector. -/
def dinv (x1 : IVec S2x640000 32) : FVec Ideal S40000 .f32 :=
  Host.rsqrt (maximumf (degv x1) (broadcastInDim S40000 ![] bcast_S_S40000 (constant S_ .f32 0x3F800000#32)))

/-- An index vector with its negative entries wrapped by the node count, as a column. -/
def wrapped (v : IVec S680000 32) : IVec S680000x1 32 :=
  broadcastInDim S680000x1 ![0] bcast_S680000_S680000x1_0
    (select (cmpi .slt v (broadcastInDim S680000 ![] bcast_S_S680000 (constantI S_ 32 0#32)))
      (addi v (broadcastInDim S680000 ![] bcast_S_S680000 (constantI S_ 32 40000#32))) v)

/-- The edge weights. -/
def norm (x1 : IVec S2x640000 32) : FVec Ideal S680000 .f32 :=
  mulf (Host.gather gather_S40000_S680000x1_S680000_n_0_n_n_0_1_1 (dinv x1) (wrapped (rowIdx x1)))
    (Host.gather gather_S40000_S680000x1_S680000_n_0_n_n_0_1_1 (dinv x1) (wrapped (colIdx x1)))

/-- The array a layer normalises: the weighted aggregation of X·W plus the bias. -/
def pre (x1 : IVec S2x640000 32) (X : FVec Ideal S40000x128 .f32) (W : FVec Ideal S128x128 .f32) (b : FVec Ideal S128 .f32) :
    FVec Ideal S40000x128 .f32 :=
  addf (Host.scatterAdd scatter_S40000x128_S680000x1_S680000x128_1_0_0_1
      (broadcastInDim S40000x128 ![] bcast_S_S40000x128 (constant S_ .f32 0x00000000#32))
      (broadcastInDim S680000x1 ![0] bcast_S680000_S680000x1_0 (colIdx x1))
      (mulf (Host.gather gather_S40000x128_S680000x1_S680000x128_1_0_n_n_0_1_1128
          (Host.dotGeneral dot_S40000x128_S128x128_S40000x128_1_0_0_1_n_n none X W) (wrapped (rowIdx x1)))
        (broadcastInDim S680000x128 ![0, 1] bcast_S680000x1_S680000x128_0_1
          (broadcastInDim S680000x1 ![0] bcast_S680000_S680000x1_0 (norm x1)))))
    (broadcastInDim S40000x128 ![0, 1] bcast_S1x128_S40000x128_0_1 (broadcastInDim S1x128 ![1] bcast_S128_S1x128_1 b))

/-- One layer. -/
def layer (x1 : IVec S2x640000 32) (X : FVec Ideal S40000x128 .f32) (W : FVec Ideal S128x128 .f32) (b g e : FVec Ideal S128 .f32) :
    FVec Ideal S40000x128 .f32 :=
  LnStage.stageR reducesTo_S40000x128_S40000_d1 h_S_ bcast_S40000_S40000x1_0 bcast_S_S40000x1 bcast_S40000x1_S40000x128_0_1
    bcast_S128_S1x128_1 bcast_S1x128_S40000x128_0_1 bcast_S_S40000x128 (pre x1 X W b) g e

/-- The pooled node array: sums along the graph index over max (count, 1). -/
def pooled (x2 : IVec S40000 32) (H : FVec Ideal S40000x128 .f32) : FVec Ideal S64x128 .f32 :=
  Host.divf (Host.scatterAdd scatter_S64x128_S40000x1_S40000x128_1_0_0_1
      (broadcastInDim S64x128 ![] bcast_S_S64x128 (constant S_ .f32 0x00000000#32))
      (broadcastInDim S40000x1 ![0] bcast_S40000_S40000x1_0 x2) H)
    (broadcastInDim S64x128 ![0, 1] bcast_S64x1_S64x128_0_1 (broadcastInDim S64x1 ![0] bcast_S64_S64x1_0
      (maximumf (Host.scatterAdd scatter_S64_S40000x1_S40000_n_0_0_1
          (broadcastInDim S64 ![] bcast_S_S64 (constant S_ .f32 0x00000000#32))
          (broadcastInDim S40000x1 ![0] bcast_S40000_S40000x1_0 x2)
          (broadcastInDim S40000 ![] bcast_S_S40000 (constant S_ .f32 0x3F800000#32)))
        (broadcastInDim S64 ![] bcast_S_S64 (constant S_ .f32 0x3F800000#32)))))

/-- The final linear map. -/
def tail (P : FVec Ideal S64x128 .f32) (Wl : FVec Ideal S128x10 .f32) (bl : FVec Ideal S10 .f32) : FVec Ideal S64x10 .f32 :=
  addf (Host.dotGeneral dot_S64x128_S128x10_S64x10_1_0_0_1_n_n none P Wl)
    (broadcastInDim S64x10 ![0, 1] bcast_S1x10_S64x10_0_1 (broadcastInDim S1x10 ![1] bcast_S10_S1x10_1 bl))

/-- The program's result is the stages composed. -/
theorem result_eq (x0 : FVec Ideal S40000x128 .f32) (x1 : IVec S2x640000 32) (x2 : IVec S40000 32)
    (x3 : FVec Ideal S128x128 .f32) (x4 : FVec Ideal S128 .f32) (x5 : FVec Ideal S128x128 .f32)
    (x6 x7 x8 x9 x10 : FVec Ideal S128 .f32) (x11 : FVec Ideal S128x10 .f32) (x12 : FVec Ideal S10 .f32) :
    val_main_v128 (F := Ideal) x0 x1 x2 x3 x4 x5 x6 x7 x8 x9 x10 x11 x12
      = tail (pooled x2 (layer x1 (layer x1 x0 x3 x4 x7 x8) x5 x6 x9 x10)) x11 x12 := rfl

end Cert.ReferenceIdeal.RNet

end
-- ==== Proof.Bridge.lean ====
/-
  The kernel's network and the reference's are one function of the argument arrays.

  The two programs compute the index vectors, the degree vector, the factor vector and the pooled mean by the same
  operations, so those stages agree by unfolding. A layer differs in arrangement only:
  * both normalise-and-clip the same rows: at node r, column j the reference's row entry is the weighted
    aggregation plus the bias, the kernel's is the aggregate of the pre-scaled product times the node's factor plus
    the bias, and both aggregations are the layer  c r · Σ_{e lands on r} (X·W)[s e, j] · c (s e)  because the
    factor is a non-negative real (it is rsqrt of a maximum with one);
  * the bias, gain and offset reach the stage as one-row arrays in the kernel and as vectors in the reference.
  The final linear map is a matrix product plus a bias row in both.
-/
import proofs.«153731_j5334349382373_2_alg».proof.Proof.KNet
import proofs.«153731_j5334349382373_2_alg».proof.Proof.RNet

set_option maxRecDepth 16384

noncomputable section

namespace Cert.Bridge

open Idealize.ShloMosaic Idealize.ShloMosaic.ValueIdx Cert.ScatterGather Cert.GraphMean Cert.Gcn Cert.RowOps Cert.Keepdims

/-- A lane reduction over 128 columns of 40000 rows leaves 40000 entries. -/
theorem reduces_rows : (⟨2, ![40000, 128]⟩ : Shape).Reduces [1] ⟨1, ![40000]⟩ := by decide

/-- The host's plain matrix product read at `(p, q)`. -/
theorem hostDot_apply {a k b : ℕ} (X : FVec Ideal ⟨2, ![a, k]⟩ .f32) (W : FVec Ideal ⟨2, ![k, b]⟩ .f32) (p : Fin a) (q : Fin b) :
    Host.dotGeneral (DotDims.plain a k b) none X W (ix2 p q) = ∑ j : Fin k, X (ix2 p j) * W (ix2 j q) := by
  simp only [Host.dotGeneral]
  exact dotGeneral_plain_apply X W none _ p q

/-! ## The stages both programs compute alike -/

theorem rowIdx_eq (x1 : IVec ⟨2, ![2, 640000]⟩ 32) : Cert.ReferenceIdeal.RNet.rowIdx x1 = Cert.KernelIdeal.KNet.rowIdx x1 := rfl
theorem colIdx_eq (x1 : IVec ⟨2, ![2, 640000]⟩ 32) : Cert.ReferenceIdeal.RNet.colIdx x1 = Cert.KernelIdeal.KNet.colIdx x1 := rfl
theorem dinv_eq (x1 : IVec ⟨2, ![2, 640000]⟩ 32) : Cert.ReferenceIdeal.RNet.dinv x1 = Cert.KernelIdeal.KNet.dinv x1 := rfl
theorem wrapped_eq (v : IVec ⟨1, ![680000]⟩ 32) : Cert.ReferenceIdeal.RNet.wrapped v = Cert.KernelIdeal.KNet.wrapped v := rfl
theorem pooled_eq (x2 : IVec ⟨1, ![40000]⟩ 32) (H : FVec Ideal ⟨2, ![40000, 128]⟩ .f32) : Cert.ReferenceIdeal.RNet.pooled x2 H = Cert.KernelIdeal.KNet.pooled x2 H := rfl

/-- The factor vector's entries are non-negative reals. -/
theorem dinv_nonneg_ne_top (x1 : IVec ⟨2, ![2, 640000]⟩ 32) (r : Fin 40000) :
    0 ≤ Cert.KernelIdeal.KNet.dinv x1 (ix1 r) ∧ Cert.KernelIdeal.KNet.dinv x1 (ix1 r) ≠ ⊤ :=
  GcnStage.factor_nonneg_ne_top Cert.KernelIdeal.Gen.bcast_S_S40000 (Cert.KernelIdeal.KNet.degv x1) r

/-! ## A layer -/

/-- The row entry the stage normalises, at node `r`, column `j`, in both arrangements. -/
theorem pre_eq (x1 : IVec ⟨2, ![2, 640000]⟩ 32) (X : FVec Ideal ⟨2, ![40000, 128]⟩ .f32) (W : FVec Ideal ⟨2, ![128, 128]⟩ .f32)
    (b : FVec Ideal ⟨1, ![128]⟩ .f32) (r : Fin 40000) (j : Fin 128) :
    Cert.ReferenceIdeal.RNet.pre x1 X W b (ix2 r j)
      = Cert.KernelIdeal.KNet.aggOf (Cert.KernelIdeal.KNet.rowIdx x1) (Cert.KernelIdeal.KNet.colIdx x1) (GcnStage.scaledProd X W (Cert.KernelIdeal.KNet.dinv2 x1) Cert.KernelIdeal.Gen.bitsLt_bf16_f32) (ix2 r j)
          * Cert.KernelIdeal.KNet.dinv2 x1 (ix2 r (0 : Fin 1))
        + shapeCast ⟨2, ![1, 128]⟩ b Cert.KernelIdeal.Gen.shapeCasts_S128_S1x128 (ix2 (0 : Fin 1) j) := by
  have hk := GcnStage.aggregate_prescaled Cert.KernelIdeal.gather_S40000x128_S680000x1_S680000x128_1_0_n_n_0_1_1128
    Cert.KernelIdeal.gather_S40000x128_S680000x1_S680000x128_1_0_n_n_0_1_1128.wf rfl
    Cert.KernelIdeal.scatter_S40000x128_S680000x1_S680000x128_1_0_0_1 Cert.KernelIdeal.scatter_S40000x128_S680000x1_S680000x128_1_0_0_1.wf rfl
    (broadcastInDim ⟨2, ![40000, 128]⟩ ![] Cert.KernelIdeal.Gen.bcast_S_S40000x128 (constant ⟨0, ![]⟩ .f32 0x00000000#32))
    (bcast_zero_f32 Cert.KernelIdeal.Gen.bcast_S_S40000x128) X W (Cert.KernelIdeal.KNet.dinv x1) Cert.KernelIdeal.Gen.shapeCasts_S40000_S40000x1
    (Cert.KernelIdeal.KNet.wrapped (Cert.KernelIdeal.KNet.rowIdx x1)) (broadcastInDim ⟨2, ![680000, 1]⟩ ![0] Cert.KernelIdeal.Gen.bcast_S680000_S680000x1_0 (Cert.KernelIdeal.KNet.colIdx x1))
    Cert.KernelIdeal.Gen.bitsLt_bf16_f32 r j
  have hr := GcnStage.aggregate_edge_weights Cert.ReferenceIdeal.gather_S40000x128_S680000x1_S680000x128_1_0_n_n_0_1_1128
    Cert.ReferenceIdeal.gather_S40000x128_S680000x1_S680000x128_1_0_n_n_0_1_1128.wf rfl
    Cert.ReferenceIdeal.scatter_S40000x128_S680000x1_S680000x128_1_0_0_1 Cert.ReferenceIdeal.scatter_S40000x128_S680000x1_S680000x128_1_0_0_1.wf rfl
    Cert.ReferenceIdeal.gather_S40000_S680000x1_S680000_n_0_n_n_0_1_1 Cert.ReferenceIdeal.gather_S40000_S680000x1_S680000_n_0_n_n_0_1_1.wf rfl
    (broadcastInDim ⟨2, ![40000, 128]⟩ ![] Cert.ReferenceIdeal.Gen.bcast_S_S40000x128 (constant ⟨0, ![]⟩ .f32 0x00000000#32))
    (bcast_zero_f32 Cert.ReferenceIdeal.Gen.bcast_S_S40000x128)
    (Host.dotGeneral Cert.ReferenceIdeal.dot_S40000x128_S128x128_S40000x128_1_0_0_1_n_n none X W) (Cert.KernelIdeal.KNet.dinv x1) (dinv_nonneg_ne_top x1)
    (Cert.KernelIdeal.KNet.colIdx x1)
    (broadcastInDim ⟨1, ![680000]⟩ ![] Cert.ReferenceIdeal.Gen.bcast_S_S680000 (constantI ⟨0, ![]⟩ 32 0#32))
    (broadcastInDim ⟨1, ![680000]⟩ ![] Cert.ReferenceIdeal.Gen.bcast_S_S680000 (constantI ⟨0, ![]⟩ 32 40000#32))
    (fun _ => rfl) (fun _ => rfl)
    (Cert.KernelIdeal.KNet.wrapped (Cert.KernelIdeal.KNet.rowIdx x1)) Cert.ReferenceIdeal.Gen.bcast_S680000_S680000x1_0 Cert.ReferenceIdeal.Gen.bcast_S680000x1_S680000x128_0_1 r j
  have hxw : (fun (r : Fin 40000) (k : Fin 128) => Host.dotGeneral Cert.ReferenceIdeal.dot_S40000x128_S128x128_S40000x128_1_0_0_1_n_n none X W (ix2 r k))
      = fun (r : Fin 40000) (k : Fin 128) => Cert.Gcn.Dense.prod X W (ix2 r k) :=
    funext fun r => funext fun k => hostDot_apply (a := 40000) (k := 128) (b := 128) X W r k
  rw [hxw] at hr
  simp only [Cert.ReferenceIdeal.RNet.pre, Cert.ReferenceIdeal.RNet.norm, rowIdx_eq, colIdx_eq, dinv_eq, wrapped_eq, Cert.KernelIdeal.KNet.aggOf, Cert.KernelIdeal.KNet.dinv2]
  unfold Cert.KernelIdeal.KNet.wrapped at hr hk ⊢
  show Host.scatterAdd (F := Ideal) Cert.ReferenceIdeal.scatter_S40000x128_S680000x1_S680000x128_1_0_0_1 _ _ _ (ix2 r j)
      + broadcastInDim ⟨2, ![40000, 128]⟩ ![0, 1] Cert.ReferenceIdeal.Gen.bcast_S1x128_S40000x128_0_1
          (broadcastInDim ⟨2, ![1, 128]⟩ ![1] Cert.ReferenceIdeal.Gen.bcast_S128_S1x128_1 b) (ix2 r j) = _
  rw [bcast_1b_ab_apply, bcast_b_1b_apply, shapeCast_a_1a_apply]
  have e1 := hr.trans hk.symm
  exact congrArg (fun z : EReal => z + b (ix1 j)) e1

/-- One layer of the reference is one layer of the kernel. -/
theorem layer_eq (x1 : IVec ⟨2, ![2, 640000]⟩ 32) (X : FVec Ideal ⟨2, ![40000, 128]⟩ .f32) (W : FVec Ideal ⟨2, ![128, 128]⟩ .f32)
    (b g e : FVec Ideal ⟨1, ![128]⟩ .f32) : Cert.ReferenceIdeal.RNet.layer x1 X W b g e = Cert.KernelIdeal.KNet.layer x1 X W b g e := by
  funext i
  obtain ⟨r, k, rfl⟩ : ∃ (r : Fin 40000) (k : Fin 128), i = ix2 r k := ⟨i 0, i 1, eq_ix2 i⟩
  have hR : Cert.ReferenceIdeal.RNet.layer x1 X W b g e (ix2 r k)
      = LnStage.lnRelu (fun j => Cert.ReferenceIdeal.RNet.pre x1 X W b (ix2 r j)) (fun j => g (ix1 j)) (fun j => e (ix1 j)) k :=
    LnStage.stageR_apply _ _ _ _ _ _ _ _ reduces_rows _ g e r k
  have hK : Cert.KernelIdeal.KNet.layer x1 X W b g e (ix2 r k)
      = LnStage.lnRelu (fun j => Cert.KernelIdeal.KNet.aggOf (Cert.KernelIdeal.KNet.rowIdx x1) (Cert.KernelIdeal.KNet.colIdx x1)
            (GcnStage.scaledProd X W (Cert.KernelIdeal.KNet.dinv2 x1) Cert.KernelIdeal.Gen.bitsLt_bf16_f32) (ix2 r j) * Cert.KernelIdeal.KNet.dinv2 x1 (ix2 r (0 : Fin 1))
          + shapeCast ⟨2, ![1, 128]⟩ b Cert.KernelIdeal.Gen.shapeCasts_S128_S1x128 (ix2 (0 : Fin 1) j))
        (fun j => shapeCast ⟨2, ![1, 128]⟩ g Cert.KernelIdeal.Gen.shapeCasts_S128_S1x128 (ix2 (0 : Fin 1) j))
        (fun j => shapeCast ⟨2, ![1, 128]⟩ e Cert.KernelIdeal.Gen.shapeCasts_S128_S1x128 (ix2 (0 : Fin 1) j)) k := rfl
  rw [hR, hK]
  have h1 : (fun j => Cert.ReferenceIdeal.RNet.pre x1 X W b (ix2 r j)) = fun j => Cert.KernelIdeal.KNet.aggOf (Cert.KernelIdeal.KNet.rowIdx x1) (Cert.KernelIdeal.KNet.colIdx x1)
        (GcnStage.scaledProd X W (Cert.KernelIdeal.KNet.dinv2 x1) Cert.KernelIdeal.Gen.bitsLt_bf16_f32) (ix2 r j) * Cert.KernelIdeal.KNet.dinv2 x1 (ix2 r (0 : Fin 1))
      + shapeCast ⟨2, ![1, 128]⟩ b Cert.KernelIdeal.Gen.shapeCasts_S128_S1x128 (ix2 (0 : Fin 1) j) := funext fun j => pre_eq x1 X W b r j
  have h2 : (fun j => g (ix1 j)) = fun j => shapeCast ⟨2, ![1, 128]⟩ g Cert.KernelIdeal.Gen.shapeCasts_S128_S1x128 (ix2 (0 : Fin 1) j) :=
    funext fun j => (shapeCast_a_1a_apply g _ 0 j).symm
  have h3 : (fun j => e (ix1 j)) = fun j => shapeCast ⟨2, ![1, 128]⟩ e Cert.KernelIdeal.Gen.shapeCasts_S128_S1x128 (ix2 (0 : Fin 1) j) :=
    funext fun j => (shapeCast_a_1a_apply e _ 0 j).symm
  rw [h1, h2, h3]

/-! ## The tail -/

/-- The reference's final linear map is the kernel's. -/
theorem tail_eq (P : FVec Ideal ⟨2, ![64, 128]⟩ .f32) (Wl : FVec Ideal ⟨2, ![128, 10]⟩ .f32) (bl : FVec Ideal ⟨1, ![10]⟩ .f32) :
    Cert.ReferenceIdeal.RNet.tail P Wl bl = KStage.linear P Wl (shapeCast ⟨2, ![1, 10]⟩ bl Cert.KernelIdeal.Gen.shapeCasts_S10_S1x10) := by
  funext i
  obtain ⟨g, q, rfl⟩ : ∃ (g : Fin 64) (q : Fin 10), i = ix2 g q := ⟨i 0, i 1, eq_ix2 i⟩
  show Host.dotGeneral (DotDims.plain 64 128 10) none P Wl (ix2 g q)
      + broadcastInDim ⟨2, ![64, 10]⟩ ![0, 1] Cert.ReferenceIdeal.Gen.bcast_S1x10_S64x10_0_1 (broadcastInDim ⟨2, ![1, 10]⟩ ![1] Cert.ReferenceIdeal.Gen.bcast_S10_S1x10_1 bl) (ix2 g q)
    = (∑ k : Fin 128, P (ix2 g k) * Wl (ix2 k q)) + shapeCast ⟨2, ![1, 10]⟩ bl Cert.KernelIdeal.Gen.shapeCasts_S10_S1x10 (ix2 (0 : Fin 1) q)
  rw [hostDot_apply, bcast_1b_ab_apply, bcast_b_1b_apply, shapeCast_a_1a_apply]

/-! ## The networks -/

/-- The reference's result is the kernel's network of the same arguments. -/
theorem net_eq (x0 : FVec Ideal ⟨2, ![40000, 128]⟩ .f32) (x1 : IVec ⟨2, ![2, 640000]⟩ 32) (x2 : IVec ⟨1, ![40000]⟩ 32)
    (x3 : FVec Ideal ⟨2, ![128, 128]⟩ .f32) (x4 : FVec Ideal ⟨1, ![128]⟩ .f32) (x5 : FVec Ideal ⟨2, ![128, 128]⟩ .f32)
    (x6 x7 x8 x9 x10 : FVec Ideal ⟨1, ![128]⟩ .f32) (x11 : FVec Ideal ⟨2, ![128, 10]⟩ .f32) (x12 : FVec Ideal ⟨1, ![10]⟩ .f32) :
    Cert.ReferenceIdeal.Read.val_main_v128 (F := Ideal) x0 x1 x2 x3 x4 x5 x6 x7 x8 x9 x10 x11 x12
      = Cert.KernelIdeal.KNet.net x0 x1 x2 x3 x4 x5 x6 x7 x8 x9 x10 x11 x12 := by
  rw [Cert.ReferenceIdeal.RNet.result_eq, tail_eq, pooled_eq, layer_eq, layer_eq]
  rfl

end Cert.Bridge

end
-- ==== Proof.lean ====
/- The proof of `Cert.Claim`: a two-layer graph-convolution network (symmetric normalisation, LayerNorm, ReLU),
   mean-pooled by graph and projected, as five pallas_call regions among host gathers and scatter-adds, against its
   jnp reference.

   Frames: the two kernel programs' by their generated frame runs; the reference's by its generated run with the
   result dropped. The idealization ledger is empty.

   Value: the kernel program's result buffer is followed through its nine segments to one whole-array function of the
   arguments (Proof/KRun.lean names the last boundary's contents; Proof/Reg0 … Reg4 read each region's output array as a
   function of the arrays it reads; Proof/Chain.lean composes them with the host stretches), the reference's result is
   its generated run's term read as stages (Proof/RNet.lean), and the two are one function (Proof/Bridge.lean): the
   only arithmetic law used is that a node's factor, a non-negative real, comes out of the sum over the edges that land
   on the node. No finiteness of the inputs is needed. -/
import proofs.«153731_j5334349382373_2_alg».proof.Defs
import proofs.«153731_j5334349382373_2_alg».proof.Proof.Gen.Kernel
import proofs.«153731_j5334349382373_2_alg».proof.Proof.Gen.Kernel.Skeleton
import proofs.«153731_j5334349382373_2_alg».proof.Proof.Gen.Kernel.Launch
import proofs.«153731_j5334349382373_2_alg».proof.Proof.Gen.Kernel.Points
import proofs.«153731_j5334349382373_2_alg».proof.Proof.Gen.Kernel.Frame
import proofs.«153731_j5334349382373_2_alg».proof.Proof.Gen.KernelIdeal
import proofs.«153731_j5334349382373_2_alg».proof.Proof.Gen.KernelIdeal.Skeleton
import proofs.«153731_j5334349382373_2_alg».proof.Proof.Gen.KernelIdeal.Launch
import proofs.«153731_j5334349382373_2_alg».proof.Proof.Gen.KernelIdeal.Points
import proofs.«153731_j5334349382373_2_alg».proof.Proof.Gen.KernelIdeal.Frame
import proofs.«153731_j5334349382373_2_alg».proof.Proof.Gen.ReferenceIdeal
import proofs.«153731_j5334349382373_2_alg».proof.Proof.Gen.Pre_finite_inputs
import proofs.«153731_j5334349382373_2_alg».proof.Proof.Gen.ReferenceIdeal.Run
import proofs.«153731_j5334349382373_2_alg».proof.Proof.Gen.ReferenceIdeal.Read
import proofs.«153731_j5334349382373_2_alg».proof.Proof.KRun
import proofs.«153731_j5334349382373_2_alg».proof.Proof.Chain
import proofs.«153731_j5334349382373_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ledger is empty: the idealization is the program's own text read at the ideal instance. -/
theorem preserves : Cert.preserves_Kernel_KernelIdeal := trivial

/-- Both programs end with the network of the argument arrays in their result buffers. -/
theorem algebraic : Cert.algebraic_KernelIdeal_ReferenceIdeal := by
  intro m ρ m' ρ' _ hagree
  refine ⟨fun c => Cert.KernelIdeal.KNet.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Chain.result_eq m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11, a12⟩ := hagree c
    rw [Cert.ReferenceIdeal.Read.val_main_v128_eq, Cert.Bridge.net_eq, a0, a1, a2, a3, a4, a5, a6, a7, a8, a9, a10, a11, a12]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
